-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x1024 : Shape := ⟨3, ![2, 2048, 1024]⟩
abbrev S1024x1024 : Shape := ⟨2, ![1024, 1024]⟩
abbrev S1024 : Shape := ⟨1, ![1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024x1024 .f32) (main_arg8 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  main_v43

def fn_part1 {F : FTy → Type} [FloatOps F] (main_arg4 : FVec F S1024 .f32) (main_arg5 : FVec F S1024x1024 .f32) (main_arg6 : FVec F S1024 .f32) (main_arg7 : FVec F S1024x1024 .f32) (main_arg8 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_v33

def fn {F : FTy → Type} [FloatOps F] (main_arg0 : FVec F S2x2048x1024 .f32) (main_arg1 : FVec F S1024x1024 .f32) (main_arg2 : FVec F S1024 .f32) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_v13 main_v16
-- ==== Kernel.lean ====
abbrev S2x2048x1024 : Shape := ⟨3, ![2, 2048, 1024]⟩
abbrev S1024x1024 : Shape := ⟨2, ![1024, 1024]⟩
abbrev S1024 : Shape := ⟨1, ![1024]⟩
abbrev S4096x1024 : Shape := ⟨2, ![4096, 1024]⟩
abbrev S1024x3072 : Shape := ⟨2, ![1024, 3072]⟩
abbrev S3072 : Shape := ⟨1, ![3072]⟩
abbrev S1x3072 : Shape := ⟨2, ![1, 3072]⟩
abbrev S4096x3072 : Shape := ⟨2, ![4096, 3072]⟩
abbrev S512x1024 : Shape := ⟨2, ![512, 1024]⟩
abbrev S512x3072 : Shape := ⟨2, ![512, 3072]⟩
abbrev S2x2048x16x64 : Shape := ⟨4, ![2, 2048, 16, 64]⟩
abbrev S2x16x2048x64 : Shape := ⟨4, ![2, 16, 2048, 64]⟩
abbrev S32x2048x64 : Shape := ⟨3, ![32, 2048, 64]⟩
abbrev S16x64x1024 : Shape := ⟨3, ![16, 64, 1024]⟩
abbrev S1x1024 : Shape := ⟨2, ![1, 1024]⟩
abbrev S1x512x64 : Shape := ⟨3, ![1, 512, 64]⟩
abbrev S1x2048x64 : Shape := ⟨3, ![1, 2048, 64]⟩
abbrev S1x64x1024 : Shape := ⟨3, ![1, 64, 1024]⟩
abbrev S512x64 : Shape := ⟨2, ![512, 64]⟩
abbrev S2048x64 : Shape := ⟨2, ![2048, 64]⟩
abbrev S512x2048 : Shape := ⟨2, ![512, 2048]⟩
abbrev S512 : Shape := ⟨1, ![512]⟩
abbrev S512x1 : Shape := ⟨2, ![512, 1]⟩
abbrev S64x1024 : Shape := ⟨2, ![64, 1024]⟩

abbrev nBuf : Space → Nat
  | .hbm => 36
  | .vmem => 18
  | .smem => 0
  | _ => 0

abbrev bufTy : (tb : Table) → Fin (tcTables nBuf tb) → BufTy
  | .hbm, ⟨0, _⟩ => ⟨S2x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S4096x1024, .f32⟩
  | .hbm, ⟨10, _⟩ => ⟨S1024x1024, .f32⟩
  | .hbm, ⟨11, _⟩ => ⟨S1024x1024, .f32⟩
  | .hbm, ⟨12, _⟩ => ⟨S1024x1024, .f32⟩
  | .hbm, ⟨13, _⟩ => ⟨S1024x3072, .f32⟩
  | .hbm, ⟨14, _⟩ => ⟨S1024x3072, .bf16⟩
  | .hbm, ⟨15, _⟩ => ⟨S3072, .f32⟩
  | .hbm, ⟨16, _⟩ => ⟨S1x3072, .f32⟩
  | .hbm, ⟨17, _⟩ => ⟨S4096x3072, .bf16⟩
  | .hbm, ⟨18, _⟩ => ⟨S4096x1024, .bf16⟩
  | .hbm, ⟨19, _⟩ => ⟨S4096x1024, .bf16⟩
  | .hbm, ⟨20, _⟩ => ⟨S4096x1024, .bf16⟩
  | .hbm, ⟨21, _⟩ => ⟨S2x2048x16x64, .bf16⟩
  | .hbm, ⟨22, _⟩ => ⟨S2x16x2048x64, .bf16⟩
  | .hbm, ⟨23, _⟩ => ⟨S32x2048x64, .bf16⟩
  | .hbm, ⟨24, _⟩ => ⟨S2x2048x16x64, .bf16⟩
  | .hbm, ⟨25, _⟩ => ⟨S2x16x2048x64, .bf16⟩
  | .hbm, ⟨26, _⟩ => ⟨S32x2048x64, .bf16⟩
  | .hbm, ⟨27, _⟩ => ⟨S2x2048x16x64, .bf16⟩
  | .hbm, ⟨28, _⟩ => ⟨S2x16x2048x64, .bf16⟩
  | .hbm, ⟨29, _⟩ => ⟨S32x2048x64, .bf16⟩
  | .hbm, ⟨30, _⟩ => ⟨S1024x1024, .f32⟩
  | .hbm, ⟨31, _⟩ => ⟨S1024x1024, .bf16⟩
  | .hbm, ⟨32, _⟩ => ⟨S16x64x1024, .bf16⟩
  | .hbm, ⟨33, _⟩ => ⟨S1x1024, .f32⟩
  | .hbm, ⟨34, _⟩ => ⟨S4096x1024, .f32⟩
  | .hbm, ⟨35, _⟩ => ⟨S2x2048x1024, .f32⟩
  | .local _ .vmem, ⟨0, _⟩ => ⟨S512x1024, .f32⟩
  | .local _ .vmem, ⟨1, _⟩ => ⟨S512x1024, .f32⟩
  | .local _ .vmem, ⟨2, _⟩ => ⟨S1024x3072, .bf16⟩
  | .local _ .vmem, ⟨3, _⟩ => ⟨S1x3072, .f32⟩
  | .local _ .vmem, ⟨4, _⟩ => ⟨S512x3072, .bf16⟩
  | .local _ .vmem, ⟨5, _⟩ => ⟨S512x3072, .bf16⟩
  | .local _ .vmem, ⟨6, _⟩ => ⟨S1x512x64, .bf16⟩
  | .local _ .vmem, ⟨7, _⟩ => ⟨S1x512x64, .bf16⟩
  | .local _ .vmem, ⟨8, _⟩ => ⟨S1x2048x64, .bf16⟩
  | .local _ .vmem, ⟨9, _⟩ => ⟨S1x2048x64, .bf16⟩
  | .local _ .vmem, ⟨10, _⟩ => ⟨S1x2048x64, .bf16⟩
  | .local _ .vmem, ⟨11, _⟩ => ⟨S1x2048x64, .bf16⟩
  | .local _ .vmem, ⟨12, _⟩ => ⟨S1x64x1024, .bf16⟩
  | .local _ .vmem, ⟨13, _⟩ => ⟨S1x64x1024, .bf16⟩
  | .local _ .vmem, ⟨14, _⟩ => ⟨S1x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc1_scratch0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem5_0 : DmaSem sig := 15
abbrev cc1_sem5_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨3, ![2, 4, 16], ![false, false, false]⟩

def k1_cond2 (i : grid1.Coords) : BitVec 1 :=
  let arg2 : BitVec 32 := BitVec.ofNat 32 (i 2).val
  let c15_i32 : BitVec 32 := 15#32
  let v32 : BitVec 1 := Scalar.cmpi .eq arg2 c15_i32
  let v33 : BitVec 32 := Scalar.extui v32
  let c0_i32_21 : BitVec 32 := 0#32
  let v34 : BitVec 1 := Scalar.cmpi .ne v33 c0_i32_21
  v34

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  let c0_i32_0 : BitVec 32 := 0#32
  ![v1.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  let c0_i32_0 : BitVec 32 := 0#32
  let c0_i32_1 : BitVec 32 := 0#32
  ![v1.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  let c0_i32_0 : BitVec 32 := 0#32
  let c0_i32_1 : BitVec 32 := 0#32
  ![v1.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage1_0 : Fin 2 → Memref sig .tc .vmem S1x512x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S1x2048x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x2048x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, true]

abbrev stage1_3 : Fin 2 → Memref sig .tc .vmem S1x64x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, false, true]

abbrev stage1_4 : Fin 1 → Memref sig .tc .vmem S1x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false, false]

abbrev stage1_5 : Fin 2 → Memref sig .tc .vmem S512x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true, false]

class Facts₀ : Prop where
  shapeCasts_S2x2048x1024_S4096x1024 : S2x2048x1024.ShapeCasts S4096x1024
  transposes_S1024x1024_S1024x1024_1_0 : S1024x1024.Transposes [1, 0] S1024x1024
  concatenates_S1024x1024_S1024x1024_S1024x1024_S1024x3072_d1 : Shape.Concatenates [S1024x1024, S1024x1024, S1024x1024] S1024x3072 1
  bitsLt_bf16_f32 : FTy.bits .bf16 < FTy.bits .f32
  concatenates_S1024_S1024_S1024_S3072_d0 : Shape.Concatenates [S1024, S1024, S1024] S3072 0
  shapeCasts_S3072_S1x3072 : S3072.ShapeCasts S1x3072
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S1x3072_S1x3072_0_0 : ∀ a, (![0, 0] : Fin 2 → Nat) a + S1x3072.size a ≤ S1x3072.size a
  h_S1x3072 : 0 < S1x3072.numel
  shapeCasts_S1x3072_S1x3072 : S1x3072.ShapeCasts S1x3072
  broadcasts_S1x3072_S512x3072 : S1x3072.Broadcasts S512x3072
  inb_S512x3072_S512x3072_0_0 : ∀ a, (![0, 0] : Fin 2 → Nat) a + S512x3072.size a ≤ S512x3072.size a
  h_S512x3072 : 0 < S512x3072.numel
  packedbf16_S512x3072_S512x3072_0_0 : (Rect.unit (s := S512x3072) ![0, 0] S512x3072.size inb_S512x3072_S512x3072_0_0).PackedRows (EltTy.packing .bf16)
  slices_S4096x3072_S4096x1024_0_0 : S4096x3072.Slices ![0, 0] S4096x1024
  slices_S4096x3072_S4096x1024_0_1024 : S4096x3072.Slices ![0, 1024] S4096x1024
  slices_S4096x3072_S4096x1024_0_2048 : S4096x3072.Slices ![0, 2048] S4096x1024
  shapeCasts_S4096x1024_S2x2048x16x64 : S4096x1024.ShapeCasts S2x2048x16x64
  transposes_S2x2048x16x64_S2x16x2048x64_0_2_1_3 : S2x2048x16x64.Transposes [0, 2, 1, 3] S2x16x2048x64
  shapeCasts_S2x16x2048x64_S32x2048x64 : S2x16x2048x64.ShapeCasts S32x2048x64
  shapeCasts_S1024x1024_S16x64x1024 : S1024x1024.ShapeCasts S16x64x1024
  shapeCasts_S1024_S1x1024 : S1024.ShapeCasts S1x1024
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  reduces_S512x2048_S512 : S512x2048.Reduces [1] S512
  shapeCasts_S512_S512x1 : S512.ShapeCasts S512x1
  broadcasts_S512x1_S512x2048 : S512x1.Broadcasts S512x2048
  inb_S1x64x1024_S1x64x1024_0_0_0 : ∀ a, (![0, 0, 0] : Fin 3 → Nat) a + S1x64x1024.size a ≤ S1x64x1024.size a
  h_S1x64x1024 : 0 < S1x64x1024.numel
  shapeCasts_S1x64x1024_S64x1024 : S1x64x1024.ShapeCasts S64x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  shapeCasts_S4096x1024_S2x2048x1024 : S4096x1024.ShapeCasts S2x2048x1024
  dot_S512x1024_S1024x3072_S512x3072_1_0_0_1_n_n_wf : DotDims.WF S512x1024 S1024x3072 S512x3072 [1] [0] [0] [1] [] []
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  dot_S512x64_S64x1024_S512x1024_1_0_0_1_n_n_wf : DotDims.WF S512x64 S64x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .f32 = 32 ∨ (Rect.block (s := S4096x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x3072.size a ≤ S1024x3072.size a
  hwx0_1 : ∀ i : grid0.Coords, EltTy.bits .bf16 = 32 ∨ (Rect.block (s := S1024x3072) S1024x3072.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x3072.size a ≤ S1x3072.size a
  hwx0_2 : ∀ i : grid0.Coords, EltTy.bits .f32 = 32 ∨ (Rect.block (s := S1x3072) S1x3072.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x3072.size a ≤ S4096x3072.size a
  hwx0_3 : ∀ i : grid0.Coords, EltTy.bits .bf16 = 32 ∨ (Rect.block (s := S4096x3072) S512x3072.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x64.size a ≤ S32x2048x64.size a
  hwx1_0 : ∀ i : grid1.Coords, EltTy.bits .bf16 = 32 ∨ (Rect.block (s := S32x2048x64) S1x512x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x64.size a ≤ S32x2048x64.size a
  hwx1_1 : ∀ i : grid1.Coords, EltTy.bits .bf16 = 32 ∨ (Rect.block (s := S32x2048x64) S1x2048x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x64.size a ≤ S32x2048x64.size a
  hwx1_2 : ∀ i : grid1.Coords, EltTy.bits .bf16 = 32 ∨ (Rect.block (s := S32x2048x64) S1x2048x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x64x1024.size a ≤ S16x64x1024.size a
  hwx1_3 : ∀ i : grid1.Coords, EltTy.bits .bf16 = 32 ∨ (Rect.block (s := S16x64x1024) S1x64x1024.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1024.size a ≤ S1x1024.size a
  hwx1_4 : ∀ i : grid1.Coords, EltTy.bits .f32 = 32 ∨ (Rect.block (s := S1x1024) S1x1024.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S512x1024.size a ≤ S4096x1024.size a
  hwx1_5 : ∀ i : grid1.Coords, EltTy.bits .f32 = 32 ∨ (Rect.block (s := S4096x1024) S512x1024.size (cc1_transform_5 i) (hinb1_5 i)).WholeWords (EltTy.packing .f32)

variable [Facts₀]

def dot_S512x1024_S1024x3072_S512x3072_1_0_0_1_n_n : DotDims S512x1024 S1024x3072 S512x3072 where
  lhsContracting := [1]
  rhsContracting := [0]
  lhsNonContracting := [0]
  rhsNonContracting := [1]
  lhsBatch := []
  rhsBatch := []
  wf := dot_S512x1024_S1024x3072_S512x3072_1_0_0_1_n_n_wf
def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf
def dot_S512x64_S64x1024_S512x1024_1_0_0_1_n_n : DotDims S512x64 S64x1024 S512x1024 where
  lhsContracting := [1]
  rhsContracting := [0]
  lhsNonContracting := [0]
  rhsNonContracting := [1]
  lhsBatch := []
  rhsBatch := []
  wf := dot_S512x64_S64x1024_S512x1024_1_0_0_1_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1024x3072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S512x3072.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v14) S1x512x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S1x2048x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v20) S1x2048x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v23) S1x64x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v24) S1x1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v25) S512x1024.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

class Facts : Prop extends Facts₀ where

variable [Facts]
-- ==== ReferenceIdeal.lean ====
abbrev S2x2048x1024 : Shape := ⟨3, ![2, 2048, 1024]⟩
abbrev S1024x1024 : Shape := ⟨2, ![1024, 1024]⟩
abbrev S1024 : Shape := ⟨1, ![1024]⟩
abbrev S1x1x1024 : Shape := ⟨3, ![1, 1, 1024]⟩
abbrev S2x2048x16x64 : Shape := ⟨4, ![2, 2048, 16, 64]⟩
abbrev S2x16x2048x64 : Shape := ⟨4, ![2, 16, 2048, 64]⟩
abbrev S2x16x2048x2048 : Shape := ⟨4, ![2, 16, 2048, 2048]⟩
abbrev S_ : Shape := ⟨0, ![]⟩
abbrev S2x16x2048 : Shape := ⟨3, ![2, 16, 2048]⟩
abbrev S2x16x2048x1 : Shape := ⟨4, ![2, 16, 2048, 1]⟩

abbrev nBuf : Space → Nat
  | .hbm => 53
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S2x2048x1024, .f32⟩
  | .hbm, ⟨10, _⟩ => ⟨S1x1x1024, .f32⟩
  | .hbm, ⟨11, _⟩ => ⟨S2x2048x1024, .f32⟩
  | .hbm, ⟨12, _⟩ => ⟨S2x2048x1024, .f32⟩
  | .hbm, ⟨13, _⟩ => ⟨S2x2048x16x64, .f32⟩
  | .hbm, ⟨14, _⟩ => ⟨S2x16x2048x64, .f32⟩
  | .hbm, ⟨15, _⟩ => ⟨S2x2048x1024, .f32⟩
  | .hbm, ⟨16, _⟩ => ⟨S1x1x1024, .f32⟩
  | .hbm, ⟨17, _⟩ => ⟨S2x2048x1024, .f32⟩
  | .hbm, ⟨18, _⟩ => ⟨S2x2048x1024, .f32⟩
  | .hbm, ⟨19, _⟩ => ⟨S2x2048x16x64, .f32⟩
  | .hbm, ⟨20, _⟩ => ⟨S2x16x2048x64, .f32⟩
  | .hbm, ⟨21, _⟩ => ⟨S2x2048x1024, .f32⟩
  | .hbm, ⟨22, _⟩ => ⟨S1x1x1024, .f32⟩
  | .hbm, ⟨23, _⟩ => ⟨S2x2048x1024, .f32⟩
  | .hbm, ⟨24, _⟩ => ⟨S2x2048x1024, .f32⟩
  | .hbm, ⟨25, _⟩ => ⟨S2x2048x16x64, .f32⟩
  | .hbm, ⟨26, _⟩ => ⟨S2x16x2048x64, .f32⟩
  | .hbm, ⟨27, _⟩ => ⟨S2x16x2048x2048, .f32⟩
  | .hbm, ⟨28, _⟩ => ⟨S_, .f32⟩
  | .hbm, ⟨29, _⟩ => ⟨S_, .f32⟩
  | .hbm, ⟨30, _⟩ => ⟨S2x16x2048x2048, .f32⟩
  | .hbm, ⟨31, _⟩ => ⟨S2x16x2048x2048, .f32⟩
  | .hbm, ⟨32, _⟩ => ⟨S_, .f32⟩
  | .hbm, ⟨33, _⟩ => ⟨S2x16x2048, .f32⟩
  | .hbm, ⟨34, _⟩ => ⟨S_, .f32⟩
  | .hbm, ⟨35, _⟩ => ⟨S2x16x2048, .f32⟩
  | .hbm, ⟨36, _⟩ => ⟨S2x16x2048, .f32⟩
  | .hbm, ⟨37, _⟩ => ⟨S2x16x2048x1, .f32⟩
  | .hbm, ⟨38, _⟩ => ⟨S2x16x2048x2048, .f32⟩
  | .hbm, ⟨39, _⟩ => ⟨S2x16x2048x2048, .f32⟩
  | .hbm, ⟨40, _⟩ => ⟨S2x16x2048x2048, .f32⟩
  | .hbm, ⟨41, _⟩ => ⟨S_, .f32⟩
  | .hbm, ⟨42, _⟩ => ⟨S2x16x2048, .f32⟩
  | .hbm, ⟨43, _⟩ => ⟨S2x16x2048x1, .f32⟩
  | .hbm, ⟨44, _⟩ => ⟨S2x16x2048x2048, .f32⟩
  | .hbm, ⟨45, _⟩ => ⟨S2x16x2048x2048, .f32⟩
  | .hbm, ⟨46, _⟩ => ⟨S2x16x2048x64, .f32⟩
  | .hbm, ⟨47, _⟩ => ⟨S2x2048x16x64, .f32⟩
  | .hbm, ⟨48, _⟩ => ⟨S2x2048x1024, .f32⟩
  | .hbm, ⟨49, _⟩ => ⟨S2x2048x1024, .f32⟩
  | .hbm, ⟨50, _⟩ => ⟨S1x1x1024, .f32⟩
  | .hbm, ⟨51, _⟩ => ⟨S2x2048x1024, .f32⟩
  | .hbm, ⟨52, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_0 : Ref sig .tc := ⟨.hbm, 32, rfl⟩
abbrev main_v22 : Ref sig .tc := ⟨.hbm, 33, rfl⟩
abbrev main_cst_1 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_2 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S2x2048x1024_0_1_2 : S1x1x1024.BroadcastsInDim S2x2048x1024 (![0, 1, 2] : Fin 3 → Fin S2x2048x1024.rank)
  shapeCasts_S2x2048x1024_S2x2048x16x64 : S2x2048x1024.ShapeCasts S2x2048x16x64
  transposes_S2x2048x16x64_S2x16x2048x64_0_2_1_3 : S2x2048x16x64.Transposes [0, 2, 1, 3] S2x16x2048x64
  bcast_S_S2x16x2048x2048 : S_.BroadcastsInDim S2x16x2048x2048 (![] : Fin 0 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  transposes_S2x16x2048x64_S2x2048x16x64_0_2_1_3 : S2x16x2048x64.Transposes [0, 2, 1, 3] S2x2048x16x64
  shapeCasts_S2x2048x16x64_S2x2048x1024 : S2x2048x16x64.ShapeCasts S2x2048x1024
  dot_S2x2048x1024_S1024x1024_S2x2048x1024_2_1_01_0_n_n_wf : DotDims.WF S2x2048x1024 S1024x1024 S2x2048x1024 [2] [1] [0, 1] [0] [] []
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]

variable [Facts₀]

def dot_S2x2048x1024_S1024x1024_S2x2048x1024_2_1_01_0_n_n : DotDims S2x2048x1024 S1024x1024 S2x2048x1024 where
  lhsContracting := [2]
  rhsContracting := [1]
  lhsNonContracting := [0, 1]
  rhsNonContracting := [0]
  lhsBatch := []
  rhsBatch := []
  wf := dot_S2x2048x1024_S1024x1024_S2x2048x1024_2_1_01_0_n_n_wf
def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf

class Facts : Prop extends Facts₀ where

variable [Facts]
-- ==== Proof.Bits.QkvData.lean ====
/- The projection kernel's region (pipeline 0 of @main), first half: the windows' blocks at a point, what the
   body leaves in the output window's buffer as a function of the input blocks, and the pipeline's proof data, all
   at a PARAMETER `V` — the TensorCore's buffer contents when the region is entered. Generic in the float
   interpretation. -/
import proofs.«107395_j884763263199_2_alg».proof.Proof.Gen.Kernel.Launch
import proofs.«107395_j884763263199_2_alg».proof.Proof.Gen.Kernel.Skeleton
import proofs.«107395_j884763263199_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of the block's extents: the structural look recurses once per coordinate of the
-- long axes
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s (`hA`) and whose body leaves the block in place (`hafter`): where the window is not
    fetched its block index has not moved, so the previous point's block is this point's; the window is uncut and
    never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is `V`'s (`hA`) and whose body leaves the block in place (`hafter`): where the window is not
    fetched its block index has not moved, so the previous point's block is this point's; the window is uncut and
    never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof
    data whose array is `V`'s (`hA`) and whose body leaves the block in place (`hafter`): where the window is not
    fetched its block index has not moved, so the previous point's block is this point's; the window is uncut and
    never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each staging buffer whole -/

abbrev r0_0 : Rect S512x1024 := Rect.unit (s := S512x1024) ![0, 0] S512x1024.size inb_S512x1024_S512x1024_0_0
abbrev r0_1 : Rect S1024x3072 := Rect.unit (s := S1024x3072) ![0, 0] S1024x3072.size inb_S1024x3072_S1024x3072_0_0
abbrev r0_2 : Rect S1x3072 := Rect.unit (s := S1x3072) ![0, 0] S1x3072.size inb_S1x3072_S1x3072_0_0
abbrev r0_3 : Rect S512x3072 := Rect.unit (s := S512x3072) ![0, 0] S512x3072.size inb_S512x3072_S512x3072_0_0

/-! ## What the body leaves in the output window's buffer -/

/-- Window 3's staging buffer after the body, from the input windows' blocks: its one store, of the rounded
    product-plus-bias payload, over the whole buffer. -/
def out0_3 (x0 : Vec F S512x1024 .f32) (x1 : Vec F S1024x3072 .bf16) (x2 : Vec F S1x3072 .f32) : Vec F S512x3072 .bf16 :=
  View.canon [⟨r0_3, k0_pay1 (View.ld x0 r0_0) (View.ld x1 r0_1) (View.ld x2 r0_2)⟩]

/-- The store tiles the buffer (checked by evaluation), so it covers it. -/
theorem cover0_3 (p0 : Vec F S512x3072 .bf16) (y : S512x3072.Idx) :
    ∃ pc ∈ ([⟨r0_3, p0⟩] : List (View.Piece (Elt F) S512x3072 .bf16)), y ∈ pc.1.set :=
  View.cover_of_tiled [⟨r0_3, p0⟩] S512x3072.size (by rfl) y

/-! ## The pipeline's proof data -/

/-- The proof data of pipeline 0 on core `c`: the arrays as the region finds them (`V`); after the body at point
    `t` each input's buffer at its block and the output's at `out0_3` of the input blocks; the invariant is the
    scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

end Cert.Kernel.Hand

end
-- ==== Proof.Bits.AttnData.lean ====
/- The second region's proof data: the windows' blocks as the region finds them, what the scratch
   accumulator holds after each point of the grid, the region invariant that carries it from point to
   point, and the pipeline's proof data over them. -/
import proofs.«107395_j884763263199_2_alg».proof.Proof.Gen.Kernel.Launch
import proofs.«107395_j884763263199_2_alg».proof.Proof.Gen.Kernel.Skeleton
import proofs.«107395_j884763263199_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The accumulator -/

/-- What the scratch holds after point `n`: at a point with `n % 16 = 0` the head's contribution added to
    zero, at any other the head's contribution added to what the point before left. -/
def accAt (c : Dev nD) : (n : ℕ) → n < cfg1.N → Vec F S512x1024 .f32
  | 0, hn => k1_pay3 (iblk1 V c 0 ⟨0, hn⟩) (iblk1 V c 1 ⟨0, hn⟩) (iblk1 V c 2 ⟨0, hn⟩) (iblk1 V c 3 ⟨0, hn⟩) (k1_pay2 (F := F))
  | n + 1, hn =>
    if (n + 1) % 16 = 0 then
      k1_pay3 (iblk1 V c 0 ⟨n+1, hn⟩) (iblk1 V c 1 ⟨n+1, hn⟩) (iblk1 V c 2 ⟨n+1, hn⟩) (iblk1 V c 3 ⟨n+1, hn⟩) (k1_pay2 (F := F))
    else
      k1_pay3 (iblk1 V c 0 ⟨n+1, hn⟩) (iblk1 V c 1 ⟨n+1, hn⟩) (iblk1 V c 2 ⟨n+1, hn⟩) (iblk1 V c 3 ⟨n+1, hn⟩) (accAt c n (Nat.lt_of_succ_lt hn))

/-- At a point where the accumulator is reset: the head's contribution over zero. -/
theorem accAt_reset (c : Dev nD) (t : Fin cfg1.N) (h : t.val % 16 = 0) :
    accAt V c t.val t.isLt = k1_pay3 (iblk1 V c 0 t) (iblk1 V c 1 t) (iblk1 V c 2 t) (iblk1 V c 3 t) (k1_pay2 (F := F)) := by
  obtain ⟨n, hn⟩ := t
  cases n with
  | zero => rfl
  | succ n => exact (if_pos h).trans rfl

/-- At any other point: the head's contribution over what the point before left. -/
theorem accAt_step (c : Dev nD) (t : Fin cfg1.N) (h : t.val % 16 ≠ 0) :
    accAt V c t.val t.isLt = k1_pay3 (iblk1 V c 0 t) (iblk1 V c 1 t) (iblk1 V c 2 t) (iblk1 V c 3 t) (accAt V c (t.val - 1) (Nat.lt_of_le_of_lt (Nat.sub_le _ _) t.isLt)) := by
  obtain ⟨n, hn⟩ := t
  cases n with
  | zero => exact absurd (Nat.zero_mod _) h
  | succ n => exact (if_neg h).trans rfl

/-! ## The region invariant -/

/-- The scratch operand: a whole scoped buffer of the kernel's own, passed beside the windows. -/
abbrev scM1 : Memref sig .tc .vmem S512x1024 .f32 := Memref.whole cc1_scratch0

/-- The scoped buffers outside the pipeline, each at some contents except the scratch, which is held as `P` says,
    and the generator register at some state. -/
def PhiWith1 (c : Dev nD) (P : sProp 𝕄) : sProp 𝕄 :=
  iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ P) ∗ (∃ r, prngReg c r))

/-- What the launch hands the region is that, with the scratch at some contents. -/
theorem PhiA1_eq (c : Dev nD) :
    (Pipeline.ΦA spec1 c : sProp 𝕄) = PhiWith1 (F := F) c iprop(∃ d, owns (c : Thread nD τ) scM1 fullShare d) := by
  unfold Pipeline.ΦA PhiWith1; rw [scopedRest1_eq]; simp only [scM1, owns_whole]; try rfl

/-- The invariant is monotone in what it says of the scratch. -/
theorem PhiWith1_mono (c : Dev nD) {P Q : sProp 𝕄} (h : P ⊢ Q) : PhiWith1 (F := F) c P ⊢ PhiWith1 (F := F) c Q := by
  unfold PhiWith1
  iintro ⟨⟨H0, H1, H2, H3, H4, H5, HP⟩, Hg⟩
  isplitr [Hg]
  · isplitl [H0]; · iexact H0
    isplitl [H1]; · iexact H1
    isplitl [H2]; · iexact H2
    isplitl [H3]; · iexact H3
    isplitl [H4]; · iexact H4
    isplitl [H5]; · iexact H5
    iapply h; iexact HP
  iexact Hg

/-- The region invariant before position `n`: before the first point what the launch hands over (every scoped buffer
    outside the pipeline at anything); afterwards the same with the scratch at what the point before left in it. -/
def PhiS1 (c : Dev nD) : (n : ℕ) → n ≤ cfg1.N → sProp 𝕄
  | 0, _ => Pipeline.ΦA spec1 c
  | n + 1, hn => PhiWith1 (F := F) c (owns (c : Thread nD τ) scM1 fullShare (accAt V c n hn))

theorem PhiS1_zero (c : Dev nD) (n : ℕ) (h : n ≤ cfg1.N) (hz : n = 0) : PhiS1 V c n h = Pipeline.ΦA spec1 c := by
  subst hz; rfl

/-- After point `n` (before point `n + 1`): the scratch at that point's contents. -/
theorem PhiS1_succ (c : Dev nD) (n : ℕ) (hn : n < cfg1.N) :
    PhiS1 V c (n + 1) hn = PhiWith1 (F := F) c (owns (c : Thread nD τ) scM1 fullShare (accAt V c n hn)) := rfl

/-- Before a point that is not the first: the scratch at what the point before left. -/
theorem PhiS1_pos (c : Dev nD) (n : ℕ) (h : n ≤ cfg1.N) (hz : n ≠ 0) :
    PhiS1 V c n h = PhiWith1 (F := F) c (owns (c : Thread nD τ) scM1 fullShare (accAt V c (n - 1) (by omega))) := by
  cases n with
  | zero => exact absurd rfl hz
  | succ n => rfl

/-! ## The pipeline's proof data -/

/-- The proof data of the second pipeline on core `c`: the arrays as the region finds them (`V`); after the body at
    point `t` each input's buffer at its block, the output's at the accumulator plus the bias row (which matters only
    where the body stores it: elsewhere the window is idle and its buffer is handed back as found); the invariant
    `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => k1_pay1 (accAt V c t.val t.isLt) (iblk1 V c 4 t)
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = k1_pay1 (accAt V c t.val t.isLt) (iblk1 V c 4 t) := by dsimp only [dat1]

end Cert.Kernel.Hand

end
-- ==== Proof.Bits.Fold.lean ====
/-
  The contents of every unscoped buffer at each boundary of the program's main function: the launch memory; then the
  operations before the projection region applied; then that region's arrays at what its write-backs leave; then the
  operations between the regions; then the attention region's arrays; then the last reshape. Neither a host operation
  nor a region writes an argument array, so each argument's buffer walks back through the fold to its launch contents.
-/
import proofs.«107395_j884763263199_2_alg».proof.Proof.Bits.QkvData
import proofs.«107395_j884763263199_2_alg».proof.Proof.Bits.AttnData
import proofs.«107395_j884763263199_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary of @main: a fold from the launch memory -/

/-- Core `c`'s buffers at launch. -/
abbrev W0 : Dev nD → Valuation τ sig (Elt F) := fun c b => m (c, b)
/-- After the operations before the projection region. -/
abbrev W1 : Dev nD → Valuation τ sig (Elt F) := fun c => StableHlo.after hostOps0 (W0 m c)
abbrev U1 : (c : Dev nD) → (b : Ref sig .tc) → Buf (Elt F) ((c : Thread nD τ).loc b) := fun c b => W1 m c b
/-- After the projection region: its arrays at what the write-backs leave, every other buffer as entered. -/
def W2 (c : Dev nD) : Valuation τ sig (Elt F) :=
  Pipeline.withArrays spec0 c (W1 m c) fun w => (dat0 (U1 m) c).arrAt w cfg0.N
theorem W2_arr (c : Dev nD) (w : Fin cfg0.W) :
    W2 m c (Proc.devRef .tc (Pipeline.arrRef spec0 w)) = (dat0 (U1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev U2 : (c : Dev nD) → (b : Ref sig .tc) → Buf (Elt F) ((c : Thread nD τ).loc b) := fun c b => W2 m c b
theorem hF0 (c : Dev nD) (w : Fin cfg0.W) : (dat0 (U1 m) c).arrAt w cfg0.N = U2 m c (Pipeline.arrRef spec0 w) :=
  (W2_arr m c w).symm
theorem hrest0 (c : Dev nD) : ∀ b, b ∉ Finset.univ.image (Pipeline.arrRef spec0) → U2 m c b = U1 m c b :=
  fun b hb => W2_of_ne m c b fun w e => hb (Finset.mem_image.mpr ⟨w, Finset.mem_univ _, e⟩)

/-- After the operations between the regions. -/
abbrev W3 : Dev nD → Valuation τ sig (Elt F) := fun c => StableHlo.after hostOps1 (W2 m c)
abbrev U3 : (c : Dev nD) → (b : Ref sig .tc) → Buf (Elt F) ((c : Thread nD τ).loc b) := fun c b => W3 m c b
/-- After the attention region. -/
def W4 (c : Dev nD) : Valuation τ sig (Elt F) :=
  Pipeline.withArrays spec1 c (W3 m c) fun w => (dat1 (U3 m) c).arrAt w cfg1.N
theorem W4_arr (c : Dev nD) (w : Fin cfg1.W) :
    W4 m c (Proc.devRef .tc (Pipeline.arrRef spec1 w)) = (dat1 (U3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev U4 : (c : Dev nD) → (b : Ref sig .tc) → Buf (Elt F) ((c : Thread nD τ).loc b) := fun c b => W4 m c b
theorem hF1 (c : Dev nD) (w : Fin cfg1.W) : (dat1 (U3 m) c).arrAt w cfg1.N = U4 m c (Pipeline.arrRef spec1 w) :=
  (W4_arr m c w).symm
theorem hrest1 (c : Dev nD) : ∀ b, b ∉ Finset.univ.image (Pipeline.arrRef spec1) → U4 m c b = U3 m c b :=
  fun b hb => W4_of_ne m c b fun w e => hb (Finset.mem_image.mpr ⟨w, Finset.mem_univ _, e⟩)
/-- After the last operation: the buffers @main returns with. -/
abbrev W5 : Dev nD → Valuation τ sig (Elt F) := fun c => StableHlo.after hostOps2 (W4 m c)

/-! ### No operation and no region writes an argument -/

/-- A buffer that is no result of a host operation and no array of a region holds its launch contents to the end. -/
theorem W5_kept (c : Dev nD) (r : Ref sig .tc) (h0 : r ∉ hostOps0_W) (h1 : r ∉ hostOps1_W) (h2 : r ∉ hostOps2_W)
    (ha0 : ∀ w, Pipeline.arrRef spec0 w ≠ r) (ha1 : ∀ w, Pipeline.arrRef spec1 w ≠ r) :
    W5 m c (Proc.devRef .tc r) = m ((c : Thread nD τ).loc r) :=
  calc W5 m c (Proc.devRef .tc r)
    _ = W4 m c (Proc.devRef .tc r) := StableHlo.after_of_writes_sub hostOps2 _ hostOps2_writes h2
    _ = W3 m c (Proc.devRef .tc r) := W4_of_ne m c r ha1
    _ = W2 m c (Proc.devRef .tc r) := StableHlo.after_of_writes_sub hostOps1 _ hostOps1_writes h1
    _ = W1 m c (Proc.devRef .tc r) := W2_of_ne m c r ha0
    _ = W0 m c (Proc.devRef .tc r) := StableHlo.after_of_writes_sub hostOps0 _ hostOps0_writes h0
    _ = m ((c : Thread nD τ).loc r) := rfl

end Cert.Kernel.Hand

end
-- ==== Proof.Bits.QkvBody.lean ====
/- The projection kernel's region (pipeline 0 of @main), second half: the body's triple on whole staging memrefs,
   and the pipeline's body obligation at every point, at the region-entry contents `V`. Generic in the float
   interpretation. -/
import proofs.«107395_j884763263199_2_alg».proof.Proof.Bits.QkvData

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The body's triple -/

set_option maxHeartbeats 1000000 in
/-- The kernel body on whole staging memrefs, the three inputs' at read contents `x0 x1 x2` and the output's at
    anything, runs to the continuation holding the inputs' as they were and the output's at `out0_3` of the inputs'.
    The body reads the output buffer once before storing it whole; the value read is not used, and the buffer is
    owned at whatever it holds, so the read is allowed. -/
theorem sound_kernel0 (c : Dev nD) (E : Set ℕ) (i : grid0.Coords) (arg1 : Memref sig .tc .vmem S512x1024 .f32) (harg1 : arg1.IsWhole) (arg2 : Memref sig .tc .vmem S1024x3072 .bf16) (harg2 : arg2.IsWhole) (arg3 : Memref sig .tc .vmem S1x3072 .f32) (harg3 : arg3.IsWhole) (arg4 : Memref sig .tc .vmem S512x3072 .bf16) (harg4 : arg4.IsWhole)
    (x0 : Vec F S512x1024 .f32) (x1 : Vec F S1024x3072 .bf16) (x2 : Vec F S1x3072 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__qkv_kernel i arg1 harg1 arg2 harg2 arg3 harg3 arg4 harg4) K := by
  simp only [cc0__qkv_kernel_eq_skeleton]; unfold cc0__qkv_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The body obligation, at a generic point -/

/-- What the body is called with at point `t` (the body obligation's precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks (`before0_W`), so `sound_kernel0` applies; the
    invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.Bits.AttnRuns.lean ====
/- The second region's body, case by case: the conditions of its two branches on the grid coordinate in closed
   form, where its output window is idle, and the body's run in each of the three cases. -/
import proofs.«107395_j884763263199_2_alg».proof.Proof.Bits.AttnData
import Idealize.ShloMosaic.Lib.Pipeline.Value
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body's branch conditions -/

/-- The condition of the body's first branch (the reset of the accumulator), from the grid coordinates. -/
abbrev cond1_0 (i : grid1.Coords) : Prop := (Scalar.cmpi .ne (Scalar.extui (Scalar.cmpi .eq (BitVec.ofNat 32 (i 2).val) 0#32)) 0#32) = 1#1
/-- It holds at the points ≡ 0 (mod 16) — decided over the grid. -/
theorem hcond1_0 : ∀ t : Fin cfg1.N, cond1_0 (grid1.coords t) ↔ t.val % 16 = 0 :=
  (by decide +kernel : ∀ t : Fin grid1.N, cond1_0 (grid1.coords t) ↔ t.val % 16 = 0)

/-- The condition of the body's second branch (the store of the output), from the grid coordinates. -/
abbrev cond1_1 (i : grid1.Coords) : Prop := k1_cond2 i = 1#1
/-- It holds at the points ≡ 15 (mod 16) — decided over the grid. -/
theorem hcond1_1 : ∀ t : Fin cfg1.N, cond1_1 (grid1.coords t) ↔ t.val % 16 = 15 :=
  (by decide +kernel : ∀ t : Fin grid1.N, cond1_1 (grid1.coords t) ↔ t.val % 16 = 15)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
/-- Where the second branch is not taken the output window is idle: the body stores nothing into it, -/
theorem idleAt1_5 : ∀ t : Fin cfg1.N, ¬cond1_1 (grid1.coords t) → cfg1.idle 5 (grid1.coords t) = true := by decide +kernel
/-- and the pipeline does not write its block back. -/
theorem noFlush1_5 : ∀ t : Fin cfg1.N, ¬cond1_1 (grid1.coords t) → (cfg1.win 5).flush t = false := by decide +kernel
/-- Where it is taken the window is live. -/
theorem liveAt1_5 : ∀ t : Fin cfg1.N, cond1_1 (grid1.coords t) → cfg1.idle 5 (grid1.coords t) = false := by decide +kernel

/-! ## The staging memrefs at a point -/

/-- Each window's current staging memref at point `t`, as the pipeline passes it, and its wholeness. -/
abbrev ms1_0 (t : Fin cfg1.N) : Memref sig .tc .vmem S1x512x64 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x2048x64 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x2048x64 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x64x1024 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1024 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S512x1024 .f32 := win1_5.stage (cfg1.slots t 5)
abbrev hs1_5 (t : Fin cfg1.N) : (ms1_5 t).IsWhole := hstage1_5 ((cfg1.slots t 5).cast nbuf1_5)

/-- The whole-shape rectangle's offsets are zeros. -/
theorem hz2 : (![0, 0] : Fin 2 → Nat) = fun _ => 0 := funext fun a => by fin_cases a <;> rfl
theorem hz3 : (![0, 0, 0] : Fin 3 → Nat) = fun _ => 0 := funext fun a => by fin_cases a <;> rfl

/-! ## The body's run, case by case

On whole staging memrefs, the inputs' at their contents, the body runs to the continuation holding the inputs' as
they were and the scratch at the head's contribution added to what it held (to zero where it is reset); where the
output is not stored its buffer comes back as found, where it is stored it holds the accumulator plus the bias row. -/

set_option maxHeartbeats 1000000 in
/-- The first point of a row of heads: the accumulator is reset, then the head's contribution is added; the output's
    buffer is untouched. -/
theorem kernelRun1_A (c : Dev nD) (i : grid1.Coords) (arg3 : Memref sig .tc .vmem S1x512x64 .bf16) (harg3 : arg3.IsWhole) (arg4 : Memref sig .tc .vmem S1x2048x64 .bf16) (harg4 : arg4.IsWhole) (arg5 : Memref sig .tc .vmem S1x2048x64 .bf16) (harg5 : arg5.IsWhole) (arg6 : Memref sig .tc .vmem S1x64x1024 .bf16) (harg6 : arg6.IsWhole) (arg7 : Memref sig .tc .vmem S1x1024 .f32) (harg7 : arg7.IsWhole) (arg8 : Memref sig .tc .vmem S512x1024 .f32) (harg8 : arg8.IsWhole) (arg9 : Memref sig .tc .vmem S512x1024 .f32) (harg9 : arg9.IsWhole) (hc0 : cond1_0 i) (hc1 : ¬cond1_1 i)
    (x0 : Vec F S1x512x64 .bf16) (x1 : Vec F S1x2048x64 .bf16) (x2 : Vec F S1x2048x64 .bf16) (x3 : Vec F S1x64x1024 .bf16) (x4 : Vec F S1x1024 .f32) (xi5 : Vec F S512x1024 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ d, owns (c : Thread nD τ) arg9 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare (k1_pay3 x0 x1 x2 x3 (k1_pay2 (F := F)))) -∗ K ⟨⟩))
      ⊢ wp frame (wpE (defs₀ (F := F)) Variants.none c none) E (cc1__attn_o_kernel i arg3 harg3 arg4 harg4 arg5 harg5 arg6 harg6 arg7 harg7 arg8 harg8 arg9 harg9) K := by
  simp only [cc1__attn_o_kernel_eq_skeleton]; unfold cc1__attn_o_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
  obtain rfl := harg3.eq_unread hf0; obtain rfl := harg4.eq_unread hf1; obtain rfl := harg5.eq_unread hf2
  obtain rfl := harg6.eq_unread hf3; obtain rfl := harg7.eq_unread hf4; obtain rfl := harg8.eq_unread hf5
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  iexists _; isplitr
  swap; · iexact HS0
  ipureintro
  refine (View.read_writes_eq_canon _ _ _ (fun y => ⟨_, List.mem_cons_self, View.mem_set_unit_zero hz2 inb_S512x1024_S512x1024_0_0 y⟩)).trans ?_
  refine (View.canon_cons_unit_zero hz2 inb_S512x1024_S512x1024_0_0 _ _).trans ?_
  sl_unfold_words
  rw [View.readCov_unit_zero _ hz2]
  simp only [View.readAt_eq_ld, harg3.read_unread, harg4.read_unread, harg5.read_unread, harg6.read_unread, harg7.read_unread, harg9.read_unread, View.ld_unit_zero (S := S1x512x64) hz3, View.ld_unit_zero (S := S1x2048x64) hz3, View.ld_unit_zero (S := S1x64x1024) hz3, View.ld_unit_zero (S := S1x1024) hz2, View.ld_unit_zero (S := S512x1024) hz2]

set_option maxHeartbeats 1000000 in
/-- A middle point: the head's contribution is added to what the scratch held; the output's buffer is untouched. -/
theorem kernelRun1_B (c : Dev nD) (i : grid1.Coords) (arg3 : Memref sig .tc .vmem S1x512x64 .bf16) (harg3 : arg3.IsWhole) (arg4 : Memref sig .tc .vmem S1x2048x64 .bf16) (harg4 : arg4.IsWhole) (arg5 : Memref sig .tc .vmem S1x2048x64 .bf16) (harg5 : arg5.IsWhole) (arg6 : Memref sig .tc .vmem S1x64x1024 .bf16) (harg6 : arg6.IsWhole) (arg7 : Memref sig .tc .vmem S1x1024 .f32) (harg7 : arg7.IsWhole) (arg8 : Memref sig .tc .vmem S512x1024 .f32) (harg8 : arg8.IsWhole) (arg9 : Memref sig .tc .vmem S512x1024 .f32) (harg9 : arg9.IsWhole) (hc0 : ¬cond1_0 i) (hc1 : ¬cond1_1 i)
    (x0 : Vec F S1x512x64 .bf16) (x1 : Vec F S1x2048x64 .bf16) (x2 : Vec F S1x2048x64 .bf16) (x3 : Vec F S1x64x1024 .bf16) (x4 : Vec F S1x1024 .f32) (xi5 : Vec F S512x1024 .f32) (xs : Vec F S512x1024 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xs
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare (k1_pay3 x0 x1 x2 x3 xs)) -∗ K ⟨⟩))
      ⊢ wp frame (wpE (defs₀ (F := F)) Variants.none c none) E (cc1__attn_o_kernel i arg3 harg3 arg4 harg4 arg5 harg5 arg6 harg6 arg7 harg7 arg8 harg8 arg9 harg9) K := by
  simp only [cc1__attn_o_kernel_eq_skeleton]; unfold cc1__attn_o_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
  obtain rfl := harg3.eq_unread hf0; obtain rfl := harg4.eq_unread hf1; obtain rfl := harg5.eq_unread hf2
  obtain rfl := harg6.eq_unread hf3; obtain rfl := harg7.eq_unread hf4; obtain rfl := harg8.eq_unread hf5; obtain rfl := harg9.eq_unread hfs0
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  iexists _; isplitr
  swap; · iexact HS0
  ipureintro
  refine (View.read_writes_eq_canon _ _ _ (fun y => ⟨_, List.mem_cons_self, View.mem_set_unit_zero hz2 inb_S512x1024_S512x1024_0_0 y⟩)).trans ?_
  refine (View.canon_cons_unit_zero hz2 inb_S512x1024_S512x1024_0_0 _ _).trans ?_
  sl_unfold_words
  simp only [View.readAt_eq_ld, harg3.read_unread, harg4.read_unread, harg5.read_unread, harg6.read_unread, harg7.read_unread, harg9.read_unread, View.ld_unit_zero (S := S1x512x64) hz3, View.ld_unit_zero (S := S1x2048x64) hz3, View.ld_unit_zero (S := S1x64x1024) hz3, View.ld_unit_zero (S := S1x1024) hz2, View.ld_unit_zero (S := S512x1024) hz2]

set_option maxHeartbeats 1000000 in
/-- The last point of a row of heads: the head's contribution is added to what the scratch held, and the output's
    buffer is stored with the accumulator plus the bias row. -/
theorem kernelRun1_C (c : Dev nD) (i : grid1.Coords) (arg3 : Memref sig .tc .vmem S1x512x64 .bf16) (harg3 : arg3.IsWhole) (arg4 : Memref sig .tc .vmem S1x2048x64 .bf16) (harg4 : arg4.IsWhole) (arg5 : Memref sig .tc .vmem S1x2048x64 .bf16) (harg5 : arg5.IsWhole) (arg6 : Memref sig .tc .vmem S1x64x1024 .bf16) (harg6 : arg6.IsWhole) (arg7 : Memref sig .tc .vmem S1x1024 .f32) (harg7 : arg7.IsWhole) (arg8 : Memref sig .tc .vmem S512x1024 .f32) (harg8 : arg8.IsWhole) (arg9 : Memref sig .tc .vmem S512x1024 .f32) (harg9 : arg9.IsWhole) (hc0 : ¬cond1_0 i) (hc1 : cond1_1 i)
    (x0 : Vec F S1x512x64 .bf16) (x1 : Vec F S1x2048x64 .bf16) (x2 : Vec F S1x2048x64 .bf16) (x3 : Vec F S1x64x1024 .bf16) (x4 : Vec F S1x1024 .f32) (xs : Vec F S512x1024 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare xs
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare (k1_pay1 (k1_pay3 x0 x1 x2 x3 xs) x4) ∗ owns (c : Thread nD τ) arg9 fullShare (k1_pay3 x0 x1 x2 x3 xs)) -∗ K ⟨⟩))
      ⊢ wp frame (wpE (defs₀ (F := F)) Variants.none c none) E (cc1__attn_o_kernel i arg3 harg3 arg4 harg4 arg5 harg5 arg6 harg6 arg7 harg7 arg8 harg8 arg9 harg9) K := by
  simp only [cc1__attn_o_kernel_eq_skeleton]; unfold cc1__attn_o_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
  obtain rfl := harg3.eq_unread hf0; obtain rfl := harg4.eq_unread hf1; obtain rfl := harg5.eq_unread hf2
  obtain rfl := harg6.eq_unread hf3; obtain rfl := harg7.eq_unread hf4; obtain rfl := harg9.eq_unread hfs0
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr
    swap; · iexact H5
    ipureintro
    refine (View.read_writes_eq_canon _ _ _ (fun y => ⟨_, List.mem_cons_self, View.mem_set_unit_zero hz2 inb_S512x1024_S512x1024_0_0 y⟩)).trans ?_
    refine (View.canon_cons_unit_zero hz2 inb_S512x1024_S512x1024_0_0 _ _).trans ?_
    sl_unfold_words
    rw [View.readCov_unit_zero _ hz2]
    simp only [View.readAt_eq_ld, harg3.read_unread, harg4.read_unread, harg5.read_unread, harg6.read_unread, harg7.read_unread, harg9.read_unread, View.ld_unit_zero (S := S1x512x64) hz3, View.ld_unit_zero (S := S1x2048x64) hz3, View.ld_unit_zero (S := S1x64x1024) hz3, View.ld_unit_zero (S := S1x1024) hz2, View.ld_unit_zero (S := S512x1024) hz2]
  iexists _; isplitr
  swap; · iexact HS0
  ipureintro
  refine (View.read_writes_eq_canon _ _ _ (fun y => ⟨_, List.mem_cons_self, View.mem_set_unit_zero hz2 inb_S512x1024_S512x1024_0_0 y⟩)).trans ?_
  refine (View.canon_cons_unit_zero hz2 inb_S512x1024_S512x1024_0_0 _ _).trans ?_
  sl_unfold_words
  simp only [View.readAt_eq_ld, harg3.read_unread, harg4.read_unread, harg5.read_unread, harg6.read_unread, harg7.read_unread, harg9.read_unread, View.ld_unit_zero (S := S1x512x64) hz3, View.ld_unit_zero (S := S1x2048x64) hz3, View.ld_unit_zero (S := S1x64x1024) hz3, View.ld_unit_zero (S := S1x1024) hz2, View.ld_unit_zero (S := S512x1024) hz2]

end Cert.Kernel.Hand

end
-- ==== Proof.Bits.AttnBody.lean ====
/- The second region's body obligation: at every point of the grid the body, handed the windows' current buffers at
   what the pipeline staged and the scratch at what the point before left, leaves the scratch at this point's
   accumulator and the output window as the proof data says. -/
import proofs.«107395_j884763263199_2_alg».proof.Proof.Bits.AttnRuns
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The inputs' buffers hold their blocks -/

/-- Each input's current staging buffer holds its block at every point, fetched there or not. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl) (fun t => by rw [after1_4]; unfold Dat.blockOf iblk1; rw [A_eq1]; try rfl) t d).trans
    (by unfold Dat.fetched Dat.blockOf iblk1; rw [A_eq1]; try rfl)

/-! ## The invariant, taken apart and put back -/

/-- Whatever the invariant says of the scratch, the scratch is owned at some contents. -/
theorem PhiS1_any (c : Dev nD) (n : ℕ) (h : n ≤ cfg1.N) :
    PhiS1 V c n h ⊢ PhiWith1 (F := F) c iprop(∃ d, owns (c : Thread nD τ) scM1 fullShare d) := by
  cases n with
  | zero => rw [PhiS1_zero V c 0 h rfl, PhiA1_eq]
  | succ n =>
    rw [PhiS1_succ]
    exact PhiWith1_mono c (by iintro H; iexists _; iexact H)

/-- The invariant hands out what it says of the scratch, keeping the rest, -/
theorem PhiWith1_out (c : Dev nD) (P : sProp 𝕄) : PhiWith1 (F := F) c P ⊢ iprop(P ∗ PhiWith1 (F := F) c iprop(emp)) := by
  unfold PhiWith1
  iintro ⟨⟨H0, H1, H2, H3, H4, H5, HP⟩, Hg⟩
  isplitl [HP]; · iexact HP
  isplitr [Hg]
  · isplitl [H0]; · iexact H0
    isplitl [H1]; · iexact H1
    isplitl [H2]; · iexact H2
    isplitl [H3]; · iexact H3
    isplitl [H4]; · iexact H4
    isplitl [H5]; · iexact H5
    iempintro
  iexact Hg

/-- and takes it back. -/
theorem PhiWith1_in (c : Dev nD) (P : sProp 𝕄) : iprop(P ∗ PhiWith1 (F := F) c iprop(emp)) ⊢ PhiWith1 (F := F) c P := by
  unfold PhiWith1
  iintro ⟨HP, ⟨H0, H1, H2, H3, H4, H5, -⟩, Hg⟩
  isplitr [Hg]
  · isplitl [H0]; · iexact H0
    isplitl [H1]; · iexact H1
    isplitl [H2]; · iexact H2
    isplitl [H3]; · iexact H3
    isplitl [H4]; · iexact H4
    isplitl [H5]; · iexact H5
    iexact HP
  iexact Hg

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4800000 in
/-- The body at any point: the inputs' memrefs hold their blocks; the closed forms of the two conditions say which of
    the three cases the point is in, and that case's run applies; the invariant hands the body the scratch at what the
    point before left (at anything where the accumulator is reset) and takes it back at this point's accumulator; where
    the output is not stored the window is idle and not written back, and its buffer goes back as found. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [PhiS1_castSucc V c t]
  have hN : t.val < 128 := lt_of_lt_of_eq t.isLt (show cfg1.N = 128 from N_1)
  by_cases h0 : t.val % 16 = 0
  · have h1 : ¬t.val % 16 = 15 := by omega
    rw [Dat.leavesExact_idle (dat1 V c) 5 t (idleAt1_5 t (fun h => h1 ((hcond1_1 t).mp h))) (noFlush1_5 t (fun h => h1 ((hcond1_1 t).mp h)))]
    rw [accAt_reset V c t h0]
    iintro ⟨HP0, Ho, ⟨%d0, H0⟩, ⟨%d1, H1⟩, ⟨%d2, H2⟩, ⟨%d3, H3⟩, ⟨%d4, H4⟩, ⟨%d5, H5⟩⟩
    ihave HQ := ((PhiS1_any V c _ _).trans (PhiWith1_out c _)) $$ HP0
    icases HQ with ⟨HS0, HR⟩
    iapply (kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) _ Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    iintro ⟨H0, H1, H2, H3, H4, H5, HS0⟩
    isplitl [HS0 HR]
    · iapply (PhiWith1_in c _)
      isplitl [HS0]; · iexact HS0
      iexact HR
    isplitl [Ho]; · iexact Ho
    isplitl [H0]; · iexact H0
    isplitl [H1]; · iexact H1
    isplitl [H2]; · iexact H2
    isplitl [H3]; · iexact H3
    isplitl [H4]; · iexact H4
    iexists _; iexact H5
  · have hz : t.val ≠ 0 := fun e => h0 (by rw [e])
    rw [PhiS1_pos V c _ _ hz, accAt_step V c t h0]
    by_cases h1 : t.val % 16 = 15
    · rw [show (dat1 V c).leavesExact 5 t = owns (c : Thread nD τ) (ms1_5 t) fullShare ((dat1 V c).after 5 t) from by
        unfold Dat.leavesExact; rw [liveAt1_5 t ((hcond1_1 t).mpr h1)], after1_5, accAt_step V c t h0]
      iintro ⟨HP0, Ho, ⟨%d0, H0⟩, ⟨%d1, H1⟩, ⟨%d2, H2⟩, ⟨%d3, H3⟩, ⟨%d4, H4⟩, ⟨%d5, H5⟩⟩
      ihave HQ := (PhiWith1_out c _) $$ HP0
      icases HQ with ⟨HS0, HR⟩
      iapply (kernelRun1_C c (grid1.coords t) _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) _ Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      iintro ⟨H0, H1, H2, H3, H4, H5, HS0⟩
      isplitl [HS0 HR]
      · iapply (PhiWith1_in c _)
        isplitl [HS0]; · iexact HS0
        iexact HR
      isplitl [Ho]; · iexact Ho
      isplitl [H0]; · iexact H0
      isplitl [H1]; · iexact H1
      isplitl [H2]; · iexact H2
      isplitl [H3]; · iexact H3
      isplitl [H4]; · iexact H4
      iexact H5
    · rw [Dat.leavesExact_idle (dat1 V c) 5 t (idleAt1_5 t (fun h => h1 ((hcond1_1 t).mp h))) (noFlush1_5 t (fun h => h1 ((hcond1_1 t).mp h)))]
      iintro ⟨HP0, Ho, ⟨%d0, H0⟩, ⟨%d1, H1⟩, ⟨%d2, H2⟩, ⟨%d3, H3⟩, ⟨%d4, H4⟩, ⟨%d5, H5⟩⟩
      ihave HQ := (PhiWith1_out c _) $$ HP0
      icases HQ with ⟨HS0, HR⟩
      iapply (kernelRun1_B c (grid1.coords t) _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, HS0⟩
      isplitl [HS0 HR]
      · iapply (PhiWith1_in c _)
        isplitl [HS0]; · iexact HS0
        iexact HR
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]

/-- After the last point the invariant gives it back: the accumulator's contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl, PhiA1_eq]
  exact PhiS1_any V c _ _

end Cert.Kernel.Hand

end
-- ==== Proof.Bits.Run.lean ====
/-
  The run of the whole program: its main function is five segments — host operations, the projection region, host
  operations, the attention region, one last reshape. Each region is entered from "every unscoped buffer at the
  boundary's contents, the generator register at some state, nothing owed" and left at the next boundary's contents;
  the projection region's invariant is the scoped rest and the generator register throughout, the attention region's
  starts and ends as that and in between names what its accumulator holds. Every weakly fair execution then terminates,
  and the final memory holds every unscoped buffer at the last boundary's contents; in particular each argument array
  as launched.
-/
import proofs.«107395_j884763263199_2_alg».proof.Proof.Bits.Fold
import proofs.«107395_j884763263199_2_alg».proof.Proof.Bits.QkvBody
import proofs.«107395_j884763263199_2_alg».proof.Proof.Bits.AttnBody
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (U1 m) c
  | ⟨1, _⟩ => fun c => dat1 (U3 m) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W5 m c) ∗ ∃ r, prngReg c r)

/-! ## The regions as segments -/

set_option backward.isDefEq.respectTransparency.types false in
/-- The projection region over the thread state: entered from every unscoped buffer at `W1`, left at `W2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (U1 m c) (U2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region over the thread state: entered from every unscoped buffer at `W3`, left at `W4`. Its
    invariant starts as the scoped rest and the generator register, and gives them back at the end. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (U3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (U3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop(Pipeline.scopedRest spec1 c ∗ ∃ r, prngReg c r) : sProp 𝕄) ⊢ (pdats m 1 c).Φ 0 := by
      have h' := hin1 (U3 m) c
      unfold Pipeline.ΦA at h'
      exact h'
    iintro ⟨Hp, -, Hr⟩
    iapply h
    isplitl [Hr]; · iexact Hr
    iexact Hp
  hout c := by
    have h : (pdats m 1 c).Φ (Fin.last _) ⊢ (iprop(Pipeline.scopedRest spec1 c ∗ ∃ r, prngReg c r) : sProp 𝕄) := by
      have h' := hout1 (U3 m) c
      unfold Pipeline.ΦA at h'
      exact h'
    rw [Pipeline.ownSems0_none]
    iintro HP
    ihave H := h $$ HP
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (U3 m c) (U4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)) ]
theorem main_run (c : Dev nD) : main (F := F) c = Pipeline.Seg.run (segs m) := (main_chain c).trans (by chain_rfl)

set_option backward.isDefEq.respectTransparency.types false in
/-- THE RUN: from any memory with zero counters every weakly fair execution of @main terminates, nothing
    faulting, and every final state holds every unscoped buffer at the last boundary's contents `W5`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun c => by
      show (iprop(StableHlo.held (c : Thread nD τ) (Pipeline.ucRefs τ sig) (W5 m c) ∗ R c) : sProp 𝕄) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

/-- Each argument array, read in a memory that holds every unscoped buffer at the last boundary's contents, holds
    its launch contents. -/
theorem args_kept (c : Dev nD) (μ : (ℓ : Loc nD τ sig) → Buf (Elt F) ℓ)
    (h : ∀ b ∈ Pipeline.ucRefs τ sig, μ (((c : Thread nD τ)).1, b) = W5 m c b) :
    μ ((c.tc : Thread nD τ).loc main_arg0) = m ((c.tc : Thread nD τ).loc main_arg0)
      ∧ μ ((c.tc : Thread nD τ).loc main_arg1) = m ((c.tc : Thread nD τ).loc main_arg1)
      ∧ μ ((c.tc : Thread nD τ).loc main_arg2) = m ((c.tc : Thread nD τ).loc main_arg2)
      ∧ μ ((c.tc : Thread nD τ).loc main_arg3) = m ((c.tc : Thread nD τ).loc main_arg3)
      ∧ μ ((c.tc : Thread nD τ).loc main_arg4) = m ((c.tc : Thread nD τ).loc main_arg4)
      ∧ μ ((c.tc : Thread nD τ).loc main_arg5) = m ((c.tc : Thread nD τ).loc main_arg5)
      ∧ μ ((c.tc : Thread nD τ).loc main_arg6) = m ((c.tc : Thread nD τ).loc main_arg6)
      ∧ μ ((c.tc : Thread nD τ).loc main_arg7) = m ((c.tc : Thread nD τ).loc main_arg7)
      ∧ μ ((c.tc : Thread nD τ).loc main_arg8) = m ((c.tc : Thread nD τ).loc main_arg8) :=
  ⟨(h _ (mem_uc main_arg0 (by decide))).trans (W5_kept m c main_arg0 (by decide) (by decide) (by decide) (by decide) (by decide)),
   (h _ (mem_uc main_arg1 (by decide))).trans (W5_kept m c main_arg1 (by decide) (by decide) (by decide) (by decide) (by decide)),
   (h _ (mem_uc main_arg2 (by decide))).trans (W5_kept m c main_arg2 (by decide) (by decide) (by decide) (by decide) (by decide)),
   (h _ (mem_uc main_arg3 (by decide))).trans (W5_kept m c main_arg3 (by decide) (by decide) (by decide) (by decide) (by decide)),
   (h _ (mem_uc main_arg4 (by decide))).trans (W5_kept m c main_arg4 (by decide) (by decide) (by decide) (by decide) (by decide)),
   (h _ (mem_uc main_arg5 (by decide))).trans (W5_kept m c main_arg5 (by decide) (by decide) (by decide) (by decide) (by decide)),
   (h _ (mem_uc main_arg6 (by decide))).trans (W5_kept m c main_arg6 (by decide) (by decide) (by decide) (by decide) (by decide)),
   (h _ (mem_uc main_arg7 (by decide))).trans (W5_kept m c main_arg7 (by decide) (by decide) (by decide) (by decide) (by decide)),
   (h _ (mem_uc main_arg8 (by decide))).trans (W5_kept m c main_arg8 (by decide) (by decide) (by decide) (by decide) (by decide))⟩

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => args_kept m c r.2.mem (h c)) (run_all m ρ)

end Cert.Kernel.Hand

end
-- ==== Proof.QkvData.lean ====
/- The projection kernel's region (pipeline 0 of @main), first half: the windows' blocks at a point, what the
   body leaves in the output window's buffer as a function of the input blocks, and the pipeline's proof data, all
   at a PARAMETER `V` — the TensorCore's buffer contents when the region is entered. Generic in the float
   interpretation. -/
import proofs.«107395_j884763263199_2_alg».proof.Proof.Gen.KernelIdeal.Launch
import proofs.«107395_j884763263199_2_alg».proof.Proof.Gen.KernelIdeal.Skeleton
import proofs.«107395_j884763263199_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of the block's extents: the structural look recurses once per coordinate of the
-- long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s (`hA`) and whose body leaves the block in place (`hafter`): where the window is not
    fetched its block index has not moved, so the previous point's block is this point's; the window is uncut and
    never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is `V`'s (`hA`) and whose body leaves the block in place (`hafter`): where the window is not
    fetched its block index has not moved, so the previous point's block is this point's; the window is uncut and
    never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof
    data whose array is `V`'s (`hA`) and whose body leaves the block in place (`hafter`): where the window is not
    fetched its block index has not moved, so the previous point's block is this point's; the window is uncut and
    never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each staging buffer whole -/

abbrev r0_0 : Rect S512x1024 := Rect.unit (s := S512x1024) ![0, 0] S512x1024.size inb_S512x1024_S512x1024_0_0
abbrev r0_1 : Rect S1024x3072 := Rect.unit (s := S1024x3072) ![0, 0] S1024x3072.size inb_S1024x3072_S1024x3072_0_0
abbrev r0_2 : Rect S1x3072 := Rect.unit (s := S1x3072) ![0, 0] S1x3072.size inb_S1x3072_S1x3072_0_0
abbrev r0_3 : Rect S512x3072 := Rect.unit (s := S512x3072) ![0, 0] S512x3072.size inb_S512x3072_S512x3072_0_0

/-! ## What the body leaves in the output window's buffer -/

/-- Window 3's staging buffer after the body, from the input windows' blocks: its one store, of the rounded
    product-plus-bias payload, over the whole buffer. -/
def out0_3 (x0 : Vec F S512x1024 .f32) (x1 : Vec F S1024x3072 .bf16) (x2 : Vec F S1x3072 .f32) : Vec F S512x3072 .bf16 :=
  View.canon [⟨r0_3, k0_pay1 (View.ld x0 r0_0) (View.ld x1 r0_1) (View.ld x2 r0_2)⟩]

/-- The store tiles the buffer (checked by evaluation), so it covers it. -/
theorem cover0_3 (p0 : Vec F S512x3072 .bf16) (y : S512x3072.Idx) :
    ∃ pc ∈ ([⟨r0_3, p0⟩] : List (View.Piece (Elt F) S512x3072 .bf16)), y ∈ pc.1.set :=
  View.cover_of_tiled [⟨r0_3, p0⟩] S512x3072.size (by rfl) y

/-! ## The pipeline's proof data -/

/-- The proof data of pipeline 0 on core `c`: the arrays as the region finds them (`V`); after the body at point
    `t` each input's buffer at its block and the output's at `out0_3` of the input blocks; the invariant is the
    scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

end Cert.KernelIdeal.Hand

end
-- ==== Proof.AttnData.lean ====
/- The second region's proof data: the windows' blocks as the region finds them, what the scratch
   accumulator holds after each point of the grid, the region invariant that carries it from point to
   point, and the pipeline's proof data over them. -/
import proofs.«107395_j884763263199_2_alg».proof.Proof.Gen.KernelIdeal.Launch
import proofs.«107395_j884763263199_2_alg».proof.Proof.Gen.KernelIdeal.Skeleton
import proofs.«107395_j884763263199_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The accumulator -/

/-- What the scratch holds after point `n`: at a point with `n % 16 = 0` the head's contribution added to
    zero, at any other the head's contribution added to what the point before left. -/
def accAt (c : Dev nD) : (n : ℕ) → n < cfg1.N → Vec F S512x1024 .f32
  | 0, hn => k1_pay3 (iblk1 V c 0 ⟨0, hn⟩) (iblk1 V c 1 ⟨0, hn⟩) (iblk1 V c 2 ⟨0, hn⟩) (iblk1 V c 3 ⟨0, hn⟩) (k1_pay2 (F := F))
  | n + 1, hn =>
    if (n + 1) % 16 = 0 then
      k1_pay3 (iblk1 V c 0 ⟨n+1, hn⟩) (iblk1 V c 1 ⟨n+1, hn⟩) (iblk1 V c 2 ⟨n+1, hn⟩) (iblk1 V c 3 ⟨n+1, hn⟩) (k1_pay2 (F := F))
    else
      k1_pay3 (iblk1 V c 0 ⟨n+1, hn⟩) (iblk1 V c 1 ⟨n+1, hn⟩) (iblk1 V c 2 ⟨n+1, hn⟩) (iblk1 V c 3 ⟨n+1, hn⟩) (accAt c n (Nat.lt_of_succ_lt hn))

/-- At a point where the accumulator is reset: the head's contribution over zero. -/
theorem accAt_reset (c : Dev nD) (t : Fin cfg1.N) (h : t.val % 16 = 0) :
    accAt V c t.val t.isLt = k1_pay3 (iblk1 V c 0 t) (iblk1 V c 1 t) (iblk1 V c 2 t) (iblk1 V c 3 t) (k1_pay2 (F := F)) := by
  obtain ⟨n, hn⟩ := t
  cases n with
  | zero => rfl
  | succ n => exact (if_pos h).trans rfl

/-- At any other point: the head's contribution over what the point before left. -/
theorem accAt_step (c : Dev nD) (t : Fin cfg1.N) (h : t.val % 16 ≠ 0) :
    accAt V c t.val t.isLt = k1_pay3 (iblk1 V c 0 t) (iblk1 V c 1 t) (iblk1 V c 2 t) (iblk1 V c 3 t) (accAt V c (t.val - 1) (Nat.lt_of_le_of_lt (Nat.sub_le _ _) t.isLt)) := by
  obtain ⟨n, hn⟩ := t
  cases n with
  | zero => exact absurd (Nat.zero_mod _) h
  | succ n => exact (if_neg h).trans rfl

/-! ## The region invariant -/

/-- The scratch operand: a whole scoped buffer of the kernel's own, passed beside the windows. -/
abbrev scM1 : Memref sig .tc .vmem S512x1024 .f32 := Memref.whole cc1_scratch0

/-- The scoped buffers outside the pipeline, each at some contents except the scratch, which is held as `P` says,
    and the generator register at some state. -/
def PhiWith1 (c : Dev nD) (P : sProp 𝕄) : sProp 𝕄 :=
  iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ P) ∗ (∃ r, prngReg c r))

/-- What the launch hands the region is that, with the scratch at some contents. -/
theorem PhiA1_eq (c : Dev nD) :
    (Pipeline.ΦA spec1 c : sProp 𝕄) = PhiWith1 (F := F) c iprop(∃ d, owns (c : Thread nD τ) scM1 fullShare d) := by
  unfold Pipeline.ΦA PhiWith1; rw [scopedRest1_eq]; simp only [scM1, owns_whole]; try rfl

/-- The invariant is monotone in what it says of the scratch. -/
theorem PhiWith1_mono (c : Dev nD) {P Q : sProp 𝕄} (h : P ⊢ Q) : PhiWith1 (F := F) c P ⊢ PhiWith1 (F := F) c Q := by
  unfold PhiWith1
  iintro ⟨⟨H0, H1, H2, H3, H4, H5, HP⟩, Hg⟩
  isplitr [Hg]
  · isplitl [H0]; · iexact H0
    isplitl [H1]; · iexact H1
    isplitl [H2]; · iexact H2
    isplitl [H3]; · iexact H3
    isplitl [H4]; · iexact H4
    isplitl [H5]; · iexact H5
    iapply h; iexact HP
  iexact Hg

/-- The region invariant before position `n`: before the first point what the launch hands over (every scoped buffer
    outside the pipeline at anything); afterwards the same with the scratch at what the point before left in it. -/
def PhiS1 (c : Dev nD) : (n : ℕ) → n ≤ cfg1.N → sProp 𝕄
  | 0, _ => Pipeline.ΦA spec1 c
  | n + 1, hn => PhiWith1 (F := F) c (owns (c : Thread nD τ) scM1 fullShare (accAt V c n hn))

theorem PhiS1_zero (c : Dev nD) (n : ℕ) (h : n ≤ cfg1.N) (hz : n = 0) : PhiS1 V c n h = Pipeline.ΦA spec1 c := by
  subst hz; rfl

/-- After point `n` (before point `n + 1`): the scratch at that point's contents. -/
theorem PhiS1_succ (c : Dev nD) (n : ℕ) (hn : n < cfg1.N) :
    PhiS1 V c (n + 1) hn = PhiWith1 (F := F) c (owns (c : Thread nD τ) scM1 fullShare (accAt V c n hn)) := rfl

/-- Before a point that is not the first: the scratch at what the point before left. -/
theorem PhiS1_pos (c : Dev nD) (n : ℕ) (h : n ≤ cfg1.N) (hz : n ≠ 0) :
    PhiS1 V c n h = PhiWith1 (F := F) c (owns (c : Thread nD τ) scM1 fullShare (accAt V c (n - 1) (by omega))) := by
  cases n with
  | zero => exact absurd rfl hz
  | succ n => rfl

/-! ## The pipeline's proof data -/

/-- The proof data of the second pipeline on core `c`: the arrays as the region finds them (`V`); after the body at
    point `t` each input's buffer at its block, the output's at the accumulator plus the bias row (which matters only
    where the body stores it: elsewhere the window is idle and its buffer is handed back as found); the invariant
    `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => k1_pay1 (accAt V c t.val t.isLt) (iblk1 V c 4 t)
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = k1_pay1 (accAt V c t.val t.isLt) (iblk1 V c 4 t) := by dsimp only [dat1]

end Cert.KernelIdeal.Hand

end
-- ==== Proof.Fold.lean ====
/-
  The contents of every unscoped buffer at each boundary of the program's main function: the launch memory; then the
  operations before the projection region applied; then that region's arrays at what its write-backs leave; then the
  operations between the regions; then the attention region's arrays; then the last reshape. Neither a host operation
  nor a region writes an argument array, so each argument's buffer walks back through the fold to its launch contents.
-/
import proofs.«107395_j884763263199_2_alg».proof.Proof.QkvData
import proofs.«107395_j884763263199_2_alg».proof.Proof.AttnData
import proofs.«107395_j884763263199_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary of @main: a fold from the launch memory -/

/-- Core `c`'s buffers at launch. -/
abbrev W0 : Dev nD → Valuation τ sig (Elt F) := fun c b => m (c, b)
/-- After the operations before the projection region. -/
abbrev W1 : Dev nD → Valuation τ sig (Elt F) := fun c => StableHlo.after hostOps0 (W0 m c)
abbrev U1 : (c : Dev nD) → (b : Ref sig .tc) → Buf (Elt F) ((c : Thread nD τ).loc b) := fun c b => W1 m c b
/-- After the projection region: its arrays at what the write-backs leave, every other buffer as entered. -/
def W2 (c : Dev nD) : Valuation τ sig (Elt F) :=
  Pipeline.withArrays spec0 c (W1 m c) fun w => (dat0 (U1 m) c).arrAt w cfg0.N
theorem W2_arr (c : Dev nD) (w : Fin cfg0.W) :
    W2 m c (Proc.devRef .tc (Pipeline.arrRef spec0 w)) = (dat0 (U1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev U2 : (c : Dev nD) → (b : Ref sig .tc) → Buf (Elt F) ((c : Thread nD τ).loc b) := fun c b => W2 m c b
theorem hF0 (c : Dev nD) (w : Fin cfg0.W) : (dat0 (U1 m) c).arrAt w cfg0.N = U2 m c (Pipeline.arrRef spec0 w) :=
  (W2_arr m c w).symm
theorem hrest0 (c : Dev nD) : ∀ b, b ∉ Finset.univ.image (Pipeline.arrRef spec0) → U2 m c b = U1 m c b :=
  fun b hb => W2_of_ne m c b fun w e => hb (Finset.mem_image.mpr ⟨w, Finset.mem_univ _, e⟩)

/-- After the operations between the regions. -/
abbrev W3 : Dev nD → Valuation τ sig (Elt F) := fun c => StableHlo.after hostOps1 (W2 m c)
abbrev U3 : (c : Dev nD) → (b : Ref sig .tc) → Buf (Elt F) ((c : Thread nD τ).loc b) := fun c b => W3 m c b
/-- After the attention region. -/
def W4 (c : Dev nD) : Valuation τ sig (Elt F) :=
  Pipeline.withArrays spec1 c (W3 m c) fun w => (dat1 (U3 m) c).arrAt w cfg1.N
theorem W4_arr (c : Dev nD) (w : Fin cfg1.W) :
    W4 m c (Proc.devRef .tc (Pipeline.arrRef spec1 w)) = (dat1 (U3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev U4 : (c : Dev nD) → (b : Ref sig .tc) → Buf (Elt F) ((c : Thread nD τ).loc b) := fun c b => W4 m c b
theorem hF1 (c : Dev nD) (w : Fin cfg1.W) : (dat1 (U3 m) c).arrAt w cfg1.N = U4 m c (Pipeline.arrRef spec1 w) :=
  (W4_arr m c w).symm
theorem hrest1 (c : Dev nD) : ∀ b, b ∉ Finset.univ.image (Pipeline.arrRef spec1) → U4 m c b = U3 m c b :=
  fun b hb => W4_of_ne m c b fun w e => hb (Finset.mem_image.mpr ⟨w, Finset.mem_univ _, e⟩)
/-- After the last operation: the buffers @main returns with. -/
abbrev W5 : Dev nD → Valuation τ sig (Elt F) := fun c => StableHlo.after hostOps2 (W4 m c)

/-! ### No operation and no region writes an argument -/

/-- A buffer that is no result of a host operation and no array of a region holds its launch contents to the end. -/
theorem W5_kept (c : Dev nD) (r : Ref sig .tc) (h0 : r ∉ hostOps0_W) (h1 : r ∉ hostOps1_W) (h2 : r ∉ hostOps2_W)
    (ha0 : ∀ w, Pipeline.arrRef spec0 w ≠ r) (ha1 : ∀ w, Pipeline.arrRef spec1 w ≠ r) :
    W5 m c (Proc.devRef .tc r) = m ((c : Thread nD τ).loc r) :=
  calc W5 m c (Proc.devRef .tc r)
    _ = W4 m c (Proc.devRef .tc r) := StableHlo.after_of_writes_sub hostOps2 _ hostOps2_writes h2
    _ = W3 m c (Proc.devRef .tc r) := W4_of_ne m c r ha1
    _ = W2 m c (Proc.devRef .tc r) := StableHlo.after_of_writes_sub hostOps1 _ hostOps1_writes h1
    _ = W1 m c (Proc.devRef .tc r) := W2_of_ne m c r ha0
    _ = W0 m c (Proc.devRef .tc r) := StableHlo.after_of_writes_sub hostOps0 _ hostOps0_writes h0
    _ = m ((c : Thread nD τ).loc r) := rfl

end Cert.KernelIdeal.Hand

end
-- ==== Proof.QkvBody.lean ====
/- The projection kernel's region (pipeline 0 of @main), second half: the body's triple on whole staging memrefs,
   and the pipeline's body obligation at every point, at the region-entry contents `V`. Generic in the float
   interpretation. -/
import proofs.«107395_j884763263199_2_alg».proof.Proof.QkvData

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The body's triple -/

set_option maxHeartbeats 1000000 in
/-- The kernel body on whole staging memrefs, the three inputs' at read contents `x0 x1 x2` and the output's at
    anything, runs to the continuation holding the inputs' as they were and the output's at `out0_3` of the inputs'.
    The body reads the output buffer once before storing it whole; the value read is not used, and the buffer is
    owned at whatever it holds, so the read is allowed. -/
theorem sound_kernel0 (c : Dev nD) (E : Set ℕ) (i : grid0.Coords) (arg1 : Memref sig .tc .vmem S512x1024 .f32) (harg1 : arg1.IsWhole) (arg2 : Memref sig .tc .vmem S1024x3072 .bf16) (harg2 : arg2.IsWhole) (arg3 : Memref sig .tc .vmem S1x3072 .f32) (harg3 : arg3.IsWhole) (arg4 : Memref sig .tc .vmem S512x3072 .bf16) (harg4 : arg4.IsWhole)
    (x0 : Vec F S512x1024 .f32) (x1 : Vec F S1024x3072 .bf16) (x2 : Vec F S1x3072 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__qkv_kernel i arg1 harg1 arg2 harg2 arg3 harg3 arg4 harg4) K := by
  simp only [cc0__qkv_kernel_eq_skeleton]; unfold cc0__qkv_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The body obligation, at a generic point -/

/-- What the body is called with at point `t` (the body obligation's precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks (`before0_W`), so `sound_kernel0` applies; the
    invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.AttnRuns.lean ====
/- The second region's body, case by case: the conditions of its two branches on the grid coordinate in closed
   form, where its output window is idle, and the body's run in each of the three cases. -/
import proofs.«107395_j884763263199_2_alg».proof.Proof.AttnData
import Idealize.ShloMosaic.Lib.Pipeline.Value
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body's branch conditions -/

/-- The condition of the body's first branch (the reset of the accumulator), from the grid coordinates. -/
abbrev cond1_0 (i : grid1.Coords) : Prop := (Scalar.cmpi .ne (Scalar.extui (Scalar.cmpi .eq (BitVec.ofNat 32 (i 2).val) 0#32)) 0#32) = 1#1
/-- It holds at the points ≡ 0 (mod 16) — decided over the grid. -/
theorem hcond1_0 : ∀ t : Fin cfg1.N, cond1_0 (grid1.coords t) ↔ t.val % 16 = 0 :=
  (by decide +kernel : ∀ t : Fin grid1.N, cond1_0 (grid1.coords t) ↔ t.val % 16 = 0)

/-- The condition of the body's second branch (the store of the output), from the grid coordinates. -/
abbrev cond1_1 (i : grid1.Coords) : Prop := k1_cond2 i = 1#1
/-- It holds at the points ≡ 15 (mod 16) — decided over the grid. -/
theorem hcond1_1 : ∀ t : Fin cfg1.N, cond1_1 (grid1.coords t) ↔ t.val % 16 = 15 :=
  (by decide +kernel : ∀ t : Fin grid1.N, cond1_1 (grid1.coords t) ↔ t.val % 16 = 15)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
/-- Where the second branch is not taken the output window is idle: the body stores nothing into it, -/
theorem idleAt1_5 : ∀ t : Fin cfg1.N, ¬cond1_1 (grid1.coords t) → cfg1.idle 5 (grid1.coords t) = true := by decide +kernel
/-- and the pipeline does not write its block back. -/
theorem noFlush1_5 : ∀ t : Fin cfg1.N, ¬cond1_1 (grid1.coords t) → (cfg1.win 5).flush t = false := by decide +kernel
/-- Where it is taken the window is live. -/
theorem liveAt1_5 : ∀ t : Fin cfg1.N, cond1_1 (grid1.coords t) → cfg1.idle 5 (grid1.coords t) = false := by decide +kernel

/-! ## The staging memrefs at a point -/

/-- Each window's current staging memref at point `t`, as the pipeline passes it, and its wholeness. -/
abbrev ms1_0 (t : Fin cfg1.N) : Memref sig .tc .vmem S1x512x64 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x2048x64 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x2048x64 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x64x1024 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1024 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S512x1024 .f32 := win1_5.stage (cfg1.slots t 5)
abbrev hs1_5 (t : Fin cfg1.N) : (ms1_5 t).IsWhole := hstage1_5 ((cfg1.slots t 5).cast nbuf1_5)

/-- The whole-shape rectangle's offsets are zeros. -/
theorem hz2 : (![0, 0] : Fin 2 → Nat) = fun _ => 0 := funext fun a => by fin_cases a <;> rfl
theorem hz3 : (![0, 0, 0] : Fin 3 → Nat) = fun _ => 0 := funext fun a => by fin_cases a <;> rfl

/-! ## The body's run, case by case

On whole staging memrefs, the inputs' at their contents, the body runs to the continuation holding the inputs' as
they were and the scratch at the head's contribution added to what it held (to zero where it is reset); where the
output is not stored its buffer comes back as found, where it is stored it holds the accumulator plus the bias row. -/

set_option maxHeartbeats 1000000 in
/-- The first point of a row of heads: the accumulator is reset, then the head's contribution is added; the output's
    buffer is untouched. -/
theorem kernelRun1_A (c : Dev nD) (i : grid1.Coords) (arg3 : Memref sig .tc .vmem S1x512x64 .bf16) (harg3 : arg3.IsWhole) (arg4 : Memref sig .tc .vmem S1x2048x64 .bf16) (harg4 : arg4.IsWhole) (arg5 : Memref sig .tc .vmem S1x2048x64 .bf16) (harg5 : arg5.IsWhole) (arg6 : Memref sig .tc .vmem S1x64x1024 .bf16) (harg6 : arg6.IsWhole) (arg7 : Memref sig .tc .vmem S1x1024 .f32) (harg7 : arg7.IsWhole) (arg8 : Memref sig .tc .vmem S512x1024 .f32) (harg8 : arg8.IsWhole) (arg9 : Memref sig .tc .vmem S512x1024 .f32) (harg9 : arg9.IsWhole) (hc0 : cond1_0 i) (hc1 : ¬cond1_1 i)
    (x0 : Vec F S1x512x64 .bf16) (x1 : Vec F S1x2048x64 .bf16) (x2 : Vec F S1x2048x64 .bf16) (x3 : Vec F S1x64x1024 .bf16) (x4 : Vec F S1x1024 .f32) (xi5 : Vec F S512x1024 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ d, owns (c : Thread nD τ) arg9 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare (k1_pay3 x0 x1 x2 x3 (k1_pay2 (F := F)))) -∗ K ⟨⟩))
      ⊢ wp frame (wpE (defs₀ (F := F)) Variants.none c none) E (cc1__attn_o_kernel i arg3 harg3 arg4 harg4 arg5 harg5 arg6 harg6 arg7 harg7 arg8 harg8 arg9 harg9) K := by
  simp only [cc1__attn_o_kernel_eq_skeleton]; unfold cc1__attn_o_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
  obtain rfl := harg3.eq_unread hf0; obtain rfl := harg4.eq_unread hf1; obtain rfl := harg5.eq_unread hf2
  obtain rfl := harg6.eq_unread hf3; obtain rfl := harg7.eq_unread hf4; obtain rfl := harg8.eq_unread hf5
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  iexists _; isplitr
  swap; · iexact HS0
  ipureintro
  refine (View.read_writes_eq_canon _ _ _ (fun y => ⟨_, List.mem_cons_self, View.mem_set_unit_zero hz2 inb_S512x1024_S512x1024_0_0 y⟩)).trans ?_
  refine (View.canon_cons_unit_zero hz2 inb_S512x1024_S512x1024_0_0 _ _).trans ?_
  sl_unfold_words
  rw [View.readCov_unit_zero _ hz2]
  simp only [View.readAt_eq_ld, harg3.read_unread, harg4.read_unread, harg5.read_unread, harg6.read_unread, harg7.read_unread, harg9.read_unread, View.ld_unit_zero (S := S1x512x64) hz3, View.ld_unit_zero (S := S1x2048x64) hz3, View.ld_unit_zero (S := S1x64x1024) hz3, View.ld_unit_zero (S := S1x1024) hz2, View.ld_unit_zero (S := S512x1024) hz2]

set_option maxHeartbeats 1000000 in
/-- A middle point: the head's contribution is added to what the scratch held; the output's buffer is untouched. -/
theorem kernelRun1_B (c : Dev nD) (i : grid1.Coords) (arg3 : Memref sig .tc .vmem S1x512x64 .bf16) (harg3 : arg3.IsWhole) (arg4 : Memref sig .tc .vmem S1x2048x64 .bf16) (harg4 : arg4.IsWhole) (arg5 : Memref sig .tc .vmem S1x2048x64 .bf16) (harg5 : arg5.IsWhole) (arg6 : Memref sig .tc .vmem S1x64x1024 .bf16) (harg6 : arg6.IsWhole) (arg7 : Memref sig .tc .vmem S1x1024 .f32) (harg7 : arg7.IsWhole) (arg8 : Memref sig .tc .vmem S512x1024 .f32) (harg8 : arg8.IsWhole) (arg9 : Memref sig .tc .vmem S512x1024 .f32) (harg9 : arg9.IsWhole) (hc0 : ¬cond1_0 i) (hc1 : ¬cond1_1 i)
    (x0 : Vec F S1x512x64 .bf16) (x1 : Vec F S1x2048x64 .bf16) (x2 : Vec F S1x2048x64 .bf16) (x3 : Vec F S1x64x1024 .bf16) (x4 : Vec F S1x1024 .f32) (xi5 : Vec F S512x1024 .f32) (xs : Vec F S512x1024 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xs
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare (k1_pay3 x0 x1 x2 x3 xs)) -∗ K ⟨⟩))
      ⊢ wp frame (wpE (defs₀ (F := F)) Variants.none c none) E (cc1__attn_o_kernel i arg3 harg3 arg4 harg4 arg5 harg5 arg6 harg6 arg7 harg7 arg8 harg8 arg9 harg9) K := by
  simp only [cc1__attn_o_kernel_eq_skeleton]; unfold cc1__attn_o_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
  obtain rfl := harg3.eq_unread hf0; obtain rfl := harg4.eq_unread hf1; obtain rfl := harg5.eq_unread hf2
  obtain rfl := harg6.eq_unread hf3; obtain rfl := harg7.eq_unread hf4; obtain rfl := harg8.eq_unread hf5; obtain rfl := harg9.eq_unread hfs0
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  iexists _; isplitr
  swap; · iexact HS0
  ipureintro
  refine (View.read_writes_eq_canon _ _ _ (fun y => ⟨_, List.mem_cons_self, View.mem_set_unit_zero hz2 inb_S512x1024_S512x1024_0_0 y⟩)).trans ?_
  refine (View.canon_cons_unit_zero hz2 inb_S512x1024_S512x1024_0_0 _ _).trans ?_
  sl_unfold_words
  simp only [View.readAt_eq_ld, harg3.read_unread, harg4.read_unread, harg5.read_unread, harg6.read_unread, harg7.read_unread, harg9.read_unread, View.ld_unit_zero (S := S1x512x64) hz3, View.ld_unit_zero (S := S1x2048x64) hz3, View.ld_unit_zero (S := S1x64x1024) hz3, View.ld_unit_zero (S := S1x1024) hz2, View.ld_unit_zero (S := S512x1024) hz2]

set_option maxHeartbeats 1000000 in
/-- The last point of a row of heads: the head's contribution is added to what the scratch held, and the output's
    buffer is stored with the accumulator plus the bias row. -/
theorem kernelRun1_C (c : Dev nD) (i : grid1.Coords) (arg3 : Memref sig .tc .vmem S1x512x64 .bf16) (harg3 : arg3.IsWhole) (arg4 : Memref sig .tc .vmem S1x2048x64 .bf16) (harg4 : arg4.IsWhole) (arg5 : Memref sig .tc .vmem S1x2048x64 .bf16) (harg5 : arg5.IsWhole) (arg6 : Memref sig .tc .vmem S1x64x1024 .bf16) (harg6 : arg6.IsWhole) (arg7 : Memref sig .tc .vmem S1x1024 .f32) (harg7 : arg7.IsWhole) (arg8 : Memref sig .tc .vmem S512x1024 .f32) (harg8 : arg8.IsWhole) (arg9 : Memref sig .tc .vmem S512x1024 .f32) (harg9 : arg9.IsWhole) (hc0 : ¬cond1_0 i) (hc1 : cond1_1 i)
    (x0 : Vec F S1x512x64 .bf16) (x1 : Vec F S1x2048x64 .bf16) (x2 : Vec F S1x2048x64 .bf16) (x3 : Vec F S1x64x1024 .bf16) (x4 : Vec F S1x1024 .f32) (xs : Vec F S512x1024 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare xs
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare (k1_pay1 (k1_pay3 x0 x1 x2 x3 xs) x4) ∗ owns (c : Thread nD τ) arg9 fullShare (k1_pay3 x0 x1 x2 x3 xs)) -∗ K ⟨⟩))
      ⊢ wp frame (wpE (defs₀ (F := F)) Variants.none c none) E (cc1__attn_o_kernel i arg3 harg3 arg4 harg4 arg5 harg5 arg6 harg6 arg7 harg7 arg8 harg8 arg9 harg9) K := by
  simp only [cc1__attn_o_kernel_eq_skeleton]; unfold cc1__attn_o_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
  obtain rfl := harg3.eq_unread hf0; obtain rfl := harg4.eq_unread hf1; obtain rfl := harg5.eq_unread hf2
  obtain rfl := harg6.eq_unread hf3; obtain rfl := harg7.eq_unread hf4; obtain rfl := harg9.eq_unread hfs0
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr
    swap; · iexact H5
    ipureintro
    refine (View.read_writes_eq_canon _ _ _ (fun y => ⟨_, List.mem_cons_self, View.mem_set_unit_zero hz2 inb_S512x1024_S512x1024_0_0 y⟩)).trans ?_
    refine (View.canon_cons_unit_zero hz2 inb_S512x1024_S512x1024_0_0 _ _).trans ?_
    sl_unfold_words
    rw [View.readCov_unit_zero _ hz2]
    simp only [View.readAt_eq_ld, harg3.read_unread, harg4.read_unread, harg5.read_unread, harg6.read_unread, harg7.read_unread, harg9.read_unread, View.ld_unit_zero (S := S1x512x64) hz3, View.ld_unit_zero (S := S1x2048x64) hz3, View.ld_unit_zero (S := S1x64x1024) hz3, View.ld_unit_zero (S := S1x1024) hz2, View.ld_unit_zero (S := S512x1024) hz2]
  iexists _; isplitr
  swap; · iexact HS0
  ipureintro
  refine (View.read_writes_eq_canon _ _ _ (fun y => ⟨_, List.mem_cons_self, View.mem_set_unit_zero hz2 inb_S512x1024_S512x1024_0_0 y⟩)).trans ?_
  refine (View.canon_cons_unit_zero hz2 inb_S512x1024_S512x1024_0_0 _ _).trans ?_
  sl_unfold_words
  simp only [View.readAt_eq_ld, harg3.read_unread, harg4.read_unread, harg5.read_unread, harg6.read_unread, harg7.read_unread, harg9.read_unread, View.ld_unit_zero (S := S1x512x64) hz3, View.ld_unit_zero (S := S1x2048x64) hz3, View.ld_unit_zero (S := S1x64x1024) hz3, View.ld_unit_zero (S := S1x1024) hz2, View.ld_unit_zero (S := S512x1024) hz2]

end Cert.KernelIdeal.Hand

end
-- ==== Proof.AttnBody.lean ====
/- The second region's body obligation: at every point of the grid the body, handed the windows' current buffers at
   what the pipeline staged and the scratch at what the point before left, leaves the scratch at this point's
   accumulator and the output window as the proof data says. -/
import proofs.«107395_j884763263199_2_alg».proof.Proof.AttnRuns
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The inputs' buffers hold their blocks -/

/-- Each input's current staging buffer holds its block at every point, fetched there or not. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl) (fun t => by rw [after1_4]; unfold Dat.blockOf iblk1; rw [A_eq1]; try rfl) t d).trans
    (by unfold Dat.fetched Dat.blockOf iblk1; rw [A_eq1]; try rfl)

/-! ## The invariant, taken apart and put back -/

/-- Whatever the invariant says of the scratch, the scratch is owned at some contents. -/
theorem PhiS1_any (c : Dev nD) (n : ℕ) (h : n ≤ cfg1.N) :
    PhiS1 V c n h ⊢ PhiWith1 (F := F) c iprop(∃ d, owns (c : Thread nD τ) scM1 fullShare d) := by
  cases n with
  | zero => rw [PhiS1_zero V c 0 h rfl, PhiA1_eq]
  | succ n =>
    rw [PhiS1_succ]
    exact PhiWith1_mono c (by iintro H; iexists _; iexact H)

/-- The invariant hands out what it says of the scratch, keeping the rest, -/
theorem PhiWith1_out (c : Dev nD) (P : sProp 𝕄) : PhiWith1 (F := F) c P ⊢ iprop(P ∗ PhiWith1 (F := F) c iprop(emp)) := by
  unfold PhiWith1
  iintro ⟨⟨H0, H1, H2, H3, H4, H5, HP⟩, Hg⟩
  isplitl [HP]; · iexact HP
  isplitr [Hg]
  · isplitl [H0]; · iexact H0
    isplitl [H1]; · iexact H1
    isplitl [H2]; · iexact H2
    isplitl [H3]; · iexact H3
    isplitl [H4]; · iexact H4
    isplitl [H5]; · iexact H5
    iempintro
  iexact Hg

/-- and takes it back. -/
theorem PhiWith1_in (c : Dev nD) (P : sProp 𝕄) : iprop(P ∗ PhiWith1 (F := F) c iprop(emp)) ⊢ PhiWith1 (F := F) c P := by
  unfold PhiWith1
  iintro ⟨HP, ⟨H0, H1, H2, H3, H4, H5, -⟩, Hg⟩
  isplitr [Hg]
  · isplitl [H0]; · iexact H0
    isplitl [H1]; · iexact H1
    isplitl [H2]; · iexact H2
    isplitl [H3]; · iexact H3
    isplitl [H4]; · iexact H4
    isplitl [H5]; · iexact H5
    iexact HP
  iexact Hg

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4800000 in
/-- The body at any point: the inputs' memrefs hold their blocks; the closed forms of the two conditions say which of
    the three cases the point is in, and that case's run applies; the invariant hands the body the scratch at what the
    point before left (at anything where the accumulator is reset) and takes it back at this point's accumulator; where
    the output is not stored the window is idle and not written back, and its buffer goes back as found. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [PhiS1_castSucc V c t]
  have hN : t.val < 128 := lt_of_lt_of_eq t.isLt (show cfg1.N = 128 from N_1)
  by_cases h0 : t.val % 16 = 0
  · have h1 : ¬t.val % 16 = 15 := by omega
    rw [Dat.leavesExact_idle (dat1 V c) 5 t (idleAt1_5 t (fun h => h1 ((hcond1_1 t).mp h))) (noFlush1_5 t (fun h => h1 ((hcond1_1 t).mp h)))]
    rw [accAt_reset V c t h0]
    iintro ⟨HP0, Ho, ⟨%d0, H0⟩, ⟨%d1, H1⟩, ⟨%d2, H2⟩, ⟨%d3, H3⟩, ⟨%d4, H4⟩, ⟨%d5, H5⟩⟩
    ihave HQ := ((PhiS1_any V c _ _).trans (PhiWith1_out c _)) $$ HP0
    icases HQ with ⟨HS0, HR⟩
    iapply (kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) _ Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    iintro ⟨H0, H1, H2, H3, H4, H5, HS0⟩
    isplitl [HS0 HR]
    · iapply (PhiWith1_in c _)
      isplitl [HS0]; · iexact HS0
      iexact HR
    isplitl [Ho]; · iexact Ho
    isplitl [H0]; · iexact H0
    isplitl [H1]; · iexact H1
    isplitl [H2]; · iexact H2
    isplitl [H3]; · iexact H3
    isplitl [H4]; · iexact H4
    iexists _; iexact H5
  · have hz : t.val ≠ 0 := fun e => h0 (by rw [e])
    rw [PhiS1_pos V c _ _ hz, accAt_step V c t h0]
    by_cases h1 : t.val % 16 = 15
    · rw [show (dat1 V c).leavesExact 5 t = owns (c : Thread nD τ) (ms1_5 t) fullShare ((dat1 V c).after 5 t) from by
        unfold Dat.leavesExact; rw [liveAt1_5 t ((hcond1_1 t).mpr h1)], after1_5, accAt_step V c t h0]
      iintro ⟨HP0, Ho, ⟨%d0, H0⟩, ⟨%d1, H1⟩, ⟨%d2, H2⟩, ⟨%d3, H3⟩, ⟨%d4, H4⟩, ⟨%d5, H5⟩⟩
      ihave HQ := (PhiWith1_out c _) $$ HP0
      icases HQ with ⟨HS0, HR⟩
      iapply (kernelRun1_C c (grid1.coords t) _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) _ Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      iintro ⟨H0, H1, H2, H3, H4, H5, HS0⟩
      isplitl [HS0 HR]
      · iapply (PhiWith1_in c _)
        isplitl [HS0]; · iexact HS0
        iexact HR
      isplitl [Ho]; · iexact Ho
      isplitl [H0]; · iexact H0
      isplitl [H1]; · iexact H1
      isplitl [H2]; · iexact H2
      isplitl [H3]; · iexact H3
      isplitl [H4]; · iexact H4
      iexact H5
    · rw [Dat.leavesExact_idle (dat1 V c) 5 t (idleAt1_5 t (fun h => h1 ((hcond1_1 t).mp h))) (noFlush1_5 t (fun h => h1 ((hcond1_1 t).mp h)))]
      iintro ⟨HP0, Ho, ⟨%d0, H0⟩, ⟨%d1, H1⟩, ⟨%d2, H2⟩, ⟨%d3, H3⟩, ⟨%d4, H4⟩, ⟨%d5, H5⟩⟩
      ihave HQ := (PhiWith1_out c _) $$ HP0
      icases HQ with ⟨HS0, HR⟩
      iapply (kernelRun1_B c (grid1.coords t) _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, HS0⟩
      isplitl [HS0 HR]
      · iapply (PhiWith1_in c _)
        isplitl [HS0]; · iexact HS0
        iexact HR
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]

/-- After the last point the invariant gives it back: the accumulator's contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl, PhiA1_eq]
  exact PhiS1_any V c _ _

end Cert.KernelIdeal.Hand

end
-- ==== Proof.Run.lean ====
/-
  The run of the whole program: its main function is five segments — host operations, the projection region, host
  operations, the attention region, one last reshape. Each region is entered from "every unscoped buffer at the
  boundary's contents, the generator register at some state, nothing owed" and left at the next boundary's contents;
  the projection region's invariant is the scoped rest and the generator register throughout, the attention region's
  starts and ends as that and in between names what its accumulator holds. Every weakly fair execution then terminates,
  and the final memory holds every unscoped buffer at the last boundary's contents; in particular each argument array
  as launched.
-/
import proofs.«107395_j884763263199_2_alg».proof.Proof.Fold
import proofs.«107395_j884763263199_2_alg».proof.Proof.QkvBody
import proofs.«107395_j884763263199_2_alg».proof.Proof.AttnBody
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (U1 m) c
  | ⟨1, _⟩ => fun c => dat1 (U3 m) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W5 m c) ∗ ∃ r, prngReg c r)

/-! ## The regions as segments -/

set_option backward.isDefEq.respectTransparency.types false in
/-- The projection region over the thread state: entered from every unscoped buffer at `W1`, left at `W2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (U1 m c) (U2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region over the thread state: entered from every unscoped buffer at `W3`, left at `W4`. Its
    invariant starts as the scoped rest and the generator register, and gives them back at the end. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (U3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (U3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop(Pipeline.scopedRest spec1 c ∗ ∃ r, prngReg c r) : sProp 𝕄) ⊢ (pdats m 1 c).Φ 0 := by
      have h' := hin1 (U3 m) c
      unfold Pipeline.ΦA at h'
      exact h'
    iintro ⟨Hp, -, Hr⟩
    iapply h
    isplitl [Hr]; · iexact Hr
    iexact Hp
  hout c := by
    have h : (pdats m 1 c).Φ (Fin.last _) ⊢ (iprop(Pipeline.scopedRest spec1 c ∗ ∃ r, prngReg c r) : sProp 𝕄) := by
      have h' := hout1 (U3 m) c
      unfold Pipeline.ΦA at h'
      exact h'
    rw [Pipeline.ownSems0_none]
    iintro HP
    ihave H := h $$ HP
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (U3 m c) (U4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)) ]
theorem main_run (c : Dev nD) : main (F := F) c = Pipeline.Seg.run (segs m) := (main_chain c).trans (by chain_rfl)

set_option backward.isDefEq.respectTransparency.types false in
/-- THE RUN: from any memory with zero counters every weakly fair execution of @main terminates, nothing
    faulting, and every final state holds every unscoped buffer at the last boundary's contents `W5`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun c => by
      show (iprop(StableHlo.held (c : Thread nD τ) (Pipeline.ucRefs τ sig) (W5 m c) ∗ R c) : sProp 𝕄) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

/-- Each argument array, read in a memory that holds every unscoped buffer at the last boundary's contents, holds
    its launch contents. -/
theorem args_kept (c : Dev nD) (μ : (ℓ : Loc nD τ sig) → Buf (Elt F) ℓ)
    (h : ∀ b ∈ Pipeline.ucRefs τ sig, μ (((c : Thread nD τ)).1, b) = W5 m c b) :
    μ ((c.tc : Thread nD τ).loc main_arg0) = m ((c.tc : Thread nD τ).loc main_arg0)
      ∧ μ ((c.tc : Thread nD τ).loc main_arg1) = m ((c.tc : Thread nD τ).loc main_arg1)
      ∧ μ ((c.tc : Thread nD τ).loc main_arg2) = m ((c.tc : Thread nD τ).loc main_arg2)
      ∧ μ ((c.tc : Thread nD τ).loc main_arg3) = m ((c.tc : Thread nD τ).loc main_arg3)
      ∧ μ ((c.tc : Thread nD τ).loc main_arg4) = m ((c.tc : Thread nD τ).loc main_arg4)
      ∧ μ ((c.tc : Thread nD τ).loc main_arg5) = m ((c.tc : Thread nD τ).loc main_arg5)
      ∧ μ ((c.tc : Thread nD τ).loc main_arg6) = m ((c.tc : Thread nD τ).loc main_arg6)
      ∧ μ ((c.tc : Thread nD τ).loc main_arg7) = m ((c.tc : Thread nD τ).loc main_arg7)
      ∧ μ ((c.tc : Thread nD τ).loc main_arg8) = m ((c.tc : Thread nD τ).loc main_arg8) :=
  ⟨(h _ (mem_uc main_arg0 (by decide))).trans (W5_kept m c main_arg0 (by decide) (by decide) (by decide) (by decide) (by decide)),
   (h _ (mem_uc main_arg1 (by decide))).trans (W5_kept m c main_arg1 (by decide) (by decide) (by decide) (by decide) (by decide)),
   (h _ (mem_uc main_arg2 (by decide))).trans (W5_kept m c main_arg2 (by decide) (by decide) (by decide) (by decide) (by decide)),
   (h _ (mem_uc main_arg3 (by decide))).trans (W5_kept m c main_arg3 (by decide) (by decide) (by decide) (by decide) (by decide)),
   (h _ (mem_uc main_arg4 (by decide))).trans (W5_kept m c main_arg4 (by decide) (by decide) (by decide) (by decide) (by decide)),
   (h _ (mem_uc main_arg5 (by decide))).trans (W5_kept m c main_arg5 (by decide) (by decide) (by decide) (by decide) (by decide)),
   (h _ (mem_uc main_arg6 (by decide))).trans (W5_kept m c main_arg6 (by decide) (by decide) (by decide) (by decide) (by decide)),
   (h _ (mem_uc main_arg7 (by decide))).trans (W5_kept m c main_arg7 (by decide) (by decide) (by decide) (by decide) (by decide)),
   (h _ (mem_uc main_arg8 (by decide))).trans (W5_kept m c main_arg8 (by decide) (by decide) (by decide) (by decide) (by decide))⟩

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => args_kept m c r.2.mem (h c)) (run_all m ρ)

end Cert.KernelIdeal.Hand

end
-- ==== Proof.LibNaryThree.lean ====
/-
  An operation on a family of THREE buffers, read with each operand at its own buffer.

  A host operation that takes its operands through a family indexed by position (a join of several arrays along
  an axis) has as its value the operation's function applied to the family `k ↦ contents of operand k`. For a
  family of three given as a literal, that family is the three operands' contents one after the other. Stated
  with the function applied LAST (`feed x f = f x`, kept folded), a rewriting pass can go on reading each
  operand's own contents below the join before the join's function is opened — which it cannot do once the
  function is applied, when the function (a concatenation) carries a proof about the shapes of what it joins.
-/
import Idealize.ShloMosaic.Lib.StableHlo.Run

noncomputable section

namespace Cert.LibNaryThree

open Idealize.ShloMosaic Idealize.ShloMosaic.TcCoe Idealize.ShloMosaic.StableHlo

/-- A value handed to a function: `feed x f` is `f x`, kept folded so that `x` can be rewritten first.
    Unfold it (or close by `rfl`) once the operands have been read. -/
def feed {α β : Type} (x : α) (f : α → β) : β := f x

variable {τ : Topo} {sig : RefSig} {Val : EltTy → Type} {x a b y : Ref sig .tc}

/-- **An operation on a literal family of three buffers**: its result buffer after the operation holds the
    operation's function of the three operands' contents, each read at its own buffer (the three-operand
    companion of the four-operand form; the result buffer is un-indexed so that a simplifier finds the
    lemma from the operation alone). Use it in a `simp only` set with the other result lemmas in place of the
    generic family form, then close with `rfl`. -/
theorem nary3_feed
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = feed (Fin.cons (F (Proc.devRef .tc x)) (Fin.cons (F (Proc.devRef .tc a)) (Fin.cons (F (Proc.devRef .tc b)) (fun i => i.elim0)))) f := by
  unfold feed
  rw [nary_result]; congr 1; funext k; fin_cases k <;> rfl

end Cert.LibNaryThree

end
-- ==== Proof.LibIdxExt.lean ====
/-
  An index of a literal shape is determined by its coordinates.

  An index of a two-axis shape whose coordinates have the values of `a` and `b` is `ix2 a b`; likewise with three axes.
  Every index that a layout operation, a block of a window or a rectangle composes is identified this way: state the
  coordinates' values (usually by `rfl`, or by arithmetic on the block's offset) and the index is the constructor's.
-/
import Idealize.ShloMosaic.Lib.ValueIdx

noncomputable section

namespace Cert.Lib.IdxExt

open Idealize.ShloMosaic Idealize.ShloMosaic.ValueIdx

/-- An index of a two-axis shape with coordinates `a`, `b` is `ix2 a b`. -/
theorem ix2_ext {n0 n1 : Nat} (i : (⟨2, ![n0, n1]⟩ : Shape).Idx) (a : Fin n0) (b : Fin n1)
    (h0 : (i 0).val = a.val) (h1 : (i 1).val = b.val) : i = ix2 a b :=
  funext fun d => Fin.ext (by match d with | ⟨0, _⟩ => exact h0 | ⟨1, _⟩ => exact h1)

/-- An index of a three-axis shape with coordinates `a`, `b`, `c` is `ix3 a b c`. -/
theorem ix3_ext {n0 n1 n2 : Nat} (i : (⟨3, ![n0, n1, n2]⟩ : Shape).Idx) (a : Fin n0) (b : Fin n1) (c : Fin n2)
    (h0 : (i 0).val = a.val) (h1 : (i 1).val = b.val) (h2 : (i 2).val = c.val) : i = ix3 a b c :=
  funext fun d => Fin.ext (by match d with | ⟨0, _⟩ => exact h0 | ⟨1, _⟩ => exact h1 | ⟨2, _⟩ => exact h2)

end Cert.Lib.IdxExt

end
-- ==== Proof.HostGlue.lean ====
/-
  The host operations around the two regions, read at an index, at the ideal values.

  Before the projection region the input rows are merged ([2, 2048, 1024] to [4096, 1024]), the three weight matrices
  are transposed and set side by side ([1024, 3072], narrowed to bfloat16: the identity on the extended reals) and the
  three bias vectors are laid end to end as one row [1, 3072]. Between the regions the projection's output [4096, 3072]
  is cut into its three bands of 1024 columns, each band split into 16 heads of 64 columns and the head axis moved in
  front of the sequence axis ([32, 2048, 64]); the output weight is transposed and its rows grouped by head
  ([16, 64, 1024]); the output bias becomes a row [1, 1024]. After the attention region the rows are split again
  ([2, 2048, 1024]). Each lemma here gives one entry of one of these arrays, for an arbitrary valuation of the buffers
  before the stretch, as one entry of a buffer the stretch reads.

  For each buffer the contents after the stretch are first stated as the composed term of the stretch's operations
  (`e0_*`, `e1_*`, `e2_out`); the layout of that term is then read at an index over an abstract operand
  (`rows_merge_apply`, `wcat_apply`, `bcat_apply`, `heads_apply`, `wo_apply`, `rows_split_apply`).
-/
import proofs.«107395_j884763263199_2_alg».proof.Proof.Gen.KernelIdeal.Launch
import proofs.«107395_j884763263199_2_alg».proof.Proof.LibNaryThree
import proofs.«107395_j884763263199_2_alg».proof.Proof.LibIdxExt
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Glue

open Cert.KernelIdeal Cert.KernelIdeal.Gen Idealize.ShloMosaic Idealize.ShloMosaic.TcCoe Idealize.ShloMosaic.ValueIdx

open Cert.LibNaryThree (nary3_feed feed)
open Idealize.ShloMosaic.StableHlo

variable {α : Type}

/-! ## The stretch before the projection region -/

theorem e0_x (Fv : Valuation τ sig (Elt Ideal)) :
    (after (hostOps0 (F := Ideal)) Fv (Proc.devRef .tc main_v0) : S4096x1024.Idx → EReal)
      = shapeCast S4096x1024 (Fv (Proc.devRef .tc main_arg0) : S2x2048x1024.Idx → EReal) shapeCasts_S2x2048x1024_S4096x1024 := by
  simp only [hostOps0]
  after_results
  rfl

/-- Rows of a [2, 2048, 1024] array laid end to end: row r is row r % 2048 of slab r / 2048. -/
theorem rows_merge_apply (X : S2x2048x1024.Idx → α) (r : Fin 4096) (d : Fin 1024) :
    shapeCast S4096x1024 X shapeCasts_S2x2048x1024_S4096x1024 (ix2 r d)
      = X (ix3 (⟨r.val / 2048, by omega⟩ : Fin 2) (⟨r.val % 2048, by omega⟩ : Fin 2048) d) := by
  refine shapeCast_apply X _ _ _ ?_
  rw [Shape.rowMajor_val_three, Shape.rowMajor_val_two]
  show ((r.val / 2048) * 2048 + r.val % 2048) * 1024 + d.val = r.val * 1024 + d.val
  omega

/-- The projection's input: row r of the merged rows is row r % 2048 of batch r / 2048. -/
theorem g0_x (Fv : Valuation τ sig (Elt Ideal)) (r : Fin 4096) (d : Fin 1024) :
    (after (hostOps0 (F := Ideal)) Fv (Proc.devRef .tc main_v0) : S4096x1024.Idx → EReal) (ix2 r d)
      = (Fv (Proc.devRef .tc main_arg0) : S2x2048x1024.Idx → EReal)
          (ix3 (⟨r.val / 2048, by omega⟩ : Fin 2) (⟨r.val % 2048, by omega⟩ : Fin 2048) d) := by
  rw [e0_x]
  exact rows_merge_apply _ r d

theorem e0_w (Fv : Valuation τ sig (Elt Ideal)) :
    (after (hostOps0 (F := Ideal)) Fv (Proc.devRef .tc main_v5) : S1024x3072.Idx → EReal)
      = truncf (F := Ideal) .bf16 (concatenate S1024x3072 1
          [⟨S1024x1024, transpose S1024x1024 [1, 0] (Fv (Proc.devRef .tc main_arg1) : S1024x1024.Idx → EReal) transposes_S1024x1024_S1024x1024_1_0⟩,
           ⟨S1024x1024, transpose S1024x1024 [1, 0] (Fv (Proc.devRef .tc main_arg3) : S1024x1024.Idx → EReal) transposes_S1024x1024_S1024x1024_1_0⟩,
           ⟨S1024x1024, transpose S1024x1024 [1, 0] (Fv (Proc.devRef .tc main_arg5) : S1024x1024.Idx → EReal) transposes_S1024x1024_S1024x1024_1_0⟩]
          concatenates_S1024x1024_S1024x1024_S1024x1024_S1024x3072_d1) bitsLt_bf16_f32 := by
  simp only [hostOps0]
  simp (disch := decide) only [after_cons, after_nil, unary_result', reshape_result', nary3_feed,
    unary_result_ne', reshape_result_ne', nary_result_ne']
  rfl

/-- Three square matrices, each transposed, set side by side: column e of the result is row e, e - 1024 or e - 2048 of
    the first, second or third matrix. -/
theorem wcat_apply (A B C : S1024x1024.Idx → α) (d : Fin 1024) (e : Fin 3072) :
    concatenate S1024x3072 1
        [⟨S1024x1024, transpose S1024x1024 [1, 0] A transposes_S1024x1024_S1024x1024_1_0⟩,
         ⟨S1024x1024, transpose S1024x1024 [1, 0] B transposes_S1024x1024_S1024x1024_1_0⟩,
         ⟨S1024x1024, transpose S1024x1024 [1, 0] C transposes_S1024x1024_S1024x1024_1_0⟩]
        concatenates_S1024x1024_S1024x1024_S1024x1024_S1024x3072_d1 (ix2 d e)
      = if h1 : e.val < 1024 then A (ix2 ⟨e.val, h1⟩ d)
        else if h2 : e.val < 2048 then B (ix2 (⟨e.val - 1024, by omega⟩ : Fin 1024) d)
        else C (ix2 (⟨e.val - 2048, by omega⟩ : Fin 1024) d) := by
  by_cases h1 : e.val < 1024
  · rw [dif_pos h1]
    refine (concatenate_apply_piece (1 : Fin 2) _ _ (ix2 d e) 0 (by show 0 < 3; decide) S1024x1024 _ rfl rfl 0 rfl
      (ix2 d (⟨e.val, h1⟩ : Fin 1024))
      (fun b hb => match b, hb with | ⟨0, _⟩, _ => rfl | ⟨1, _⟩, hb => absurd rfl hb)
      (by show 0 + e.val = e.val; omega)).trans ?_
    exact transpose_ix2_apply A _ _ _
  · rw [dif_neg h1]
    by_cases h2 : e.val < 2048
    · rw [dif_pos h2]
      refine (concatenate_apply_piece (1 : Fin 2) _ _ (ix2 d e) 1 (by show 1 < 3; decide) S1024x1024 _ rfl rfl 1024 rfl
        (ix2 d (⟨e.val - 1024, by omega⟩ : Fin 1024))
        (fun b hb => match b, hb with | ⟨0, _⟩, _ => rfl | ⟨1, _⟩, hb => absurd rfl hb)
        (by show 1024 + (e.val - 1024) = e.val; omega)).trans ?_
      exact transpose_ix2_apply B _ _ _
    · rw [dif_neg h2]
      refine (concatenate_apply_piece (1 : Fin 2) _ _ (ix2 d e) 2 (by show 2 < 3; decide) S1024x1024 _ rfl rfl 2048 rfl
        (ix2 d (⟨e.val - 2048, by omega⟩ : Fin 1024))
        (fun b hb => match b, hb with | ⟨0, _⟩, _ => rfl | ⟨1, _⟩, hb => absurd rfl hb)
        (by show 2048 + (e.val - 2048) = e.val; omega)).trans ?_
      exact transpose_ix2_apply C _ _ _

/-- The projection's matrix: column e is row e of the first weight, row e - 1024 of the second or row e - 2048 of the
    third. -/
theorem g0_w (Fv : Valuation τ sig (Elt Ideal)) (d : Fin 1024) (e : Fin 3072) :
    (after (hostOps0 (F := Ideal)) Fv (Proc.devRef .tc main_v5) : S1024x3072.Idx → EReal) (ix2 d e)
      = if h1 : e.val < 1024 then (Fv (Proc.devRef .tc main_arg1) : S1024x1024.Idx → EReal) (ix2 ⟨e.val, h1⟩ d)
        else if h2 : e.val < 2048 then (Fv (Proc.devRef .tc main_arg3) : S1024x1024.Idx → EReal) (ix2 (⟨e.val - 1024, by omega⟩ : Fin 1024) d)
        else (Fv (Proc.devRef .tc main_arg5) : S1024x1024.Idx → EReal) (ix2 (⟨e.val - 2048, by omega⟩ : Fin 1024) d) := by
  rw [e0_w]
  refine (truncf_apply (φ := .f32) (ψ := .bf16) _ bitsLt_bf16_f32 (ix2 d e)).trans ?_
  exact wcat_apply _ _ _ d e

theorem e0_b (Fv : Valuation τ sig (Elt Ideal)) :
    (after (hostOps0 (F := Ideal)) Fv (Proc.devRef .tc main_v7) : S1x3072.Idx → EReal)
      = shapeCast S1x3072 (concatenate S3072 0
          [⟨S1024, (Fv (Proc.devRef .tc main_arg2) : S1024.Idx → EReal)⟩,
           ⟨S1024, (Fv (Proc.devRef .tc main_arg4) : S1024.Idx → EReal)⟩,
           ⟨S1024, (Fv (Proc.devRef .tc main_arg6) : S1024.Idx → EReal)⟩]
          concatenates_S1024_S1024_S1024_S3072_d0) shapeCasts_S3072_S1x3072 := by
  simp only [hostOps0]
  simp (disch := decide) only [after_cons, after_nil, unary_result', reshape_result', nary3_feed,
    unary_result_ne', reshape_result_ne', nary_result_ne']
  rfl

/-- Three vectors laid end to end and given a leading unit axis. -/
theorem bcat_apply (A B C : S1024.Idx → α) (u : Fin 1) (e : Fin 3072) :
    shapeCast S1x3072 (concatenate S3072 0 [⟨S1024, A⟩, ⟨S1024, B⟩, ⟨S1024, C⟩] concatenates_S1024_S1024_S1024_S3072_d0)
        shapeCasts_S3072_S1x3072 (ix2 u e)
      = if h1 : e.val < 1024 then A (ix1 ⟨e.val, h1⟩)
        else if h2 : e.val < 2048 then B (ix1 (⟨e.val - 1024, by omega⟩ : Fin 1024))
        else C (ix1 (⟨e.val - 2048, by omega⟩ : Fin 1024)) := by
  refine (shapeCast_a_1a_apply _ _ u e).trans ?_
  by_cases h1 : e.val < 1024
  · rw [dif_pos h1]
    exact concatenate_apply_piece (0 : Fin 1) _ _ (ix1 e) 0 (by show 0 < 3; decide) S1024 _ rfl rfl 0 rfl
      (ix1 (⟨e.val, h1⟩ : Fin 1024))
      (fun b hb => match b, hb with | ⟨0, _⟩, hb => absurd rfl hb)
      (by show 0 + e.val = e.val; omega)
  · rw [dif_neg h1]
    by_cases h2 : e.val < 2048
    · rw [dif_pos h2]
      exact concatenate_apply_piece (0 : Fin 1) _ _ (ix1 e) 1 (by show 1 < 3; decide) S1024 _ rfl rfl 1024 rfl
        (ix1 (⟨e.val - 1024, by omega⟩ : Fin 1024))
        (fun b hb => match b, hb with | ⟨0, _⟩, hb => absurd rfl hb)
        (by show 1024 + (e.val - 1024) = e.val; omega)
    · rw [dif_neg h2]
      exact concatenate_apply_piece (0 : Fin 1) _ _ (ix1 e) 2 (by show 2 < 3; decide) S1024 _ rfl rfl 2048 rfl
        (ix1 (⟨e.val - 2048, by omega⟩ : Fin 1024))
        (fun b hb => match b, hb with | ⟨0, _⟩, hb => absurd rfl hb)
        (by show 2048 + (e.val - 2048) = e.val; omega)

/-- The projection's bias row: entry e is entry e of the first bias, e - 1024 of the second or e - 2048 of the third. -/
theorem g0_b (Fv : Valuation τ sig (Elt Ideal)) (e : Fin 3072) :
    (after (hostOps0 (F := Ideal)) Fv (Proc.devRef .tc main_v7) : S1x3072.Idx → EReal) (ix2 (0 : Fin 1) e)
      = if h1 : e.val < 1024 then (Fv (Proc.devRef .tc main_arg2) : S1024.Idx → EReal) (ix1 ⟨e.val, h1⟩)
        else if h2 : e.val < 2048 then (Fv (Proc.devRef .tc main_arg4) : S1024.Idx → EReal) (ix1 (⟨e.val - 1024, by omega⟩ : Fin 1024))
        else (Fv (Proc.devRef .tc main_arg6) : S1024.Idx → EReal) (ix1 (⟨e.val - 2048, by omega⟩ : Fin 1024)) := by
  rw [e0_b]
  exact bcat_apply _ _ _ 0 e

/-! ## The stretch between the two regions -/

/-- A [4096, 1024] array split into heads: entry (bh, s, dh) of the [32, 2048, 64] array is row
    (bh / 16) * 2048 + s, column (bh % 16) * 64 + dh of the matrix. -/
theorem heads_apply (X : S4096x1024.Idx → α) (bh : Fin 32) (s : Fin 2048) (dh : Fin 64) :
    shapeCast S32x2048x64 (transpose S2x16x2048x64 [0, 2, 1, 3]
        (shapeCast S2x2048x16x64 X shapeCasts_S4096x1024_S2x2048x16x64)
        transposes_S2x2048x16x64_S2x16x2048x64_0_2_1_3) shapeCasts_S2x16x2048x64_S32x2048x64 (ix3 bh s dh)
      = X (ix2 (⟨bh.val / 16 * 2048 + s.val, by omega⟩ : Fin 4096) (⟨bh.val % 16 * 64 + dh.val, by omega⟩ : Fin 1024)) := by
  refine (shapeCast_apply _ _ (ix3 bh s dh)
    (ix4 (⟨bh.val / 16, by omega⟩ : Fin 2) (⟨bh.val % 16, by omega⟩ : Fin 16) s dh) ?_).trans ?_
  · rw [Shape.rowMajor_val_four, Shape.rowMajor_val_three]
    show (((bh.val / 16) * 16 + bh.val % 16) * 2048 + s.val) * 64 + dh.val = (bh.val * 2048 + s.val) * 64 + dh.val
    omega
  refine (transpose_apply _ _ _ _
    (ix4 (⟨bh.val / 16, by omega⟩ : Fin 2) s (⟨bh.val % 16, by omega⟩ : Fin 16) dh)
    (fun b => match b with | ⟨0, _⟩ => rfl | ⟨1, _⟩ => rfl | ⟨2, _⟩ => rfl | ⟨3, _⟩ => rfl)).trans ?_
  refine shapeCast_apply X _ _ _ ?_
  rw [Shape.rowMajor_val_two, Shape.rowMajor_val_four]
  show (bh.val / 16 * 2048 + s.val) * 1024 + (bh.val % 16 * 64 + dh.val)
    = (((bh.val / 16) * 2048 + s.val) * 16 + bh.val % 16) * 64 + dh.val
  omega

theorem e1_q (Fv : Valuation τ sig (Elt Ideal)) :
    (after (hostOps1 (F := Ideal)) Fv (Proc.devRef .tc main_v14) : S32x2048x64.Idx → EReal)
      = shapeCast S32x2048x64 (transpose S2x16x2048x64 [0, 2, 1, 3]
          (shapeCast S2x2048x16x64
            (extractStridedSlice S4096x1024 ![0, 0] (Fv (Proc.devRef .tc main_v8) : S4096x3072.Idx → EReal) slices_S4096x3072_S4096x1024_0_0)
            shapeCasts_S4096x1024_S2x2048x16x64)
          transposes_S2x2048x16x64_S2x16x2048x64_0_2_1_3) shapeCasts_S2x16x2048x64_S32x2048x64 := by
  simp only [hostOps1]
  after_results_simp
  rfl

theorem e1_k (Fv : Valuation τ sig (Elt Ideal)) :
    (after (hostOps1 (F := Ideal)) Fv (Proc.devRef .tc main_v17) : S32x2048x64.Idx → EReal)
      = shapeCast S32x2048x64 (transpose S2x16x2048x64 [0, 2, 1, 3]
          (shapeCast S2x2048x16x64
            (extractStridedSlice S4096x1024 ![0, 1024] (Fv (Proc.devRef .tc main_v8) : S4096x3072.Idx → EReal) slices_S4096x3072_S4096x1024_0_1024)
            shapeCasts_S4096x1024_S2x2048x16x64)
          transposes_S2x2048x16x64_S2x16x2048x64_0_2_1_3) shapeCasts_S2x16x2048x64_S32x2048x64 := by
  simp only [hostOps1]
  after_results_simp
  rfl

theorem e1_v (Fv : Valuation τ sig (Elt Ideal)) :
    (after (hostOps1 (F := Ideal)) Fv (Proc.devRef .tc main_v20) : S32x2048x64.Idx → EReal)
      = shapeCast S32x2048x64 (transpose S2x16x2048x64 [0, 2, 1, 3]
          (shapeCast S2x2048x16x64
            (extractStridedSlice S4096x1024 ![0, 2048] (Fv (Proc.devRef .tc main_v8) : S4096x3072.Idx → EReal) slices_S4096x3072_S4096x1024_0_2048)
            shapeCasts_S4096x1024_S2x2048x16x64)
          transposes_S2x2048x16x64_S2x16x2048x64_0_2_1_3) shapeCasts_S2x16x2048x64_S32x2048x64 := by
  simp only [hostOps1]
  after_results_simp
  rfl

/-- The queries: head bh % 16 of batch bh / 16 reads columns (bh % 16) * 64 … of the first band. -/
theorem g1_q (Fv : Valuation τ sig (Elt Ideal)) (bh : Fin 32) (s : Fin 2048) (dh : Fin 64) :
    (after (hostOps1 (F := Ideal)) Fv (Proc.devRef .tc main_v14) : S32x2048x64.Idx → EReal) (ix3 bh s dh)
      = (Fv (Proc.devRef .tc main_v8) : S4096x3072.Idx → EReal)
          (ix2 (⟨bh.val / 16 * 2048 + s.val, by omega⟩ : Fin 4096) (⟨bh.val % 16 * 64 + dh.val, by omega⟩ : Fin 3072)) := by
  rw [e1_q]
  refine (heads_apply _ bh s dh).trans ?_
  exact slice2_axis1_apply 0 _ _ _ _ _ (by show bh.val % 16 * 64 + dh.val = 0 + (bh.val % 16 * 64 + dh.val); omega)

/-- The keys: the same entry of the second band of 1024 columns. -/
theorem g1_k (Fv : Valuation τ sig (Elt Ideal)) (bh : Fin 32) (s : Fin 2048) (dh : Fin 64) :
    (after (hostOps1 (F := Ideal)) Fv (Proc.devRef .tc main_v17) : S32x2048x64.Idx → EReal) (ix3 bh s dh)
      = (Fv (Proc.devRef .tc main_v8) : S4096x3072.Idx → EReal)
          (ix2 (⟨bh.val / 16 * 2048 + s.val, by omega⟩ : Fin 4096) (⟨1024 + bh.val % 16 * 64 + dh.val, by omega⟩ : Fin 3072)) := by
  rw [e1_k]
  refine (heads_apply _ bh s dh).trans ?_
  exact slice2_axis1_apply 1024 _ _ _ _ _ (by show 1024 + bh.val % 16 * 64 + dh.val = 1024 + (bh.val % 16 * 64 + dh.val); omega)

/-- The values: the same entry of the third band of 1024 columns. -/
theorem g1_v (Fv : Valuation τ sig (Elt Ideal)) (bh : Fin 32) (s : Fin 2048) (dh : Fin 64) :
    (after (hostOps1 (F := Ideal)) Fv (Proc.devRef .tc main_v20) : S32x2048x64.Idx → EReal) (ix3 bh s dh)
      = (Fv (Proc.devRef .tc main_v8) : S4096x3072.Idx → EReal)
          (ix2 (⟨bh.val / 16 * 2048 + s.val, by omega⟩ : Fin 4096) (⟨2048 + bh.val % 16 * 64 + dh.val, by omega⟩ : Fin 3072)) := by
  rw [e1_v]
  refine (heads_apply _ bh s dh).trans ?_
  exact slice2_axis1_apply 2048 _ _ _ _ _ (by show 2048 + bh.val % 16 * 64 + dh.val = 2048 + (bh.val % 16 * 64 + dh.val); omega)

theorem e1_wo (Fv : Valuation τ sig (Elt Ideal)) :
    (after (hostOps1 (F := Ideal)) Fv (Proc.devRef .tc main_v23) : S16x64x1024.Idx → EReal)
      = shapeCast S16x64x1024 (truncf (F := Ideal) .bf16
          (transpose S1024x1024 [1, 0] (Fv (Proc.devRef .tc main_arg7) : S1024x1024.Idx → EReal) transposes_S1024x1024_S1024x1024_1_0)
          bitsLt_bf16_f32) shapeCasts_S1024x1024_S16x64x1024 := by
  simp only [hostOps1]
  after_results_simp
  rfl

/-- A square matrix transposed and its rows grouped in 16 blocks of 64: entry (h, dh, e) is entry (e, h * 64 + dh). -/
theorem wo_apply (X : S1024x1024.Idx → EReal) (h : Fin 16) (dh : Fin 64) (e : Fin 1024) :
    shapeCast S16x64x1024 (truncf (F := Ideal) .bf16
        (transpose S1024x1024 [1, 0] X transposes_S1024x1024_S1024x1024_1_0) bitsLt_bf16_f32)
        shapeCasts_S1024x1024_S16x64x1024 (ix3 h dh e)
      = X (ix2 e (⟨h.val * 64 + dh.val, by omega⟩ : Fin 1024)) := by
  refine (shapeCast_apply _ _ (ix3 h dh e) (ix2 (⟨h.val * 64 + dh.val, by omega⟩ : Fin 1024) e) ?_).trans ?_
  · rw [Shape.rowMajor_val_two, Shape.rowMajor_val_three]
    rfl
  refine (truncf_apply (φ := .f32) (ψ := .bf16) _ bitsLt_bf16_f32 _).trans ?_
  exact transpose_ix2_apply X _ _ _

/-- The output weight by head: entry (h, dh, e) is entry (e, h * 64 + dh) of the weight. -/
theorem g1_wo (Fv : Valuation τ sig (Elt Ideal)) (h : Fin 16) (dh : Fin 64) (e : Fin 1024) :
    (after (hostOps1 (F := Ideal)) Fv (Proc.devRef .tc main_v23) : S16x64x1024.Idx → EReal) (ix3 h dh e)
      = (Fv (Proc.devRef .tc main_arg7) : S1024x1024.Idx → EReal) (ix2 e (⟨h.val * 64 + dh.val, by omega⟩ : Fin 1024)) := by
  rw [e1_wo]
  exact wo_apply _ h dh e

theorem e1_bo (Fv : Valuation τ sig (Elt Ideal)) :
    (after (hostOps1 (F := Ideal)) Fv (Proc.devRef .tc main_v24) : S1x1024.Idx → EReal)
      = shapeCast S1x1024 (Fv (Proc.devRef .tc main_arg8) : S1024.Idx → EReal) shapeCasts_S1024_S1x1024 := by
  simp only [hostOps1]
  after_results_simp
  rfl

/-- The output bias as a row. -/
theorem g1_bo (Fv : Valuation τ sig (Elt Ideal)) (e : Fin 1024) :
    (after (hostOps1 (F := Ideal)) Fv (Proc.devRef .tc main_v24) : S1x1024.Idx → EReal) (ix2 (0 : Fin 1) e)
      = (Fv (Proc.devRef .tc main_arg8) : S1024.Idx → EReal) (ix1 e) := by
  rw [e1_bo]
  exact shapeCast_a_1a_apply _ _ 0 e

/-! ## The stretch after the attention region -/

theorem e2_out (Fv : Valuation τ sig (Elt Ideal)) :
    (after (hostOps2 (F := Ideal)) Fv (Proc.devRef .tc main_v26) : S2x2048x1024.Idx → EReal)
      = shapeCast S2x2048x1024 (Fv (Proc.devRef .tc main_v25) : S4096x1024.Idx → EReal) shapeCasts_S4096x1024_S2x2048x1024 := by
  simp only [hostOps2]
  after_results
  rfl

/-- A [4096, 1024] array cut into two slabs of 2048 rows: row s of slab b is row b * 2048 + s. -/
theorem rows_split_apply (X : S4096x1024.Idx → α) (b : Fin 2) (s : Fin 2048) (e : Fin 1024) :
    shapeCast S2x2048x1024 X shapeCasts_S4096x1024_S2x2048x1024 (ix3 b s e)
      = X (ix2 (⟨b.val * 2048 + s.val, by omega⟩ : Fin 4096) e) := by
  refine shapeCast_apply X _ _ _ ?_
  rw [Shape.rowMajor_val_two, Shape.rowMajor_val_three]
  rfl

/-- The result: row s of batch b is row b * 2048 + s of the attention region's output. -/
theorem g2_out (Fv : Valuation τ sig (Elt Ideal)) (b : Fin 2) (s : Fin 2048) (e : Fin 1024) :
    (after (hostOps2 (F := Ideal)) Fv (Proc.devRef .tc main_v26) : S2x2048x1024.Idx → EReal) (ix3 b s e)
      = (Fv (Proc.devRef .tc main_v25) : S4096x1024.Idx → EReal) (ix2 (⟨b.val * 2048 + s.val, by omega⟩ : Fin 4096) e) := by
  rw [e2_out]
  exact rows_split_apply _ b s e

end Cert.KernelIdeal.Glue

end
-- ==== Proof.AttnSpec.lean ====
/-
  Multi-head attention with a fused output projection, as one function of the nine argument arrays, on the
  extended reals.

  For a batch entry b, a head h < 16 and a position s < 2048 the query, key and value rows are the 64 columns
  h·64 .. h·64+63 of three linear projections of x[b, s, ·] (each `x · Wᵀ + bias`). The scores of a query row against
  the 2048 key rows of the same (b, h) are the row products scaled by 2⁻⁵; the weights are `exp (score − row maximum)`
  (the maximum folded from −∞), normalised by their sum; the context row is the weighted sum of the value rows. The
  result at (b, s, e) is the product of the 1024 context entries of (b, s) — head-major, column h·64 + dh — with row
  e of the output matrix, plus the output bias. No law beyond commutativity and associativity of the sum joins
  the blocked computation to this one, so nothing here needs the entries to be finite.
-/
import Idealize.ShloMosaic.PureOps.Ideal
import Idealize.ShloMosaic.Lib.ValueIdx

noncomputable section

namespace Cert.AttnSpec

open Idealize.ShloMosaic Idealize.ShloMosaic.ValueIdx

/-- The score scale: the binary value of the pattern `0x3D000000`, which is 2⁻⁵. -/
def scale : EReal := Ideal.ofBits .f32 0x3D000000#32

/-- The value of the pattern `0xFF800000`: −∞, the start of every row maximum. -/
def negInf : EReal := Ideal.ofBits .f32 0xFF800000#32

/-- A linear projection of one row: column `e` of `x · Wᵀ + b`. -/
def proj (x : Fin 1024 → EReal) (W : Fin 1024 → Fin 1024 → EReal) (b : Fin 1024 → EReal) (e : Fin 1024) : EReal :=
  (∑ d : Fin 1024, x d * W e d) + b e

/-- The scaled score of a query row against key row `j`. -/
def score (q : Fin 64 → EReal) (K : Fin 2048 → Fin 64 → EReal) (j : Fin 2048) : EReal :=
  (∑ d : Fin 64, q d * K j d) * scale

/-- The maximum of a row of scores, folded from −∞. -/
def rowMax (s : Fin 2048 → EReal) : EReal := (Finset.univ : Finset (Fin 2048)).fold max negInf s

/-- The unnormalised weight of key row `j`. -/
def weight (s : Fin 2048 → EReal) (j : Fin 2048) : EReal := Ideal.exp (s j - rowMax s)

/-- The normalised weight of key row `j`: the weight over the sum of the row's weights. -/
def prob (s : Fin 2048 → EReal) (j : Fin 2048) : EReal := Ideal.div (weight s j) (∑ j' : Fin 2048, weight s j')

/-- One row of context: the value rows weighted by the normalised weights of the query row's scores. -/
def attnRow (q : Fin 64 → EReal) (K V : Fin 2048 → Fin 64 → EReal) (dh : Fin 64) : EReal :=
  ∑ j : Fin 2048, prob (score q K) j * V j dh

/-- Column h·64 + dh of a 1024-wide row. -/
def headCol (h : Fin 16) (dh : Fin 64) : Fin 1024 := ⟨h.val * 64 + dh.val, by omega⟩

section Whole

variable (x : Fin 2 → Fin 2048 → Fin 1024 → EReal) (Wq Wk Wv Wo : Fin 1024 → Fin 1024 → EReal)
  (bq bk bv bo : Fin 1024 → EReal)

/-- The context at (b, h, s, dh): head h's attention of position s over all 2048 positions of batch entry b. -/
def ctx (b : Fin 2) (h : Fin 16) (s : Fin 2048) (dh : Fin 64) : EReal :=
  attnRow (fun d => proj (x b s) Wq bq (headCol h d))
    (fun j d => proj (x b j) Wk bk (headCol h d)) (fun j d => proj (x b j) Wv bv (headCol h d)) dh

/-- The result at (b, s, e): the context of (b, s), head-major, against row e of the output matrix, plus bias. -/
def out (b : Fin 2) (s : Fin 2048) (e : Fin 1024) : EReal :=
  (∑ d : Fin 1024, ctx x Wq Wk Wv bq bk bv b ⟨d.val / 64, by omega⟩ s ⟨d.val % 64, by omega⟩ * Wo e d) + bo e

end Whole

/-- The whole result as an array over [2, 2048, 1024], from the argument arrays as they are laid out. -/
def G (X : (⟨3, ![2, 2048, 1024]⟩ : Shape).Idx → EReal)
    (Wq : (⟨2, ![1024, 1024]⟩ : Shape).Idx → EReal) (bq : (⟨1, ![1024]⟩ : Shape).Idx → EReal)
    (Wk : (⟨2, ![1024, 1024]⟩ : Shape).Idx → EReal) (bk : (⟨1, ![1024]⟩ : Shape).Idx → EReal)
    (Wv : (⟨2, ![1024, 1024]⟩ : Shape).Idx → EReal) (bv : (⟨1, ![1024]⟩ : Shape).Idx → EReal)
    (Wo : (⟨2, ![1024, 1024]⟩ : Shape).Idx → EReal) (bo : (⟨1, ![1024]⟩ : Shape).Idx → EReal) :
    (⟨3, ![2, 2048, 1024]⟩ : Shape).Idx → EReal :=
  fun i => out (fun b s d => X (ix3 b s d)) (fun e d => Wq (ix2 e d)) (fun e d => Wk (ix2 e d)) (fun e d => Wv (ix2 e d))
    (fun e d => Wo (ix2 e d)) (fun e => bq (ix1 e)) (fun e => bk (ix1 e)) (fun e => bv (ix1 e)) (fun e => bo (ix1 e))
    (i 0) (i 1) (i 2)

/-- `G` at an index given by its coordinates. -/
theorem G_apply (X Wq bq Wk bk Wv bv Wo bo) (b : Fin 2) (s : Fin 2048) (e : Fin 1024) :
    G X Wq bq Wk bk Wv bv Wo bo (ix3 b s e)
      = out (fun b s d => X (ix3 b s d)) (fun e d => Wq (ix2 e d)) (fun e d => Wk (ix2 e d)) (fun e d => Wv (ix2 e d))
          (fun e d => Wo (ix2 e d)) (fun e => bq (ix1 e)) (fun e => bk (ix1 e)) (fun e => bv (ix1 e)) (fun e => bo (ix1 e))
          b s e := rfl

end Cert.AttnSpec

end
-- ==== Proof.LibPlainDot.lean ====
/-
  A plain matrix product read at an index, on the extended reals.

  For the dimension numbers `<[1], [0], [0], [1]>` with no batch axis (`DotDims.plain M K N`, or any record equal to
  it: an `M×K` left operand, a `K×N` right operand, the left's second axis contracted with the right's first) the
  entry `(a, b)` of the product is `∑ k, l[a,k] · r[k,b]`. Two operations compute it at the exact instance: a
  `tpu.matmul` into a zero accumulator and the host's `dot_general`. Both are stated here as equalities of whole
  arrays with one function, `rowsByCols l r`, so that a product computed block of rows by block of rows and the same
  product computed at once are compared through one name.
-/
import Idealize.ShloMosaic.Lib.ValueIdx
import Idealize.ShloMosaic.PureOps.Ideal.Laws

noncomputable section

namespace Cert.Lib.PlainDot

open Idealize.ShloMosaic Idealize.ShloMosaic.ValueIdx

/-- The product of an `M×K` array by a `K×N` array, index by index: entry `(a, b)` is `∑ k, l[a,k] · r[k,b]`. -/
def rowsByCols {M K N : ℕ} (l : (⟨2, ![M, K]⟩ : Shape).Idx → EReal) (r : (⟨2, ![K, N]⟩ : Shape).Idx → EReal) :
    (⟨2, ![M, N]⟩ : Shape).Idx → EReal :=
  fun j => ∑ k : Fin K, l (ix2 (j 0) k) * r (ix2 k (j 1))

theorem rowsByCols_apply {M K N : ℕ} (l : (⟨2, ![M, K]⟩ : Shape).Idx → EReal) (r : (⟨2, ![K, N]⟩ : Shape).Idx → EReal)
    (j : (⟨2, ![M, N]⟩ : Shape).Idx) : rowsByCols l r j = ∑ k : Fin K, l (ix2 (j 0) k) * r (ix2 k (j 1)) := rfl

/-- The left operand's index at result index `j` and contraction position `q`: row `j 0` … -/
theorem lhsIdx_row {M K N : ℕ} (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl
/-- … and column the contraction position's one coordinate. -/
theorem lhsIdx_col {M K N : ℕ} (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q
/-- The right operand's index: row the contraction position's one coordinate … -/
theorem rhsIdx_row {M K N : ℕ} (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q
/-- … and column `j 1`. -/
theorem rhsIdx_col {M K N : ℕ} (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the record's one-axis contraction shape, with the operands read at the record's operand indices, is
    the sum over `k < K` of `l[a,k] · r[k,b]`: the contraction index is its one coordinate, the left index at `(j, k)`
    is `(j 0, k)` and the right index is `(k, j 1)`. -/
theorem contr_sum {M K N : ℕ} (d : DotDims ⟨2, ![M, K]⟩ ⟨2, ![K, N]⟩ ⟨2, ![M, N]⟩) (hd : d = DotDims.plain M K N)
    (l : (⟨2, ![M, K]⟩ : Shape).Idx → EReal) (r : (⟨2, ![K, N]⟩ : Shape).Idx → EReal) (j : (⟨2, ![M, N]⟩ : Shape).Idx) :
    ∑ q : d.contr.Idx, l (d.lhsIdx j q) * r (d.rhsIdx j q) = rowsByCols l r j := by
  subst hd
  unfold rowsByCols
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhsIdx_row j _
      | ⟨1, _⟩ => exact (lhsIdx_col j _).trans hk)
  have er : (DotDims.plain M K N).rhsIdx j ((contrEquiv1 (DotDims.plain M K N) K rfl rfl).symm k) = ix2 k (j 1) :=
    funext fun a => Fin.ext (by
      match a with
      | ⟨0, _⟩ => exact (rhsIdx_row j _).trans hk
      | ⟨1, _⟩ => exact rhsIdx_col j _)
  exact congrArg₂ (· * ·) (congrArg l el) (congrArg r er)

/-- A `tpu.matmul` with plain dimension numbers into the zero accumulator is the product, whatever the operands'
    float formats and the precision attribute. -/
theorem matmul_zero_eq {M K N : ℕ} {φ₁ φ₂ : FTy} (d : DotDims ⟨2, ![M, K]⟩ ⟨2, ![K, N]⟩ ⟨2, ![M, N]⟩)
    (hd : d = DotDims.plain M K N) (prec : Option ContractPrecision)
    (l : FVec Ideal ⟨2, ![M, K]⟩ φ₁) (r : FVec Ideal ⟨2, ![K, N]⟩ φ₂) :
    FloatOps.matmul d prec l r (constant (F := Ideal) ⟨2, ![M, N]⟩ .f32 0x00000000#32) = rowsByCols l r :=
  funext fun j => (Ideal.matmul_constant_zero_apply d prec l r j).trans (contr_sum d hd l r j)

/-- The host's `dot_general` with plain dimension numbers is the product, whatever the precision and the schedule. -/
theorem dotGeneral_eq {M K N : ℕ} {φ₁ φ₂ : FTy} (d : DotDims ⟨2, ![M, K]⟩ ⟨2, ![K, N]⟩ ⟨2, ![M, N]⟩)
    (hd : d = DotDims.plain M K N) (prec : Option ContractPrecision) (sched : HostSchedule)
    (l : FVec Ideal ⟨2, ![M, K]⟩ φ₁) (r : FVec Ideal ⟨2, ![K, N]⟩ φ₂) :
    FloatOps.dotGeneral d prec sched l r = rowsByCols l r :=
  funext fun j => (Ideal.dotGeneral_apply d prec sched l r j).trans (contr_sum d hd l r j)

/-- Two products agree at two indices when their operands agree along the row and the column read there: if
    `l'[j' 0, k] = l[j 0, k]` and `r'[k, j' 1] = r[k, j 1]` for every `k`, then `(l' · r')[j'] = (l · r)[j]`. In
    particular rows of a product are the product of the rows: with `l'` a block of rows of `l` and `r' = r`, the
    block's product at `(p, b)` is the whole product at `(o + p, b)`. -/
theorem rowsByCols_congr {M M' K N N' : ℕ} (l : (⟨2, ![M, K]⟩ : Shape).Idx → EReal) (r : (⟨2, ![K, N]⟩ : Shape).Idx → EReal)
    (l' : (⟨2, ![M', K]⟩ : Shape).Idx → EReal) (r' : (⟨2, ![K, N']⟩ : Shape).Idx → EReal)
    (j' : (⟨2, ![M', N']⟩ : Shape).Idx) (j : (⟨2, ![M, N]⟩ : Shape).Idx)
    (hl : ∀ k : Fin K, l' (ix2 (j' 0) k) = l (ix2 (j 0) k)) (hr : ∀ k : Fin K, r' (ix2 k (j' 1)) = r (ix2 k (j 1))) :
    rowsByCols l' r' j' = rowsByCols l r j := by
  unfold rowsByCols
  exact Finset.sum_congr rfl fun k _ => by rw [hl k, hr k]

end Cert.Lib.PlainDot

end
-- ==== Proof.PayValue.lean ====
/-
  The two kernel bodies' stored values at the ideal values, read at an index: the projection body, the
  accumulator's reset and the final block's bias row.

  The projection body stores, at (p, q), the product of row p of its 512×1024 block with column q of the 1024×3072
  matrix, plus the bias row's entry q: the two narrowings to bfloat16 and the casts of a shape to itself are the
  identity on the extended reals, and the product into a zero accumulator is the plain sum over the shared axis. The
  attention body's accumulator starts from the zero word, which is the extended real 0, and its final block is the
  accumulator plus the output bias row broadcast over the 512 rows.
-/
import proofs.«107395_j884763263199_2_alg».proof.Proof.Gen.KernelIdeal.Skeleton
import proofs.«107395_j884763263199_2_alg».proof.Proof.AttnSpec
import proofs.«107395_j884763263199_2_alg».proof.Proof.LibPlainDot
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.PayValue

open Cert.KernelIdeal Cert.KernelIdeal.Gen Idealize.ShloMosaic Idealize.ShloMosaic.ValueIdx

/-- A plain product into the zero accumulator, read at (a, b): the sum over the shared axis of l[a,k] · r[k,b]. -/
theorem plain_at {M K N : ℕ} {φ₁ φ₂ : FTy} (d : DotDims ⟨2, ![M, K]⟩ ⟨2, ![K, N]⟩ ⟨2, ![M, N]⟩)
    (hd : d = DotDims.plain M K N) (l : FVec Ideal ⟨2, ![M, K]⟩ φ₁) (r : FVec Ideal ⟨2, ![K, N]⟩ φ₂)
    (a : Fin M) (b : Fin N) :
    FloatOps.matmul d none l r (constant (F := Ideal) ⟨2, ![M, N]⟩ .f32 0x00000000#32) (ix2 a b)
      = ∑ k : Fin K, l (ix2 a k) * r (ix2 k b) :=
  congrFun (Cert.Lib.PlainDot.matmul_zero_eq d hd none l r) (ix2 a b)

/-- The projection's dimension numbers are the plain ones: a 512×1024 operand by a 1024×3072 operand. -/
theorem dot_qkv_plain : dot_S512x1024_S1024x3072_S512x3072_1_0_0_1_n_n = DotDims.plain 512 1024 3072 := rfl

/-- The projection body's stored value at (p, q): row p of the block against column q of the matrix, plus the bias. -/
theorem pay_qkv (x : Vec Ideal S512x1024 .f32) (w : Vec Ideal S1024x3072 .bf16) (b : Vec Ideal S1x3072 .f32)
    (p : Fin 512) (q : Fin 3072) :
    k0_pay1 (F := Ideal) x w b (ix2 p q)
      = (∑ d : Fin 1024, x (ix2 p d) * w (ix2 d q)) + b (ix2 (0 : Fin 1) q) := by
  unfold k0_pay1
  rw [shapeCast_self, shapeCast_self, shapeCast_self]
  rw [truncf_apply, addf_apply]
  refine congrArg₂ (· + ·) ?_ ?_
  · exact plain_at (φ₁ := .bf16) (φ₂ := .bf16) _ dot_qkv_plain _ _ p q
  · exact broadcastTo_1b_ab_apply _ _ p q

/-- The accumulator's reset value is 0 everywhere. -/
theorem pay_reset (i : Fin 512) (e : Fin 1024) : k1_pay2 (F := Ideal) (ix2 i e) = 0 := by
  unfold k1_pay2
  rw [shapeCast_self]
  exact Ideal.ofBits_zero_f32

/-- The final block at (i, e): the accumulator there plus the output bias row's entry e. -/
theorem pay_out (acc : Vec Ideal S512x1024 .f32) (bo : Vec Ideal S1x1024 .f32) (i : Fin 512) (e : Fin 1024) :
    k1_pay1 (F := Ideal) acc bo (ix2 i e) = acc (ix2 i e) + bo (ix2 (0 : Fin 1) e) := by
  unfold k1_pay1
  rw [shapeCast_self]
  refine (addf_apply _ _ _).trans ?_
  exact congrArg (acc (ix2 i e) + ·) (broadcastTo_1b_ab_apply _ _ i e)

end Cert.KernelIdeal.PayValue

end
-- ==== Proof.LibRowsDot.lean ====
/-
  A product of rows: for matrices `l` of M rows and `r` of N rows, both of width K, the contraction of the second
  axis of each — the dimension numbers ⟨[1], [1], [0], [0], [], []⟩ of `DotDims.transposedRhs` — read at the output
  index (a, b) is the sum over k < K of l[a, k] · r[b, k]. The contraction index of the dimension record is a
  one-coordinate tuple; the sum is re-indexed through that coordinate.
-/
import Idealize.ShloMosaic.PureOps.Ideal.Laws
import Idealize.ShloMosaic.Lib.ValueIdx

noncomputable section

namespace Cert.RowsDot

open Idealize.ShloMosaic Idealize.ShloMosaic.ValueIdx

/-- The left operand's row coordinate is the output's row. -/
theorem lhs_row {M K N : Nat} (j : (⟨2, ![M, N]⟩ : Shape).Idx) (q : (DotDims.transposedRhs M K N).contr.Idx) :
    ((DotDims.transposedRhs M K N).lhsIdx j q 0).val = (j 0).val := by
  unfold DotDims.lhsIdx
  rw [dif_neg (show ¬(0 : Fin 2) ∈ (DotDims.transposedRhs M K N).lhsBatch from List.not_mem_nil),
    dif_pos (show (0 : Fin 2) ∈ (DotDims.transposedRhs M K N).lhsNonContracting from List.mem_singleton.mpr rfl)]
  rfl

/-- The right operand's row coordinate is the output's column. -/
theorem rhs_row {M K N : Nat} (j : (⟨2, ![M, N]⟩ : Shape).Idx) (q : (DotDims.transposedRhs M K N).contr.Idx) :
    ((DotDims.transposedRhs M K N).rhsIdx j q 0).val = (j 1).val := by
  unfold DotDims.rhsIdx
  rw [dif_neg (show ¬(0 : Fin 2) ∈ (DotDims.transposedRhs M K N).rhsBatch from List.not_mem_nil),
    dif_pos (show (0 : Fin 2) ∈ (DotDims.transposedRhs M K N).rhsNonContracting from List.mem_singleton.mpr rfl)]
  rfl

/-- The left operand's index at output (a, b) and contraction coordinate k is (a, k). -/
theorem lhs_at {M K N : Nat} (a : Fin M) (b : Fin N) (k : Fin K) :
    (DotDims.transposedRhs M K N).lhsIdx (ix2 a b) ((contrEquiv1 (DotDims.transposedRhs M K N) K rfl rfl).symm k) = ix2 a k := by
  have hk := contrEquiv1_symm_val (DotDims.transposedRhs M K N) K rfl rfl k
  funext x
  apply Fin.ext
  match x with
  | ⟨0, _⟩ => exact lhs_row _ _
  | ⟨1, _⟩ => exact ((DotDims.transposedRhs M K N).lhsIdx_val_of_single rfl _ _).trans hk

/-- The right operand's index there is (b, k). -/
theorem rhs_at {M K N : Nat} (a : Fin M) (b : Fin N) (k : Fin K) :
    (DotDims.transposedRhs M K N).rhsIdx (ix2 a b) ((contrEquiv1 (DotDims.transposedRhs M K N) K rfl rfl).symm k) = ix2 b k := by
  have hk := contrEquiv1_symm_val (DotDims.transposedRhs M K N) K rfl rfl k
  funext x
  apply Fin.ext
  match x with
  | ⟨0, _⟩ => exact rhs_row _ _
  | ⟨1, _⟩ => exact ((DotDims.transposedRhs M K N).rhsIdx_val_of_single rfl _ _).trans hk

/-- The contraction's sum at (a, b) is the sum over the shared width of the two rows' products. -/
theorem sum_at {M K N : Nat} (l : (⟨2, ![M, K]⟩ : Shape).Idx → EReal) (r : (⟨2, ![N, K]⟩ : Shape).Idx → EReal)
    (a : Fin M) (b : Fin N) :
    ∑ q : (DotDims.transposedRhs M K N).contr.Idx,
        l ((DotDims.transposedRhs M K N).lhsIdx (ix2 a b) q) * r ((DotDims.transposedRhs M K N).rhsIdx (ix2 a b) q)
      = ∑ k : Fin K, l (ix2 a k) * r (ix2 b k) := by
  rw [← Equiv.sum_comp (contrEquiv1 (DotDims.transposedRhs M K N) K rfl rfl).symm]
  refine Finset.sum_congr rfl fun k _ => ?_
  rw [lhs_at, rhs_at]

/-- A matrix unit's product into a zero accumulator, at the ideal values: that sum. -/
theorem matmul_zero_at {M K N : Nat} {φ₁ φ₂ : FTy} (l : FVec Ideal ⟨2, ![M, K]⟩ φ₁) (r : FVec Ideal ⟨2, ![N, K]⟩ φ₂)
    (a : Fin M) (b : Fin N) :
    FloatOps.matmul (DotDims.transposedRhs M K N) none l r (constant ⟨2, ![M, N]⟩ .f32 0x00000000#32) (ix2 a b)
      = ∑ k : Fin K, l (ix2 a k) * r (ix2 b k) :=
  (Ideal.matmul_constant_zero_apply _ none l r (ix2 a b)).trans (sum_at l r a b)

/-- The same for any dimension record that IS that one (a printed program names its own). -/
theorem matmul_zero_at_of_eq {M K N : Nat} {φ₁ φ₂ : FTy} (D : DotDims ⟨2, ![M, K]⟩ ⟨2, ![N, K]⟩ ⟨2, ![M, N]⟩)
    (hD : D = DotDims.transposedRhs M K N) (l : FVec Ideal ⟨2, ![M, K]⟩ φ₁) (r : FVec Ideal ⟨2, ![N, K]⟩ φ₂)
    (a : Fin M) (b : Fin N) :
    FloatOps.matmul D none l r (constant ⟨2, ![M, N]⟩ .f32 0x00000000#32) (ix2 a b)
      = ∑ k : Fin K, l (ix2 a k) * r (ix2 b k) := by
  subst hD
  exact matmul_zero_at l r a b

end Cert.RowsDot

end
-- ==== Proof.LibRowMax.lean ====
/-
  A row maximum taken from `-∞`, read at an index, on the extended reals.

  The maximum along the second axis of an `[n, b]` array at row `p` is the fold of `max`, from the value of the pattern
  `0xFF800000` (`-∞`), over the `b` entries of that row — for a kernel's `vector.multi_reduction <maximumf>` with that
  accumulator and for the host's `stablehlo.reduce` with a maximum body from that initial value alike. The reduced
  index `p` with column `k` put back is `(p, k)`.
-/
import Idealize.ShloMosaic.Lib.ValueIdx
import Idealize.ShloMosaic.PureOps.Ideal.Laws

noncomputable section

namespace Cert.Lib.RowMax

open Idealize.ShloMosaic Idealize.ShloMosaic.ValueIdx

/-- The reduced index `p` with column `k` put back is `(p, k)`. -/
theorem lift_row {n b : ℕ} (hr : (⟨2, ![n, b]⟩ : Shape).Reduces [1] ⟨1, ![n]⟩) (p : Fin n)
    (k : Fin ((⟨2, ![n, b]⟩ : Shape).size 1)) : hr.lift (ix1 p) k = ix2 p (⟨k.val, k.isLt⟩ : Fin b) := by
  funext d; apply Fin.ext
  match d with
  | ⟨0, _⟩ => rfl
  | ⟨1, _⟩ => rfl

/-- A kernel's maximum along the second axis, at row `p`, is the fold of `max` from `-∞` over that row. -/
theorem rowmax_apply {a b : ℕ} (x : FVec Ideal ⟨2, ![a, b]⟩ .f32) (h : (⟨2, ![a, b]⟩ : Shape).Reduces [1] ⟨1, ![a]⟩)
    (hφ : FKind.Formats .f32) (hacc : (0xFF800000#32 : BitVec 32) = 0xFF800000#32) (p : Fin a) :
    multiReduction .maximumf [1] ⟨1, ![a]⟩ x 0xFF800000#32 h hφ hacc (ix1 p)
      = (Finset.univ : Finset (Fin b)).fold max (Ideal.ofBits .f32 0xFF800000#32) (fun k => x (ix2 p k)) := by
  refine (Ideal.multiReduction_maximumf_single x 0xFF800000#32 h hφ hacc (ix1 p)).trans ?_
  have hf : (x ∘ h.lift (ix1 p)) = fun k : Fin b => x (ix2 p k) := funext fun k => congrArg x (lift_row h p k)
  exact congrArg (fun f => Finset.fold max (Ideal.ofBits .f32 0xFF800000#32) f (Finset.univ : Finset (Fin b))) hf

/-- The host's reduce with a maximum body from `-∞` along the second axis, at row `p`, is the same fold. -/
theorem hostRowMax_apply {n b : ℕ} (z : FVec Ideal ⟨2, ![n, b]⟩ .f32) (hrt : (⟨2, ![n, b]⟩ : Shape).ReducesTo [1] ⟨1, ![n]⟩)
    (hr : (⟨2, ![n, b]⟩ : Shape).Reduces [1] ⟨1, ![n]⟩) (hu : 0 < (⟨0, ![]⟩ : Shape).numel) (p : Fin n) :
    Host.reduce FloatOps.maximumf z (constant (F := Ideal) ⟨0, ![]⟩ .f32 0xFF800000#32) hrt hu (ix1 p)
      = (Finset.univ : Finset (Fin b)).fold max (Ideal.ofBits .f32 0xFF800000#32) (fun k => z (ix2 p k)) := by
  rw [Host.reduce_eq_fold_single FloatOps.maximumf z _ hrt hr hu]
  have hf : (z ∘ hr.lift (ix1 p)) = fun k : Fin b => z (ix2 p k) := funext fun k => congrArg z (lift_row hr p k)
  exact congrArg (fun f => Finset.fold max (Ideal.ofBits .f32 0xFF800000#32) f (Finset.univ : Finset (Fin b))) hf

end Cert.Lib.RowMax

end
-- ==== Proof.LibKeepdimsColumn.lean ====
/-
  A row sum kept as a column, read at an index.

  `jnp.sum(x, axis=1, keepdims=True)` on an `[a, b]` array is a sum along the second axis into `[a]`, a recast of that to
  the column `[a, 1]`, and (where it meets an `[a, b]` operand) a broadcast of the column along the rows. Read at an
  index: the sum at row `p` is the sum of that row's `b` entries; the column at `(i, u)` is the sum at `i`; the broadcast
  at `(p, c)` is the column at `(p, 0)`. These are the column-shaped companions of the library's leading-unit-axis cast
  `[a] → [1, a]` and row broadcast `[1, b] → [a, b]`, stated over literal-extent index constructors so that they fire on
  coordinates of literal `Fin` types.
-/
import Idealize.ShloMosaic.Lib.Pipeline.Value
import Idealize.ShloMosaic.Lib.ValueIdx
import Idealize.ShloMosaic.Lib.ValueLayout
import Idealize.ShloMosaic.PureOps.Ideal.Laws

noncomputable section

namespace Cert.Gcn.Lib

open Idealize.ShloMosaic Idealize.ShloMosaic.ValueIdx

section Layout
variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- A sum along the second axis of an `[a, b]` array, at row `p`, is the sum of that row's `b` entries. -/
theorem rowsum_apply {a b : ℕ} (x : FVec Ideal ⟨2, ![a, b]⟩ .f32) (h : (⟨2, ![a, b]⟩ : Shape).Reduces [1] ⟨1, ![a]⟩)
    (hφ : FKind.Formats .f32) (hacc : (0x00000000#32 : BitVec 32) = 0x00000000#32) (p : Fin a) :
    multiReduction .add [1] ⟨1, ![a]⟩ x 0x00000000#32 h hφ hacc (ix1 p) = ∑ k : Fin b, x (ix2 p k) := by
  refine (Ideal.multiReduction_add_single x 0x00000000#32 h hφ hacc (ix1 p)).trans ?_
  refine Finset.sum_congr rfl fun k _ => congrArg x ?_
  funext d
  apply Fin.ext
  match d with
  | ⟨0, _⟩ => rfl
  | ⟨1, _⟩ => rfl

end Cert.Gcn.Lib

end
-- ==== Proof.PayHead.lean ====
/-
  One head's contribution to the attention body's accumulator at the ideal values, read at an index.

  The body takes a query block q of 512 rows, the 2048 key rows k and value rows v of the same head, that head's 64
  rows wo of the output matrix and the accumulator. It forms the 512×2048 scores (each query row against each key row,
  scaled by 2⁻⁵), subtracts each row's maximum (folded from −∞), exponentiates, divides by the row's sum, multiplies
  the normalised weights by the value rows into a 512×64 context, multiplies that by the 64×1024 rows of the output
  matrix and adds the result to the accumulator. The narrowings to bfloat16 are the identity on the extended reals; the
  row maximum and the row sum are kept as a column and broadcast back along the row, so at (i, j) they read the row-i
  value. Read at (i, e) the result is the accumulator there plus, summed over the head's 64 columns dh, the context
  row's entry dh times wo[dh, e], the context row being the specification's `attnRow` of query row i.
-/
import proofs.«107395_j884763263199_2_alg».proof.Proof.PayValue
import proofs.«107395_j884763263199_2_alg».proof.Proof.LibRowsDot
import proofs.«107395_j884763263199_2_alg».proof.Proof.LibRowMax
import proofs.«107395_j884763263199_2_alg».proof.Proof.LibKeepdimsColumn

noncomputable section

namespace Cert.KernelIdeal.PayValue

open Cert.KernelIdeal Cert.KernelIdeal.Gen Idealize.ShloMosaic Idealize.ShloMosaic.ValueIdx

/-- The scores' dimension numbers contract the second axis of both operands: 512 rows against 2048 rows of width 64. -/
theorem dot_scores_rows : dot_S512x64_S2048x64_S512x2048_1_1_0_0_n_n = DotDims.transposedRhs 512 64 2048 := rfl
/-- The context's dimension numbers are the plain ones: 512×2048 by 2048×64. -/
theorem dot_ctx_plain : dot_S512x2048_S2048x64_S512x64_1_0_0_1_n_n = DotDims.plain 512 2048 64 := rfl
/-- The output product's dimension numbers are the plain ones: 512×64 by 64×1024. -/
theorem dot_out_plain : dot_S512x64_S64x1024_S512x1024_1_0_0_1_n_n = DotDims.plain 512 64 1024 := rfl

/-- The scaled scores at (i, j): query row i against key row j, times 2⁻⁵. -/
theorem scores_apply (qq : FVec Ideal S512x64 .bf16) (kk : FVec Ideal S2048x64 .bf16) (i : Fin 512) (j : Fin 2048) :
    mulf (FloatOps.matmul dot_S512x64_S2048x64_S512x2048_1_1_0_0_n_n none qq kk
            (constant (F := Ideal) S512x2048 .f32 0x00000000#32))
        (broadcast S512x2048 (Scalar.ofBits (F := Ideal) .f32 0x3D000000#32)) (ix2 i j)
      = Cert.AttnSpec.score (fun d => qq (ix2 i d)) (fun j d => kk (ix2 j d)) j := by
  rw [mulf_apply]
  exact congrArg (· * Cert.AttnSpec.scale) (Cert.RowsDot.matmul_zero_at_of_eq _ dot_scores_rows qq kk i j)

/-- A per-row value kept as a column and broadcast back along the row reads, at (i, j), the row-i value. -/
theorem keepcol_apply (r : FVec Ideal S512 .f32) (hc : S512.ShapeCasts S512x1) (hb : S512x1.Broadcasts S512x2048)
    (i : Fin 512) (j : Fin 2048) : broadcastTo S512x2048 (shapeCast S512x1 r hc) hb (ix2 i j) = r (ix1 i) :=
  (Cert.Gcn.Lib.broadcastTo_a1_ab_apply _ hb i j).trans (Cert.Gcn.Lib.shapeCast_a_a1_apply r hc i 0)

/-- The exponential of a score less its row's maximum, at (i, j): the unnormalised weight of key row j in row i. -/
theorem weights_apply (s : FVec Ideal S512x2048 .f32) (hr : S512x2048.Reduces [1] S512) (hφ : FKind.Formats .f32)
    (hacc : (0xFF800000#32 : BitVec 32) = 0xFF800000#32) (hc : S512.ShapeCasts S512x1)
    (hb : S512x1.Broadcasts S512x2048) (i : Fin 512) (j : Fin 2048) :
    exp (subf s (broadcastTo S512x2048
          (shapeCast S512x1 (multiReduction (F := Ideal) .maximumf [1] S512 s 0xFF800000#32 hr hφ hacc) hc) hb)) (ix2 i j)
      = Cert.AttnSpec.weight (fun j => s (ix2 i j)) j := by
  unfold Cert.AttnSpec.weight Cert.AttnSpec.rowMax Cert.AttnSpec.negInf
  refine congrArg (fun z => Ideal.exp (s (ix2 i j) - z)) ?_
  exact (keepcol_apply _ hc hb i j).trans (Cert.Lib.RowMax.rowmax_apply s hr hφ hacc i)

/-- An array divided by its row sums (kept as a column, broadcast back), at (i, j): the entry over its row's sum. -/
theorem normalise_apply (W : FVec Ideal S512x2048 .f32) (hr : S512x2048.Reduces [1] S512) (hφ : FKind.Formats .f32)
    (hacc : (0x00000000#32 : BitVec 32) = 0x00000000#32) (hc : S512.ShapeCasts S512x1)
    (hb : S512x1.Broadcasts S512x2048) (i : Fin 512) (j : Fin 2048) :
    divf W (broadcastTo S512x2048
          (shapeCast S512x1 (multiReduction (F := Ideal) .add [1] S512 W 0x00000000#32 hr hφ hacc) hc) hb) (ix2 i j)
      = Ideal.div (W (ix2 i j)) (∑ j' : Fin 2048, W (ix2 i j')) := by
  rw [divf_apply]
  refine congrArg (Ideal.div (W (ix2 i j))) ?_
  exact (keepcol_apply _ hc hb i j).trans (Cert.Gcn.Lib.rowsum_apply W hr hφ hacc i)

/-- One head's step at (i, e): the accumulator plus the head's context row against the head's rows of the output
    matrix. -/
theorem pay_head (q : Vec Ideal S1x512x64 .bf16) (k v : Vec Ideal S1x2048x64 .bf16) (wo : Vec Ideal S1x64x1024 .bf16)
    (acc : Vec Ideal S512x1024 .f32) (i : Fin 512) (e : Fin 1024) :
    k1_pay3 (F := Ideal) q k v wo acc (ix2 i e)
      = acc (ix2 i e) + ∑ dh : Fin 64,
          Cert.AttnSpec.attnRow (fun d => q (ix3 (0 : Fin 1) i d)) (fun j d => k (ix3 (0 : Fin 1) j d))
            (fun j d => v (ix3 (0 : Fin 1) j d)) dh * wo (ix3 (0 : Fin 1) dh e) := by
  unfold k1_pay3
  rw [shapeCast_self]
  rw [addf_apply]
  refine congrArg (acc (ix2 i e) + ·) ?_
  refine (plain_at (φ₁ := .bf16) (φ₂ := .bf16) _ dot_out_plain _ _ i e).trans ?_
  refine Finset.sum_congr rfl fun dh _ => ?_
  refine congrArg₂ (· * ·) ?_ (shapeCast_1ab_ab_apply wo _ dh e)
  rw [truncf_apply]
  refine (plain_at (φ₁ := .bf16) (φ₂ := .bf16) _ dot_ctx_plain _ _ i dh).trans ?_
  unfold Cert.AttnSpec.attnRow
  refine Finset.sum_congr rfl fun j _ => ?_
  refine congrArg₂ (· * ·) ?_ (shapeCast_1ab_ab_apply v _ j dh)
  rw [truncf_apply]
  refine (normalise_apply _ _ _ _ _ _ i j).trans ?_
  unfold Cert.AttnSpec.prob
  have hs : (fun j' : Fin 2048 =>
        mulf (FloatOps.matmul dot_S512x64_S2048x64_S512x2048_1_1_0_0_n_n none
                (shapeCast S512x64 q Facts₀.shapeCasts_S1x512x64_S512x64)
                (shapeCast S2048x64 k Facts₀.shapeCasts_S1x2048x64_S2048x64)
                (constant (F := Ideal) S512x2048 .f32 0x00000000#32))
            (broadcast S512x2048 (Scalar.ofBits (F := Ideal) .f32 0x3D000000#32)) (ix2 i j'))
      = Cert.AttnSpec.score (fun d => q (ix3 (0 : Fin 1) i d)) (fun j d => k (ix3 (0 : Fin 1) j d)) :=
    funext fun j' => (scores_apply _ _ i j').trans
      (congrArg₂ (fun a b => Cert.AttnSpec.score a b j')
        (funext fun d => shapeCast_1ab_ab_apply q _ i d)
        (funext fun j => funext fun d => shapeCast_1ab_ab_apply k _ j d))
  refine congrArg₂ Ideal.div ?_ (Finset.sum_congr rfl fun j' _ => ?_)
  · exact (weights_apply _ _ _ _ _ _ i j).trans (congrArg (fun f => Cert.AttnSpec.weight f j) hs)
  · exact (weights_apply _ _ _ _ _ _ i j').trans (congrArg (fun f => Cert.AttnSpec.weight f j') hs)

end Cert.KernelIdeal.PayValue

end
-- ==== Proof.AttnFinal.lean ====
/-
  The attention region's output array after the run, at the ideal values.

  The grid's point t = (b·4 + qi)·16 + h handles head h of rows qi·512 … qi·512 + 511 of batch entry b. Its query
  block is rows qi·512 … of head row b·16 + h, its key and value blocks are all 2048 rows of that head row, its
  output-matrix block is head h's 64 rows, and its output block is row block b·4 + qi = t / 16 of the 4096 × 1024
  result. The accumulator is reset to zero at h = 0 and every point adds its head's contribution, so after the point of
  head 15 it holds the sum of the sixteen heads' contributions to the block's rows; that point stores it plus the bias
  row into the output block, and only that point writes the block back. The eight row blocks' last-head points cover
  the array, so the array ends holding, at row r and column e, the sum over the heads h and the head's columns dh of
  the context row of position r % 2048 of head row (r / 2048)·16 + h, entry dh, times the output matrix's entry
  (h, dh, e), plus the bias's entry e.
-/
import proofs.«107395_j884763263199_2_alg».proof.Proof.AttnData
import proofs.«107395_j884763263199_2_alg».proof.Proof.AttnSpec
import proofs.«107395_j884763263199_2_alg».proof.Proof.PayHead
import Idealize.ShloMosaic.Lib.Pipeline.Value
import Idealize.ShloMosaic.Lib.ValueIdx

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-! ## The printed index maps in closed form -/

/-- The block indices of the query, key and value windows at point `t = (b·4 + qi)·16 + h`: head row `b·16 + h` of the
    32, the query's row block `qi`. -/
theorem idx_qkv : ∀ t : Fin cfg1.N,
    win1_0.index t (0 : Fin 3) = t.val / 64 * 16 + t.val % 16 ∧ win1_0.index t (1 : Fin 3) = t.val / 16 % 4 ∧ win1_0.index t (2 : Fin 3) = 0
    ∧ win1_1.index t (0 : Fin 3) = t.val / 64 * 16 + t.val % 16 ∧ win1_1.index t (1 : Fin 3) = 0 ∧ win1_1.index t (2 : Fin 3) = 0
    ∧ win1_2.index t (0 : Fin 3) = t.val / 64 * 16 + t.val % 16 ∧ win1_2.index t (1 : Fin 3) = 0 ∧ win1_2.index t (2 : Fin 3) = 0 :=
  (by decide +kernel : ∀ t : Fin grid1.N, _)

/-- The block indices of the output matrix, the bias row and the output at point `t`: head `h = t % 16`, the whole
    bias row, output row block `t / 16 = b·4 + qi`. -/
theorem idx_out : ∀ t : Fin cfg1.N,
    win1_3.index t (0 : Fin 3) = t.val % 16 ∧ win1_3.index t (1 : Fin 3) = 0 ∧ win1_3.index t (2 : Fin 3) = 0
    ∧ win1_4.index t (0 : Fin 2) = 0 ∧ win1_4.index t (1 : Fin 2) = 0
    ∧ win1_5.index t (0 : Fin 2) = t.val / 16 ∧ win1_5.index t (1 : Fin 2) = 0 :=
  (by decide +kernel : ∀ t : Fin grid1.N, _)

/-! ## The input blocks read at an index of their arrays -/

/-- The query block's row `i` at point `t` is row `(t / 16 % 4)·512 + i` of head row `t / 64 · 16 + t % 16`. -/
theorem q_blk (c : Dev nD) (t : Fin cfg1.N) (i : Fin 512) (d : Fin 64) (g : Fin 32) (s : Fin 2048)
    (hg : g.val = t.val / 64 * 16 + t.val % 16) (hs : s.val = t.val / 16 % 4 * 512 + i.val) :
    (iblk1 V c 0 t : Vec Ideal S1x512x64 .bf16) (ix3 (0 : Fin 1) i d)
      = (V c main_v14 : S32x2048x64.Idx → Elt Ideal .bf16) (ix3 g s d) := by
  obtain ⟨e0, e1, e2, -⟩ := idx_qkv t
  unfold iblk1
  rw [View.read_apply]
  show V c main_v14 _ = V c main_v14 _
  refine congrArg (V c main_v14) ?_
  funext a
  apply Fin.ext
  match a with
  | ⟨0, _⟩ => show win1_0.index t (0 : Fin 3) * 1 + 1 * 0 = g.val; rw [e0, hg]; omega
  | ⟨1, _⟩ => show win1_0.index t (1 : Fin 3) * 512 + 1 * i.val = s.val; rw [e1, hs]; omega
  | ⟨2, _⟩ => show win1_0.index t (2 : Fin 3) * 64 + 1 * d.val = d.val; rw [e2]; omega

/-- The key block's row `j` at point `t` is row `j` of head row `t / 64 · 16 + t % 16`. -/
theorem k_blk (c : Dev nD) (t : Fin cfg1.N) (j : Fin 2048) (d : Fin 64) (g : Fin 32)
    (hg : g.val = t.val / 64 * 16 + t.val % 16) :
    (iblk1 V c 1 t : Vec Ideal S1x2048x64 .bf16) (ix3 (0 : Fin 1) j d)
      = (V c main_v17 : S32x2048x64.Idx → Elt Ideal .bf16) (ix3 g j d) := by
  obtain ⟨-, -, -, e0, e1, e2, -⟩ := idx_qkv t
  unfold iblk1
  rw [View.read_apply]
  show V c main_v17 _ = V c main_v17 _
  refine congrArg (V c main_v17) ?_
  funext a
  apply Fin.ext
  match a with
  | ⟨0, _⟩ => show win1_1.index t (0 : Fin 3) * 1 + 1 * 0 = g.val; rw [e0, hg]; omega
  | ⟨1, _⟩ => show win1_1.index t (1 : Fin 3) * 2048 + 1 * j.val = j.val; rw [e1]; omega
  | ⟨2, _⟩ => show win1_1.index t (2 : Fin 3) * 64 + 1 * d.val = d.val; rw [e2]; omega

/-- The value block's row `j` at point `t` is row `j` of head row `t / 64 · 16 + t % 16`. -/
theorem v_blk (c : Dev nD) (t : Fin cfg1.N) (j : Fin 2048) (d : Fin 64) (g : Fin 32)
    (hg : g.val = t.val / 64 * 16 + t.val % 16) :
    (iblk1 V c 2 t : Vec Ideal S1x2048x64 .bf16) (ix3 (0 : Fin 1) j d)
      = (V c main_v20 : S32x2048x64.Idx → Elt Ideal .bf16) (ix3 g j d) := by
  obtain ⟨-, -, -, -, -, -, e0, e1, e2⟩ := idx_qkv t
  unfold iblk1
  rw [View.read_apply]
  show V c main_v20 _ = V c main_v20 _
  refine congrArg (V c main_v20) ?_
  funext a
  apply Fin.ext
  match a with
  | ⟨0, _⟩ => show win1_2.index t (0 : Fin 3) * 1 + 1 * 0 = g.val; rw [e0, hg]; omega
  | ⟨1, _⟩ => show win1_2.index t (1 : Fin 3) * 2048 + 1 * j.val = j.val; rw [e1]; omega
  | ⟨2, _⟩ => show win1_2.index t (2 : Fin 3) * 64 + 1 * d.val = d.val; rw [e2]; omega

/-- The output matrix's block at point `t` is its slab of head `t % 16`. -/
theorem wo_blk (c : Dev nD) (t : Fin cfg1.N) (dh : Fin 64) (e : Fin 1024) (h : Fin 16) (hh : h.val = t.val % 16) :
    (iblk1 V c 3 t : Vec Ideal S1x64x1024 .bf16) (ix3 (0 : Fin 1) dh e)
      = (V c main_v23 : S16x64x1024.Idx → Elt Ideal .bf16) (ix3 h dh e) := by
  obtain ⟨e0, e1, e2, -⟩ := idx_out t
  unfold iblk1
  rw [View.read_apply]
  show V c main_v23 _ = V c main_v23 _
  refine congrArg (V c main_v23) ?_
  funext a
  apply Fin.ext
  match a with
  | ⟨0, _⟩ => show win1_3.index t (0 : Fin 3) * 1 + 1 * 0 = h.val; rw [e0, hh]; omega
  | ⟨1, _⟩ => show win1_3.index t (1 : Fin 3) * 64 + 1 * dh.val = dh.val; rw [e1]; omega
  | ⟨2, _⟩ => show win1_3.index t (2 : Fin 3) * 1024 + 1 * e.val = e.val; rw [e2]; omega

/-- The bias window's block at every point is the whole bias row. -/
theorem bo_blk (c : Dev nD) (t : Fin cfg1.N) (e : Fin 1024) :
    (iblk1 V c 4 t : Vec Ideal S1x1024 .f32) (ix2 (0 : Fin 1) e)
      = (V c main_v24 : S1x1024.Idx → Elt Ideal .f32) (ix2 (0 : Fin 1) e) := by
  obtain ⟨-, -, -, e0, e1, -⟩ := idx_out t
  unfold iblk1
  rw [View.read_apply]
  show V c main_v24 _ = V c main_v24 _
  refine congrArg (V c main_v24) ?_
  funext a
  apply Fin.ext
  match a with
  | ⟨0, _⟩ => show win1_4.index t (0 : Fin 2) * 1 + 1 * 0 = 0; rw [e0]
  | ⟨1, _⟩ => show win1_4.index t (1 : Fin 2) * 1024 + 1 * e.val = e.val; rw [e1]; omega

/-! ## One head's contribution, and the accumulator as the sum over the heads -/

/-- Head `h`'s contribution to output row `r`, column `e`: the head's context row of position `r % 2048` of batch
    entry `r / 2048` against column `e` of the head's slab of the output matrix. -/
def rowHead (c : Dev nD) (r : Fin 4096) (e : Fin 1024) (h : Fin 16) : EReal :=
  ∑ dh : Fin 64, Cert.AttnSpec.attnRow
      (fun d => V c main_v14 (ix3 (⟨r.val / 2048 * 16 + h.val, by have := r.isLt; have := h.isLt; omega⟩ : Fin 32) (⟨r.val % 2048, Nat.mod_lt _ (by decide)⟩ : Fin 2048) d))
      (fun s d => V c main_v17 (ix3 (⟨r.val / 2048 * 16 + h.val, by have := r.isLt; have := h.isLt; omega⟩ : Fin 32) s d))
      (fun s d => V c main_v20 (ix3 (⟨r.val / 2048 * 16 + h.val, by have := r.isLt; have := h.isLt; omega⟩ : Fin 32) s d)) dh
    * V c main_v23 (ix3 h dh e)

/-- At point `t` the body's new accumulator at `(i, e)` is the old one plus the contribution of head `t % 16` to
    output row `(t / 16)·512 + i`. -/
theorem head_at (c : Dev nD) (t : Fin cfg1.N) (acc : Vec Ideal S512x1024 .f32) (i : Fin 512) (e : Fin 1024)
    (r : Fin 4096) (h : Fin 16) (hr : r.val = t.val / 16 * 512 + i.val) (hh : h.val = t.val % 16) :
    k1_pay3 (F := Ideal) (iblk1 V c 0 t) (iblk1 V c 1 t) (iblk1 V c 2 t) (iblk1 V c 3 t) acc (ix2 i e)
      = acc (ix2 i e) + rowHead V c r e h := by
  have ht : t.val < 128 := Nat.lt_of_lt_of_eq t.isLt N_1
  have hi := i.isLt
  refine (PayValue.pay_head (iblk1 V c 0 t) (iblk1 V c 1 t) (iblk1 V c 2 t) (iblk1 V c 3 t) acc i e).trans ?_
  refine congrArg (acc (ix2 i e) + ·) ?_
  unfold rowHead
  refine Finset.sum_congr rfl fun dh _ => ?_
  have hg : r.val / 2048 * 16 + h.val = t.val / 64 * 16 + t.val % 16 := by rw [hr, hh]; omega
  have hs : r.val % 2048 = t.val / 16 % 4 * 512 + i.val := by rw [hr]; omega
  have hq : (fun d : Fin 64 => (iblk1 V c 0 t : Vec Ideal S1x512x64 .bf16) (ix3 (0 : Fin 1) i d))
      = fun d => V c main_v14 (ix3 (⟨r.val / 2048 * 16 + h.val, by have := r.isLt; have := h.isLt; omega⟩ : Fin 32) (⟨r.val % 2048, Nat.mod_lt _ (by decide)⟩ : Fin 2048) d) :=
    funext fun d => q_blk V c t i d _ _ hg hs
  have hk : (fun (j : Fin 2048) (d : Fin 64) => (iblk1 V c 1 t : Vec Ideal S1x2048x64 .bf16) (ix3 (0 : Fin 1) j d))
      = fun j d => V c main_v17 (ix3 (⟨r.val / 2048 * 16 + h.val, by have := r.isLt; have := h.isLt; omega⟩ : Fin 32) j d) :=
    funext fun j => funext fun d => k_blk V c t j d _ hg
  have hv : (fun (j : Fin 2048) (d : Fin 64) => (iblk1 V c 2 t : Vec Ideal S1x2048x64 .bf16) (ix3 (0 : Fin 1) j d))
      = fun j d => V c main_v20 (ix3 (⟨r.val / 2048 * 16 + h.val, by have := r.isLt; have := h.isLt; omega⟩ : Fin 32) j d) :=
    funext fun j => funext fun d => v_blk V c t j d _ hg
  rw [hq, hk, hv, wo_blk V c t dh e h hh]

/-- The accumulator after a point depends on the point's number only. -/
theorem accAt_cast (c : Dev nD) {n n' : ℕ} (h : n = n') (hn : n < cfg1.N) (hn' : n' < cfg1.N) :
    accAt V c n hn = accAt V c n' hn' := by subst h; rfl

/-- After the point of head `k` of output row block `B` the accumulator's row `i` holds the contributions of heads
    `0 … k` to output row `B·512 + i`: the reset at head 0 starts it from zero, every later head adds its own. -/
theorem accAt_heads (c : Dev nD) (B : Fin 8) (i : Fin 512) (e : Fin 1024) (r : Fin 4096) (hr : r.val = B.val * 512 + i.val) :
    ∀ (k : ℕ) (hk : k < 16) (hn : B.val * 16 + k < cfg1.N),
      accAt V c (B.val * 16 + k) hn (ix2 i e)
        = ∑ s : Fin (k + 1), rowHead V c r e ⟨s.val, Nat.lt_of_lt_of_le s.isLt hk⟩
  | 0, hk, hn => by
    have hB := B.isLt
    rw [accAt_reset V c ⟨B.val * 16 + 0, hn⟩ (by show (B.val * 16 + 0) % 16 = 0; omega)]
    rw [head_at V c ⟨B.val * 16 + 0, hn⟩ (k1_pay2 (F := Ideal)) i e r ⟨0, hk⟩
      (by show r.val = (B.val * 16 + 0) / 16 * 512 + i.val; rw [hr]; omega) (by show 0 = (B.val * 16 + 0) % 16; omega)]
    rw [PayValue.pay_reset i e, zero_add, Fin.sum_univ_one]
    rfl
  | k + 1, hk, hn => by
    have hB := B.isLt
    rw [accAt_step V c ⟨B.val * 16 + (k + 1), hn⟩ (by show (B.val * 16 + (k + 1)) % 16 ≠ 0; omega)]
    rw [head_at V c ⟨B.val * 16 + (k + 1), hn⟩ _ i e r ⟨k + 1, hk⟩
      (by show r.val = (B.val * 16 + (k + 1)) / 16 * 512 + i.val; rw [hr]; omega) (by show k + 1 = (B.val * 16 + (k + 1)) % 16; omega)]
    rw [accAt_cast V c (show B.val * 16 + (k + 1) - 1 = B.val * 16 + k by omega) _ (Nat.lt_of_succ_lt hn)]
    rw [accAt_heads c B i e r hr k (Nat.lt_of_succ_lt hk) (Nat.lt_of_succ_lt hn)]
    exact (Fin.sum_univ_castSucc (fun s : Fin (k + 1 + 1) => rowHead V c r e ⟨s.val, Nat.lt_of_lt_of_le s.isLt hk⟩)).symm

/-! ## The output array after the run -/

/-- What the output array ends holding: at row `r`, column `e` the sixteen heads' contributions plus the bias. -/
def attnArr (c : Dev nD) : S4096x1024.Idx → Elt Ideal .f32 := fun j =>
  (∑ h : Fin 16, rowHead V c ⟨(j 0).val, (j 0).isLt⟩ ⟨(j 1).val, (j 1).isLt⟩ h)
    + V c main_v24 (ix2 (0 : Fin 1) (⟨(j 1).val, (j 1).isLt⟩ : Fin 1024))

/-- `attnArr` at an index given by its coordinates. -/
theorem attnArr_apply (c : Dev nD) (r : Fin 4096) (e : Fin 1024) :
    attnArr V c (ix2 r e) = (∑ h : Fin 16, rowHead V c r e h) + V c main_v24 (ix2 (0 : Fin 1) e) := rfl

/-- Row `i` of the output block of point `t` is row `(t / 16)·512 + i` of the output array. -/
theorem out_emb (t : Fin cfg1.N) (i : Fin 512) (e : Fin 1024) (r : Fin 4096) (hr : r.val = t.val / 16 * 512 + i.val) :
    ((cfg1.win 5).blk t).view.emb (ix2 i e) = (ix2 r e : S4096x1024.Idx) := by
  obtain ⟨-, -, -, -, -, e0, e1⟩ := idx_out t
  funext a
  apply Fin.ext
  match a with
  | ⟨0, _⟩ => show win1_5.index t (0 : Fin 2) * 512 + 1 * i.val = r.val; rw [e0, hr]; omega
  | ⟨1, _⟩ => show win1_5.index t (1 : Fin 2) * 1024 + 1 * e.val = e.val; rw [e1]; omega

/-- What a point that writes back (the last head's, `t % 16 = 15`) writes is its block of `attnArr`: the accumulator
    then holds all sixteen heads' contributions to the block's rows, and the body stores it plus the bias row. -/
theorem flushed1_eq (c : Dev nD) (t : Fin cfg1.N) (hf : (cfg1.win 5).flush t = true) :
    (dat1 V c).flushed 5 t = ((cfg1.win 5).blk t).view.read (Elt Ideal) (attnArr V c) := by
  have h15 : t.val % 16 = 15 := (flush1_5 t).mp hf
  have hN : cfg1.N = 128 := N_1
  have ht : t.val < 128 := Nat.lt_of_lt_of_eq t.isLt N_1
  show (cfg1.win 5).cut (grid1.coords t) ((dat1 V c).after 5 t) = _
  rw [after1_5]
  refine funext fun (j : S512x1024.Idx) => ?_
  obtain ⟨i, e, rfl⟩ : ∃ (i : Fin 512) (e : Fin 1024), j = ix2 i e := ⟨j 0, j 1, eq_ix2 j⟩
  have hi := i.isLt
  rw [View.read_apply]
  show k1_pay1 (F := Ideal) (accAt V c t.val t.isLt) (iblk1 V c 4 t) (ix2 i e) = attnArr V c (((cfg1.win 5).blk t).view.emb (ix2 i e))
  rw [out_emb t i e ⟨t.val / 16 * 512 + i.val, by omega⟩ rfl, attnArr_apply]
  refine (PayValue.pay_out (accAt V c t.val t.isLt) (iblk1 V c 4 t) i e).trans ?_
  refine congrArg₂ (· + ·) ?_ (bo_blk V c t e)
  rw [accAt_cast V c (show t.val = (⟨t.val / 16, by omega⟩ : Fin 8).val * 16 + 15 by show t.val = t.val / 16 * 16 + 15; omega) t.isLt
    (by show t.val / 16 * 16 + 15 < cfg1.N; omega)]
  rw [accAt_heads V c ⟨t.val / 16, by omega⟩ i e ⟨t.val / 16 * 512 + i.val, by omega⟩ rfl 15 (by decide)]

/-- An index of the output array is in point `t`'s block iff each coordinate is in the block's range on its axis. -/
theorem mem_blk5 (t : Fin cfg1.N) (i : S4096x1024.Idx) :
    i ∈ ((cfg1.win 5).blk t).view.set ↔ ∀ a : Fin 2, win1_5.index t a * S512x1024.size a ≤ (i a).val ∧ (i a).val < win1_5.index t a * S512x1024.size a + S512x1024.size a := by
  show i ∈ ((View.whole main_v25).slice (win1_5.rect t)).set ↔ _
  rw [View.set_slice_whole, Rect.mem_set_unit]
  exact Iff.rfl

/-- Every row of the output array is in the block of a point that writes back: row `r` in that of the last head's point
    of row block `r / 512`. -/
theorem cover1 (i : S4096x1024.Idx) :
    ∃ t : Fin cfg1.N, (cfg1.win 5).flush t = true ∧ i ∈ ((cfg1.win 5).blk t).view.set := by
  have hi0 : (i 0).val < 4096 := (i 0).isLt
  have hi1 : (i 1).val < 1024 := (i 1).isLt
  have hlt : (i 0).val / 512 * 16 + 15 < cfg1.N := by rw [show cfg1.N = 128 from N_1]; omega
  refine ⟨⟨(i 0).val / 512 * 16 + 15, hlt⟩, (flush1_5 _).mpr (by show ((i 0).val / 512 * 16 + 15) % 16 = 15; omega), ?_⟩
  rw [mem_blk5]
  obtain ⟨-, -, -, -, -, e0, e1⟩ := idx_out ⟨(i 0).val / 512 * 16 + 15, hlt⟩
  have e0' : win1_5.index ⟨(i 0).val / 512 * 16 + 15, hlt⟩ (0 : Fin 2) = ((i 0).val / 512 * 16 + 15) / 16 := e0
  intro a
  match a with
  | ⟨0, _⟩ =>
    show win1_5.index ⟨(i 0).val / 512 * 16 + 15, hlt⟩ (0 : Fin 2) * 512 ≤ (i 0).val ∧ (i 0).val < win1_5.index ⟨(i 0).val / 512 * 16 + 15, hlt⟩ (0 : Fin 2) * 512 + 512
    rw [e0']; omega
  | ⟨1, _⟩ =>
    show win1_5.index ⟨(i 0).val / 512 * 16 + 15, hlt⟩ (1 : Fin 2) * 1024 ≤ (i 1).val ∧ (i 1).val < win1_5.index ⟨(i 0).val / 512 * 16 + 15, hlt⟩ (1 : Fin 2) * 1024 + 1024
    rw [e1]; omega

/-- THE OUTPUT ARRAY after the second region's run is `attnArr` of the arrays the region finds. -/
theorem final1 (c : Dev nD) : (dat1 V c).arrAt 5 cfg1.N = attnArr V c :=
  (dat1 V c).arrAt_eq_of_cover 5 (attnArr V c) (fun t hf => flushed1_eq V c t hf) cover1

/-- The same, read at row `r`, column `e`, with the heads' contributions spelt out. -/
theorem final1_apply (c : Dev nD) (r : Fin 4096) (e : Fin 1024) :
    (dat1 V c).arrAt 5 cfg1.N (ix2 r e)
      = (∑ h : Fin 16, ∑ dh : Fin 64, Cert.AttnSpec.attnRow
            (fun d => V c main_v14 (ix3 (⟨r.val / 2048 * 16 + h.val, by have := r.isLt; have := h.isLt; omega⟩ : Fin 32) (⟨r.val % 2048, Nat.mod_lt _ (by decide)⟩ : Fin 2048) d))
            (fun s d => V c main_v17 (ix3 (⟨r.val / 2048 * 16 + h.val, by have := r.isLt; have := h.isLt; omega⟩ : Fin 32) s d))
            (fun s d => V c main_v20 (ix3 (⟨r.val / 2048 * 16 + h.val, by have := r.isLt; have := h.isLt; omega⟩ : Fin 32) s d)) dh
          * V c main_v23 (ix3 h dh e))
        + V c main_v24 (ix2 (0 : Fin 1) e) := by
  rw [final1 V c, attnArr_apply]
  rfl

/-- A head's contribution with the head row and the position given by their values: head row `g = (r / 2048)·16 + h`,
    position `s = r % 2048`. -/
theorem rowHead_eq (c : Dev nD) (r : Fin 4096) (e : Fin 1024) (h : Fin 16) (g : Fin 32) (s : Fin 2048)
    (hg : g.val = r.val / 2048 * 16 + h.val) (hs : s.val = r.val % 2048) :
    rowHead V c r e h
      = ∑ dh : Fin 64, Cert.AttnSpec.attnRow (fun d => (V c main_v14 : S32x2048x64.Idx → EReal) (ix3 g s d))
          (fun j d => (V c main_v17 : S32x2048x64.Idx → EReal) (ix3 g j d))
          (fun j d => (V c main_v20 : S32x2048x64.Idx → EReal) (ix3 g j d)) dh
        * (V c main_v23 : S16x64x1024.Idx → EReal) (ix3 h dh e) := by
  obtain ⟨gv, gp⟩ := g
  obtain ⟨sv, sp⟩ := s
  change gv = r.val / 2048 * 16 + h.val at hg
  change sv = r.val % 2048 at hs
  subst hg hs
  rfl

/-- The output array at position `s` of batch entry `b`, column `e`: the sixteen heads' context rows of `(b, s)`
    against the output matrix, plus the bias. -/
theorem final1_at (c : Dev nD) (b : Fin 2) (s : Fin 2048) (e : Fin 1024) :
    ((dat1 V c).arrAt 5 cfg1.N : S4096x1024.Idx → EReal) (ix2 (⟨b.val * 2048 + s.val, by omega⟩ : Fin 4096) e)
      = (∑ h : Fin 16, ∑ dh : Fin 64, Cert.AttnSpec.attnRow
            (fun d => (V c main_v14 : S32x2048x64.Idx → EReal) (ix3 (⟨b.val * 16 + h.val, by omega⟩ : Fin 32) s d))
            (fun j d => (V c main_v17 : S32x2048x64.Idx → EReal) (ix3 (⟨b.val * 16 + h.val, by omega⟩ : Fin 32) j d))
            (fun j d => (V c main_v20 : S32x2048x64.Idx → EReal) (ix3 (⟨b.val * 16 + h.val, by omega⟩ : Fin 32) j d)) dh
          * (V c main_v23 : S16x64x1024.Idx → EReal) (ix3 h dh e))
        + (V c main_v24 : S1x1024.Idx → EReal) (ix2 (0 : Fin 1) e) := by
  have hb := b.isLt
  have hs := s.isLt
  rw [final1 V c, attnArr_apply]
  refine congrArg (· + (V c main_v24 : S1x1024.Idx → EReal) (ix2 (0 : Fin 1) e)) ?_
  refine Finset.sum_congr rfl fun h _ => ?_
  exact rowHead_eq V c _ e h ⟨b.val * 16 + h.val, by omega⟩ s
    (by show b.val * 16 + h.val = (b.val * 2048 + s.val) / 2048 * 16 + h.val; omega)
    (by show s.val = (b.val * 2048 + s.val) % 2048; omega)

end Cert.KernelIdeal.Hand

end
-- ==== Proof.QkvFinal.lean ====
/- The projection kernel's region (pipeline 0 of @main), read at the ideal values: the output array after the
   region's last point is, index by index, the row of the 4096×1024 operand against the column of the 1024×3072
   matrix, plus the bias row's entry — as one function of the three arrays the region finds. Each grid point writes
   back its 512-row block of that function, and the eight blocks cover the array. -/
import proofs.«107395_j884763263199_2_alg».proof.Proof.QkvData
import proofs.«107395_j884763263199_2_alg».proof.Proof.PayValue
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.Sem
open Idealize.ShloMosaic.Pipeline (Dat Cfg Window)
open Idealize.ShloMosaic.ValueIdx
open Cert.KernelIdeal Cert.KernelIdeal.Gen

-- the TensorCore's buffer contents when the region is entered
variable (V : (c : Dev nD) → (b : Ref sig .tc) → Buf (Elt Ideal) ((c : Thread nD τ).loc b))

theorem zero_offsets : (![0, 0] : Fin 2 → Nat) = fun _ => 0 := funext fun a => by fin_cases a <;> rfl

/-- The projection of an operand, a matrix and a bias row: at (r, e), row r of the operand against column e of the
    matrix, plus the bias row's entry e. -/
def qkvOf (x : Vec Ideal S4096x1024 .f32) (w : Vec Ideal S1024x3072 .bf16) (b : Vec Ideal S1x3072 .f32) :
    Vec Ideal S4096x3072 .bf16 := fun j =>
  (∑ d : Fin 1024, x (ix2 (j 0) d) * w (ix2 d (j 1))) + b (ix2 (0 : Fin 1) (j 1))

/-- The projection read at a row and a column. -/
theorem qkvOf_apply (x : Vec Ideal S4096x1024 .f32) (w : Vec Ideal S1024x3072 .bf16) (b : Vec Ideal S1x3072 .f32)
    (r : Fin 4096) (e : Fin 3072) :
    qkvOf x w b (ix2 r e) = (∑ d : Fin 1024, x (ix2 r d) * w (ix2 d e)) + b (ix2 (0 : Fin 1) e) := rfl

/-- The body's stored value at any index of its block, by its two coordinates. -/
theorem pay_at (x : Vec Ideal S512x1024 .f32) (w : Vec Ideal S1024x3072 .bf16) (b : Vec Ideal S1x3072 .f32) (y : S512x3072.Idx) :
    k0_pay1 (F := Ideal) x w b y = (∑ d : Fin 1024, x (ix2 (y 0) d) * w (ix2 d (y 1))) + b (ix2 (0 : Fin 1) (y 1)) := by
  obtain ⟨p, q, rfl⟩ : ∃ (p : Fin 512) (q : Fin 3072), y = ix2 p q := ⟨y 0, y 1, eq_ix2 y⟩
  exact PayValue.pay_qkv x w b p q

/-- The printed index maps, decided over the grid: the operand's window moves with the output's along the rows and
    stays at column block 0; the matrix's and the bias row's windows stay at block (0, 0); the output's row block
    index is the point's, below 8, and its column block index is 0. -/
theorem index_facts : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) ≤ 7 ∧ win0_3.index t (1 : Fin 2) = 0 :=
  (by decide +kernel : ∀ t : Fin grid0.N, _)

/-- Every row block of the output is some point's. -/
theorem index_onto : ∀ q0 : Fin 8, ∃ t : Fin cfg0.N, win0_3.index t = ![q0.val, 0] :=
  (by decide +kernel : ∀ q0 : Fin 8, ∃ t : Fin grid0.N, win0_3.index t = ![q0.val, 0])

/-- The operand's block at point `t`, read at (p, d): the operand as the region finds it, at the row the output's
    row block index places p and column d. -/
theorem iblk0_0_apply (c : Dev nD) (t : Fin cfg0.N) (x : S512x1024.Idx) (k : S4096x1024.Idx)
    (hk0 : (k 0).val = win0_3.index t (0 : Fin 2) * 512 + (x 0).val) (hk1 : (k 1).val = (x 1).val) :
    (iblk0 V c 0 t : Vec Ideal S512x1024 .f32) x = (V c main_v0 : S4096x1024.Idx → EReal) k := by
  obtain ⟨e0, e1, -⟩ := index_facts t
  unfold iblk0
  rw [View.read_apply]
  show V c main_v0 _ = V c main_v0 _
  congr 1
  funext a
  apply Fin.ext
  match a with
  | ⟨0, _⟩ => show win0_0.index t (0 : Fin 2) * 512 + 1 * (x 0).val = (k 0).val; rw [e0, hk0]; omega
  | ⟨1, _⟩ => show win0_0.index t (1 : Fin 2) * 1024 + 1 * (x 1).val = (k 1).val; rw [e1, hk1]; omega

/-- The matrix's block at any point is the matrix as the region finds it. -/
theorem iblk0_1_apply (c : Dev nD) (t : Fin cfg0.N) (x : S1024x3072.Idx) :
    (iblk0 V c 1 t : Vec Ideal S1024x3072 .bf16) x = (V c main_v5 : S1024x3072.Idx → EReal) x := by
  obtain ⟨-, -, e0, e1, -⟩ := index_facts t
  unfold iblk0
  rw [View.read_apply]
  show V c main_v5 _ = V c main_v5 _
  congr 1
  funext a
  apply Fin.ext
  match a with
  | ⟨0, _⟩ => show win0_1.index t (0 : Fin 2) * 1024 + 1 * (x 0).val = (x 0).val; rw [e0]; omega
  | ⟨1, _⟩ => show win0_1.index t (1 : Fin 2) * 3072 + 1 * (x 1).val = (x 1).val; rw [e1]; omega

/-- The bias row's block at any point is the bias row as the region finds it. -/
theorem iblk0_2_apply (c : Dev nD) (t : Fin cfg0.N) (x : S1x3072.Idx) :
    (iblk0 V c 2 t : Vec Ideal S1x3072 .f32) x = (V c main_v7 : S1x3072.Idx → EReal) x := by
  obtain ⟨-, -, -, -, e0, e1, -⟩ := index_facts t
  unfold iblk0
  rw [View.read_apply]
  show V c main_v7 _ = V c main_v7 _
  congr 1
  funext a
  apply Fin.ext
  match a with
  | ⟨0, _⟩ => show win0_2.index t (0 : Fin 2) * 1 + 1 * (x 0).val = (x 0).val; rw [e0]; omega
  | ⟨1, _⟩ => show win0_2.index t (1 : Fin 2) * 3072 + 1 * (x 1).val = (x 1).val; rw [e1]; omega

/-! ## What a point writes back, and the array after the last point -/

/-- An element of the output's block at point `t` sits in the array at the row its row block index places it and at
    its own column. -/
theorem emb0_3 (t : Fin cfg0.N) (j : S512x3072.Idx) :
    ((((cfg0.win 3).blk t).view.emb j) 0).val = win0_3.index t (0 : Fin 2) * 512 + (j 0).val
      ∧ ((((cfg0.win 3).blk t).view.emb j) 1).val = (j 1).val := by
  obtain ⟨-, -, -, -, -, -, -, e1⟩ := index_facts t
  constructor
  · show win0_3.index t (0 : Fin 2) * 512 + 1 * (j 0).val = _; omega
  · show win0_3.index t (1 : Fin 2) * 3072 + 1 * (j 1).val = _; rw [e1]; omega

/-- What point `t` writes back is block `t` of the projection of the arrays the region finds. -/
theorem flushed0_3_eq (c : Dev nD) (t : Fin cfg0.N) :
    (dat0 V c).flushed 3 t
      = ((cfg0.win 3).blk t).view.read (Elt Ideal) (qkvOf (V c main_v0) (V c main_v5) (V c main_v7)) := by
  show (cfg0.win 3).cut (grid0.coords t) ((dat0 V c).after 3 t) = _
  rw [after0_3]
  unfold out0_3
  rw [View.canon_unit_zero zero_offsets]
  simp only [View.ld_unit_zero (S := S512x1024) zero_offsets, View.ld_unit_zero (S := S1024x3072) zero_offsets,
    View.ld_unit_zero (S := S1x3072) zero_offsets]
  funext j
  show k0_pay1 (F := Ideal) (iblk0 V c 0 t) (iblk0 V c 1 t) (iblk0 V c 2 t) j
    = qkvOf (V c main_v0) (V c main_v5) (V c main_v7) (((cfg0.win 3).blk t).view.emb j)
  obtain ⟨h0, h1⟩ := emb0_3 t j
  have hcol : (((cfg0.win 3).blk t).view.emb j) 1 = j 1 := Fin.ext h1
  refine (pay_at _ _ _ j).trans ?_
  unfold qkvOf
  rw [hcol]
  refine congrArg₂ (· + ·) (Finset.sum_congr rfl fun d _ => congrArg₂ (· * ·) ?_ ?_) ?_
  · exact iblk0_0_apply V c t _ _ h0 rfl
  · exact iblk0_1_apply V c t _
  · exact iblk0_2_apply V c t _

/-- An index of the array is in point `t`'s block iff each coordinate is in the block's range on its axis. -/
theorem mem_blk0_3 (t : Fin cfg0.N) (i : S4096x3072.Idx) :
    i ∈ ((cfg0.win 3).blk t).view.set ↔ ∀ a : Fin 2, win0_3.index t a * S512x3072.size a ≤ (i a).val
      ∧ (i a).val < win0_3.index t a * S512x3072.size a + S512x3072.size a := by
  show i ∈ ((View.whole main_v8).slice (win0_3.rect t)).set ↔ _
  rw [View.set_slice_whole, Rect.mem_set_unit]
  exact Iff.rfl

/-- Every index of the array is in some point's block: row r is in the block of point r / 512, and every point
    writes its block back. -/
theorem covered0_3 (i : S4096x3072.Idx) :
    ∃ t : Fin cfg0.N, (cfg0.win 3).flush t = true ∧ i ∈ ((cfg0.win 3).blk t).view.set := by
  have hi0 : (i 0).val < 4096 := (i 0).isLt
  have hi1 : (i 1).val < 3072 := (i 1).isLt
  obtain ⟨t, ht⟩ := index_onto ⟨(i 0).val / 512, by omega⟩
  have q0 : win0_3.index t (0 : Fin 2) = (i 0).val / 512 := congrFun ht 0
  have q1 : win0_3.index t (1 : Fin 2) = 0 := congrFun ht 1
  refine ⟨t, flush0_3 t, ?_⟩
  rw [mem_blk0_3]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 3072 ≤ (i 1).val ∧ (i 1).val < win0_3.index t (1 : Fin 2) * 3072 + 3072; omega

/-- The output array after the region's last point is the projection of the arrays the region finds. -/
theorem final0 (c : Dev nD) :
    (dat0 V c).arrAt 3 cfg0.N = qkvOf (V c main_v0) (V c main_v5) (V c main_v7) :=
  (dat0 V c).arrAt_eq_of_cover 3 _ (fun t _ => flushed0_3_eq V c t) covered0_3

end Cert.KernelIdeal.Hand

end
-- ==== Proof.KernelEntries.lean ====
/-
  What the attention region's input arrays hold, as projections of the program's arguments.

  Between the two regions the projection's output, a 4096×3072 array, is cut into three bands of 1024 columns, each
  band into 16 heads of 64 columns, with the head axis moved in front of the sequence axis. Row b·2048 + s of the
  projection's output is the product of row s of batch entry b of the input with the three weight matrices set side by
  side, plus the three biases laid end to end; so entry (b·16 + h, s, dh) of the query, key or value array is the
  corresponding linear projection of input row (b, s) at column h·64 + dh. The output matrix's rows grouped by head and
  the output bias as a row are read straight from their arguments, which no operation and no region writes.
-/
import proofs.«107395_j884763263199_2_alg».proof.Proof.Fold
import proofs.«107395_j884763263199_2_alg».proof.Proof.HostGlue
import proofs.«107395_j884763263199_2_alg».proof.Proof.QkvFinal
import proofs.«107395_j884763263199_2_alg».proof.Proof.AttnSpec
import Idealize.ShloMosaic.Lib.ValueIdx

noncomputable section

namespace Cert.KernelIdeal.Hand

open Cert.KernelIdeal Cert.KernelIdeal.Gen
open Idealize.ShloMosaic Idealize.ShloMosaic.TcCoe Idealize.ShloMosaic.ValueIdx

/-- Two index pairs with equal coordinates are the same index. -/
theorem ix2_congr {n0 n1 : ℕ} {a a' : Fin n0} {b b' : Fin n1} (ha : a.val = a'.val) (hb : b.val = b'.val) :
    ix2 a b = ix2 a' b' := by rw [Fin.ext ha, Fin.ext hb]

variable (m : (ℓ : Loc nD τ sig) → Buf (Elt Ideal) ℓ) (c : Dev nD)

/-! ## The projection's output, entry by entry, over the arguments -/

/-- The projection's output at (r, e): row r of the merged input rows against column e of the three weight matrices
    set side by side, plus entry e of the three biases laid end to end. -/
theorem v8_at (r : Fin 4096) (e : Fin 3072) :
    (W2 m c (Proc.devRef .tc main_v8) : S4096x3072.Idx → EReal) (ix2 r e)
      = qkvOf (U1 m c main_v0) (U1 m c main_v5) (U1 m c main_v7) (ix2 r e) :=
  congrFun ((W2_arr m c 3).trans (final0 (U1 m) c)) (ix2 r e)

/-- Row b·2048 + s of the merged input rows is row s of batch entry b. -/
theorem x_at (b : Fin 2) (s : Fin 2048) (d : Fin 1024) (hr : b.val * 2048 + s.val < 4096) :
    (U1 m c main_v0 : S4096x1024.Idx → EReal) (ix2 (⟨b.val * 2048 + s.val, hr⟩ : Fin 4096) d)
      = (m ((c : Thread nD τ).loc main_arg0) : S2x2048x1024.Idx → EReal) (ix3 b s d) := by
  refine (Glue.g0_x (W0 m c) _ d).trans ?_
  have e1 : (⟨(b.val * 2048 + s.val) / 2048, by omega⟩ : Fin 2) = b :=
    Fin.ext (by show (b.val * 2048 + s.val) / 2048 = b.val; omega)
  have e2 : (⟨(b.val * 2048 + s.val) % 2048, by omega⟩ : Fin 2048) = s :=
    Fin.ext (by show (b.val * 2048 + s.val) % 2048 = s.val; omega)
  exact congrArg₂ (fun (p : Fin 2) (q : Fin 2048) =>
    (m ((c : Thread nD τ).loc main_arg0) : S2x2048x1024.Idx → EReal) (ix3 p q d)) e1 e2

/-- The first band of 1024 columns: the query projection of input row (b, s) at column col. -/
theorem proj_q (b : Fin 2) (s : Fin 2048) (col : Fin 1024) :
    (W2 m c (Proc.devRef .tc main_v8) : S4096x3072.Idx → EReal)
        (ix2 (⟨b.val * 2048 + s.val, by omega⟩ : Fin 4096) (⟨col.val, by omega⟩ : Fin 3072))
      = Cert.AttnSpec.proj (fun d => (m ((c : Thread nD τ).loc main_arg0) : S2x2048x1024.Idx → EReal) (ix3 b s d))
          (fun e d => (m ((c : Thread nD τ).loc main_arg1) : S1024x1024.Idx → EReal) (ix2 e d))
          (fun e => (m ((c : Thread nD τ).loc main_arg2) : S1024.Idx → EReal) (ix1 e)) col := by
  refine (v8_at m c _ _).trans ?_
  rw [qkvOf_apply]
  unfold Cert.AttnSpec.proj
  refine congrArg₂ (· + ·) (Finset.sum_congr rfl fun d _ => congrArg₂ (· * ·) (x_at m c b s d _) ?_) ?_
  · refine (Glue.g0_w (W0 m c) d _).trans ?_
    rw [dif_pos (show (⟨col.val, by omega⟩ : Fin 3072).val < 1024 from col.isLt)]
  · refine (Glue.g0_b (W0 m c) _).trans ?_
    rw [dif_pos (show (⟨col.val, by omega⟩ : Fin 3072).val < 1024 from col.isLt)]

/-- The second band: the key projection. -/
theorem proj_k (b : Fin 2) (s : Fin 2048) (col : Fin 1024) :
    (W2 m c (Proc.devRef .tc main_v8) : S4096x3072.Idx → EReal)
        (ix2 (⟨b.val * 2048 + s.val, by omega⟩ : Fin 4096) (⟨1024 + col.val, by omega⟩ : Fin 3072))
      = Cert.AttnSpec.proj (fun d => (m ((c : Thread nD τ).loc main_arg0) : S2x2048x1024.Idx → EReal) (ix3 b s d))
          (fun e d => (m ((c : Thread nD τ).loc main_arg3) : S1024x1024.Idx → EReal) (ix2 e d))
          (fun e => (m ((c : Thread nD τ).loc main_arg4) : S1024.Idx → EReal) (ix1 e)) col := by
  refine (v8_at m c _ _).trans ?_
  rw [qkvOf_apply]
  unfold Cert.AttnSpec.proj
  have h1 : ¬ (⟨1024 + col.val, by omega⟩ : Fin 3072).val < 1024 := by show ¬ (1024 + col.val < 1024); omega
  have h2 : (⟨1024 + col.val, by omega⟩ : Fin 3072).val < 2048 := by show 1024 + col.val < 2048; omega
  have hc : (⟨(⟨1024 + col.val, by omega⟩ : Fin 3072).val - 1024, by show 1024 + col.val - 1024 < 1024; omega⟩ : Fin 1024) = col :=
    Fin.ext (by show 1024 + col.val - 1024 = col.val; omega)
  refine congrArg₂ (· + ·) (Finset.sum_congr rfl fun d _ => congrArg₂ (· * ·) (x_at m c b s d _) ?_) ?_
  · refine (Glue.g0_w (W0 m c) d _).trans ?_
    rw [dif_neg h1, dif_pos h2]
    exact congrArg (fun z : Fin 1024 => (m ((c : Thread nD τ).loc main_arg3) : S1024x1024.Idx → EReal) (ix2 z d)) hc
  · refine (Glue.g0_b (W0 m c) _).trans ?_
    rw [dif_neg h1, dif_pos h2]
    exact congrArg (fun z : Fin 1024 => (m ((c : Thread nD τ).loc main_arg4) : S1024.Idx → EReal) (ix1 z)) hc

/-- The third band: the value projection. -/
theorem proj_v (b : Fin 2) (s : Fin 2048) (col : Fin 1024) :
    (W2 m c (Proc.devRef .tc main_v8) : S4096x3072.Idx → EReal)
        (ix2 (⟨b.val * 2048 + s.val, by omega⟩ : Fin 4096) (⟨2048 + col.val, by omega⟩ : Fin 3072))
      = Cert.AttnSpec.proj (fun d => (m ((c : Thread nD τ).loc main_arg0) : S2x2048x1024.Idx → EReal) (ix3 b s d))
          (fun e d => (m ((c : Thread nD τ).loc main_arg5) : S1024x1024.Idx → EReal) (ix2 e d))
          (fun e => (m ((c : Thread nD τ).loc main_arg6) : S1024.Idx → EReal) (ix1 e)) col := by
  refine (v8_at m c _ _).trans ?_
  rw [qkvOf_apply]
  unfold Cert.AttnSpec.proj
  have h1 : ¬ (⟨2048 + col.val, by omega⟩ : Fin 3072).val < 1024 := by show ¬ (2048 + col.val < 1024); omega
  have h2 : ¬ (⟨2048 + col.val, by omega⟩ : Fin 3072).val < 2048 := by show ¬ (2048 + col.val < 2048); omega
  have hc : (⟨(⟨2048 + col.val, by omega⟩ : Fin 3072).val - 2048, by show 2048 + col.val - 2048 < 1024; omega⟩ : Fin 1024) = col :=
    Fin.ext (by show 2048 + col.val - 2048 = col.val; omega)
  refine congrArg₂ (· + ·) (Finset.sum_congr rfl fun d _ => congrArg₂ (· * ·) (x_at m c b s d _) ?_) ?_
  · refine (Glue.g0_w (W0 m c) d _).trans ?_
    rw [dif_neg h1, dif_neg h2]
    exact congrArg (fun z : Fin 1024 => (m ((c : Thread nD τ).loc main_arg5) : S1024x1024.Idx → EReal) (ix2 z d)) hc
  · refine (Glue.g0_b (W0 m c) _).trans ?_
    rw [dif_neg h1, dif_neg h2]
    exact congrArg (fun z : Fin 1024 => (m ((c : Thread nD τ).loc main_arg6) : S1024.Idx → EReal) (ix1 z)) hc

/-! ## The attention region's five input arrays -/

/-- The query array at (b·16 + h, s, dh): the query projection of input row (b, s) at column h·64 + dh. -/
theorem q_entry (b : Fin 2) (h : Fin 16) (s : Fin 2048) (dh : Fin 64) :
    (U3 m c main_v14 : S32x2048x64.Idx → EReal) (ix3 (⟨b.val * 16 + h.val, by omega⟩ : Fin 32) s dh)
      = Cert.AttnSpec.proj (fun d => (m ((c : Thread nD τ).loc main_arg0) : S2x2048x1024.Idx → EReal) (ix3 b s d))
          (fun e d => (m ((c : Thread nD τ).loc main_arg1) : S1024x1024.Idx → EReal) (ix2 e d))
          (fun e => (m ((c : Thread nD τ).loc main_arg2) : S1024.Idx → EReal) (ix1 e)) (Cert.AttnSpec.headCol h dh) := by
  refine (Glue.g1_q (W2 m c) _ s dh).trans ?_
  refine (congrArg (W2 m c (Proc.devRef .tc main_v8) : S4096x3072.Idx → EReal) (ix2_congr ?_ ?_)).trans
    (proj_q m c b s (Cert.AttnSpec.headCol h dh))
  · show (b.val * 16 + h.val) / 16 * 2048 + s.val = b.val * 2048 + s.val
    omega
  · show (b.val * 16 + h.val) % 16 * 64 + dh.val = h.val * 64 + dh.val
    omega

/-- The key array at (b·16 + h, s, dh): the key projection of input row (b, s) at column h·64 + dh. -/
theorem k_entry (b : Fin 2) (h : Fin 16) (s : Fin 2048) (dh : Fin 64) :
    (U3 m c main_v17 : S32x2048x64.Idx → EReal) (ix3 (⟨b.val * 16 + h.val, by omega⟩ : Fin 32) s dh)
      = Cert.AttnSpec.proj (fun d => (m ((c : Thread nD τ).loc main_arg0) : S2x2048x1024.Idx → EReal) (ix3 b s d))
          (fun e d => (m ((c : Thread nD τ).loc main_arg3) : S1024x1024.Idx → EReal) (ix2 e d))
          (fun e => (m ((c : Thread nD τ).loc main_arg4) : S1024.Idx → EReal) (ix1 e)) (Cert.AttnSpec.headCol h dh) := by
  refine (Glue.g1_k (W2 m c) _ s dh).trans ?_
  refine (congrArg (W2 m c (Proc.devRef .tc main_v8) : S4096x3072.Idx → EReal) (ix2_congr ?_ ?_)).trans
    (proj_k m c b s (Cert.AttnSpec.headCol h dh))
  · show (b.val * 16 + h.val) / 16 * 2048 + s.val = b.val * 2048 + s.val
    omega
  · show 1024 + (b.val * 16 + h.val) % 16 * 64 + dh.val = 1024 + (h.val * 64 + dh.val)
    omega

/-- The value array at (b·16 + h, s, dh): the value projection of input row (b, s) at column h·64 + dh. -/
theorem v_entry (b : Fin 2) (h : Fin 16) (s : Fin 2048) (dh : Fin 64) :
    (U3 m c main_v20 : S32x2048x64.Idx → EReal) (ix3 (⟨b.val * 16 + h.val, by omega⟩ : Fin 32) s dh)
      = Cert.AttnSpec.proj (fun d => (m ((c : Thread nD τ).loc main_arg0) : S2x2048x1024.Idx → EReal) (ix3 b s d))
          (fun e d => (m ((c : Thread nD τ).loc main_arg5) : S1024x1024.Idx → EReal) (ix2 e d))
          (fun e => (m ((c : Thread nD τ).loc main_arg6) : S1024.Idx → EReal) (ix1 e)) (Cert.AttnSpec.headCol h dh) := by
  refine (Glue.g1_v (W2 m c) _ s dh).trans ?_
  refine (congrArg (W2 m c (Proc.devRef .tc main_v8) : S4096x3072.Idx → EReal) (ix2_congr ?_ ?_)).trans
    (proj_v m c b s (Cert.AttnSpec.headCol h dh))
  · show (b.val * 16 + h.val) / 16 * 2048 + s.val = b.val * 2048 + s.val
    omega
  · show 2048 + (b.val * 16 + h.val) % 16 * 64 + dh.val = 2048 + (h.val * 64 + dh.val)
    omega

/-- An argument that neither stretch of host operations and no array of the projection region writes holds its
    launch contents when the attention region is entered. -/
theorem W2_kept (r : Ref sig .tc) (h0 : r ∉ hostOps0_W) (ha0 : ∀ w, Pipeline.arrRef spec0 w ≠ r) :
    W2 m c (Proc.devRef .tc r) = m ((c : Thread nD τ).loc r) :=
  calc W2 m c (Proc.devRef .tc r)
    _ = W1 m c (Proc.devRef .tc r) := W2_of_ne m c r ha0
    _ = W0 m c (Proc.devRef .tc r) := StableHlo.after_of_writes_sub hostOps0 _ hostOps0_writes h0
    _ = m ((c : Thread nD τ).loc r) := rfl

/-- The output matrix grouped by head at (h, dh, e): entry (e, h·64 + dh) of the output weight argument. -/
theorem wo_entry (h : Fin 16) (dh : Fin 64) (e : Fin 1024) :
    (U3 m c main_v23 : S16x64x1024.Idx → EReal) (ix3 h dh e)
      = (m ((c : Thread nD τ).loc main_arg7) : S1024x1024.Idx → EReal) (ix2 e (Cert.AttnSpec.headCol h dh)) := by
  refine (Glue.g1_wo (W2 m c) h dh e).trans ?_
  exact congrFun (W2_kept m c main_arg7 (by decide) (by decide)) _

/-- The output bias as a row at (0, e): entry e of the output bias argument. -/
theorem bo_entry (e : Fin 1024) :
    (U3 m c main_v24 : S1x1024.Idx → EReal) (ix2 (0 : Fin 1) e)
      = (m ((c : Thread nD τ).loc main_arg8) : S1024.Idx → EReal) (ix1 e) := by
  refine (Glue.g1_bo (W2 m c) e).trans ?_
  exact congrFun (W2_kept m c main_arg8 (by decide) (by decide)) _

end Cert.KernelIdeal.Hand

end
-- ==== Proof.LibIdxSums.lean ====
/-
  Sums over an index set written by coordinates, a sum over `Fin (T * n)` written by blocks of `n`, and a running
  total written as a finite sum. General facts over any additive commutative monoid.
-/
import Mathlib.Algebra.BigOperators.Fin
import Mathlib.Logic.Equiv.Fin.Basic
import Idealize.ShloMosaic.Lib.ValueIdx

open scoped BigOperators

namespace Cert.LibIdxSums

open Idealize.ShloMosaic Idealize.ShloMosaic.ValueIdx

variable {M : Type*} [AddCommMonoid M]

/-! ## Sums over rank-3 and rank-4 index sets, by coordinates -/

/-- A rank-3 index set is the product of its three coordinate ranges. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A sum over a rank-3 index set is the triple sum over the coordinates. -/
theorem sum_idx3 {n0 n1 n2 : Nat} (f : (⟨3, ![n0, n1, n2]⟩ : Shape).Idx → M) :
    ∑ j, f j = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A rank-4 index set is the product of its four coordinate ranges. -/
def idxEquiv4 {n0 n1 n2 n3 : Nat} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- A sum over a rank-4 index set is the fourfold sum over the coordinates. -/
theorem sum_idx4 {n0 n1 n2 n3 : Nat} (f : (⟨4, ![n0, n1, n2, n3]⟩ : Shape).Idx → M) :
    ∑ j, f j = ∑ a : Fin n0, ∑ b : Fin n1, ∑ c : Fin n2, ∑ d : Fin n3, f (ix4 a b c d) := by
  rw [← Equiv.sum_comp (idxEquiv4 (n0 := n0) (n1 := n1) (n2 := n2) (n3 := n3)).symm f, Fintype.sum_prod_type]
  refine Finset.sum_congr rfl fun a _ => ?_
  rw [Fintype.sum_prod_type]
  refine Finset.sum_congr rfl fun b _ => ?_
  rw [Fintype.sum_prod_type]
  rfl

/-! ## A sum over `Fin (T * n)` by `T` blocks of `n` -/

/-- Entry `b` of block `t` lies below `T * n`. -/
theorem block_lt {T n : ℕ} (t : Fin T) (b : Fin n) : t.val * n + b.val < T * n := by
  have ht := t.isLt
  have hb := b.isLt
  calc t.val * n + b.val < t.val * n + n := by omega
    _ = (t.val + 1) * n := by ring
    _ ≤ T * n := Nat.mul_le_mul_right n ht

/-- A sum over `Fin (T * n)` is the sum over the `T` blocks of the sums over each block's `n` entries:
    `∑_B h B = ∑_t ∑_b h (t·n + b)`. -/
theorem sum_fin_blocks (T n : ℕ) (h : Fin (T * n) → M) :
    ∑ B : Fin (T * n), h B = ∑ t : Fin T, ∑ b : Fin n, h ⟨t.val * n + b.val, block_lt t b⟩ := by
  rw [← Equiv.sum_comp (finProdFinEquiv (m := T) (n := n)) h, Fintype.sum_prod_type]
  refine Finset.sum_congr rfl fun t _ => Finset.sum_congr rfl fun b _ => ?_
  refine congrArg h (Fin.ext ?_)
  show b.val + n * t.val = t.val * n + b.val
  rw [Nat.mul_comm, Nat.add_comm]

/-- 256 entries as 128 blocks of 2: `∑_B h B = ∑_{t<128} ∑_{b<2} h (2t + b)`. -/
theorem sum_fin256_blocks2 (h : Fin 256 → M) :
    ∑ B, h B = ∑ t : Fin 128, ∑ b : Fin 2, h ⟨2 * t.val + b.val, by omega⟩ := by
  refine (sum_fin_blocks 128 2 h).trans ?_
  refine Finset.sum_congr rfl fun t _ => Finset.sum_congr rfl fun b _ => ?_
  exact congrArg h (Fin.ext (by show t.val * 2 + b.val = 2 * t.val + b.val; omega))

/-- 256 entries as 8 blocks of 32: `∑_B h B = ∑_{t<8} ∑_{b<32} h (32t + b)`. -/
theorem sum_fin256_blocks32 (h : Fin 256 → M) :
    ∑ B, h B = ∑ t : Fin 8, ∑ b : Fin 32, h ⟨32 * t.val + b.val, by omega⟩ := by
  refine (sum_fin_blocks 8 32 h).trans ?_
  refine Finset.sum_congr rfl fun t _ => Finset.sum_congr rfl fun b _ => ?_
  exact congrArg h (Fin.ext (by show t.val * 32 + b.val = 32 * t.val + b.val; omega))

/-! ## A running total is a finite sum -/

/-- A sequence that starts at `z + a 0` and adds `a (n + 1)` at step `n + 1` is `z` plus the partial sums of `a`:
    `A n = z + ∑_{t ≤ n} a t`. -/
theorem chain_eq_sum (A a : ℕ → M) (z : M) (h0 : A 0 = z + a 0) (hs : ∀ n, A (n + 1) = A n + a (n + 1)) :
    ∀ n, A n = z + ∑ t ∈ Finset.range (n + 1), a t := by
  intro n
  induction n with
  | zero => rw [h0, Finset.sum_range_one]
  | succ k ih => rw [hs, ih, Finset.sum_range_succ a (k + 1), add_assoc]

/-- A sum over the naturals below `N` is the sum over `Fin N` of the values. -/
theorem sum_range_eq_sum_fin (N : ℕ) (a : ℕ → M) : ∑ t ∈ Finset.range N, a t = ∑ t : Fin N, a t.val :=
  Finset.sum_range a

end Cert.LibIdxSums
-- ==== Proof.HeadsSum.lean ====
/-
  A sum over 1024 columns taken head by head: 16 heads of 64 columns, column d belonging to head d / 64 at offset d % 64.
-/
import Mathlib.Algebra.BigOperators.Fin
import proofs.«107395_j884763263199_2_alg».proof.Proof.LibIdxSums

namespace Cert.AttnSpec

/-- The double sum over heads and columns within a head is the single sum over the 1024 columns. -/
theorem heads_sum {M : Type} [AddCommMonoid M] (f : Fin 16 → Fin 64 → M) :
    ∑ h : Fin 16, ∑ dh : Fin 64, f h dh = ∑ d : Fin 1024, f ⟨d.val / 64, by omega⟩ ⟨d.val % 64, by omega⟩ := by
  symm
  refine (Cert.LibIdxSums.sum_fin_blocks 16 64 (fun d : Fin (16 * 64) => f ⟨d.val / 64, by omega⟩ ⟨d.val % 64, by omega⟩)).trans ?_
  refine Finset.sum_congr rfl fun h _ => Finset.sum_congr rfl fun dh _ => ?_
  have h1 : (h.val * 64 + dh.val) / 64 = h.val := by omega
  have h2 : (h.val * 64 + dh.val) % 64 = dh.val := by omega
  exact congrArg₂ f (Fin.ext h1) (Fin.ext h2)

end Cert.AttnSpec
-- ==== Proof.KernelIsSpec.lean ====
/-
  What the program leaves in its result array is the specification's function of the argument arrays.

  The last reshape reads the attention region's output array at row b·2048 + s. That array is, block by block, the sum
  over the 16 heads of the head's context row against the head's 64 rows of the output matrix, plus the output bias.
  The region's input arrays are the three column ranges of the projection region's output regrouped by head, which are
  the linear projections of the rows of the first argument. Summing head by head over 64 columns is summing over the
  1024 columns, column d belonging to head d / 64 at offset d % 64.
-/
import proofs.«107395_j884763263199_2_alg».proof.Proof.Fold
import proofs.«107395_j884763263199_2_alg».proof.Proof.HostGlue
import proofs.«107395_j884763263199_2_alg».proof.Proof.AttnFinal
import proofs.«107395_j884763263199_2_alg».proof.Proof.KernelEntries
import proofs.«107395_j884763263199_2_alg».proof.Proof.HeadsSum
import proofs.«107395_j884763263199_2_alg».proof.Proof.AttnSpec

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ) (c : Dev nD)

/-- The argument arrays read by coordinates. -/
abbrev aX : Fin 2 → Fin 2048 → Fin 1024 → EReal := fun b s d => (m ((c.tc : Thread nD τ).loc main_arg0) : S2x2048x1024.Idx → EReal) (ix3 b s d)
abbrev aWq : Fin 1024 → Fin 1024 → EReal := fun e d => (m ((c.tc : Thread nD τ).loc main_arg1) : S1024x1024.Idx → EReal) (ix2 e d)
abbrev aBq : Fin 1024 → EReal := fun e => (m ((c.tc : Thread nD τ).loc main_arg2) : S1024.Idx → EReal) (ix1 e)
abbrev aWk : Fin 1024 → Fin 1024 → EReal := fun e d => (m ((c.tc : Thread nD τ).loc main_arg3) : S1024x1024.Idx → EReal) (ix2 e d)
abbrev aBk : Fin 1024 → EReal := fun e => (m ((c.tc : Thread nD τ).loc main_arg4) : S1024.Idx → EReal) (ix1 e)
abbrev aWv : Fin 1024 → Fin 1024 → EReal := fun e d => (m ((c.tc : Thread nD τ).loc main_arg5) : S1024x1024.Idx → EReal) (ix2 e d)
abbrev aBv : Fin 1024 → EReal := fun e => (m ((c.tc : Thread nD τ).loc main_arg6) : S1024.Idx → EReal) (ix1 e)
abbrev aWo : Fin 1024 → Fin 1024 → EReal := fun e d => (m ((c.tc : Thread nD τ).loc main_arg7) : S1024x1024.Idx → EReal) (ix2 e d)
abbrev aBo : Fin 1024 → EReal := fun e => (m ((c.tc : Thread nD τ).loc main_arg8) : S1024.Idx → EReal) (ix1 e)

/-- One head's term of the attention region's output at (b·2048 + s, e), column dh of the head: the specification's
    context entry times the output matrix's entry (e, h·64 + dh). -/
theorem head_term (b : Fin 2) (s : Fin 2048) (e : Fin 1024) (h : Fin 16) (dh : Fin 64) :
    Cert.AttnSpec.attnRow (fun d => (U3 m c main_v14 : S32x2048x64.Idx → EReal) (ix3 (⟨b.val * 16 + h.val, by omega⟩ : Fin 32) s d))
        (fun j d => (U3 m c main_v17 : S32x2048x64.Idx → EReal) (ix3 (⟨b.val * 16 + h.val, by omega⟩ : Fin 32) j d))
        (fun j d => (U3 m c main_v20 : S32x2048x64.Idx → EReal) (ix3 (⟨b.val * 16 + h.val, by omega⟩ : Fin 32) j d)) dh
      * (U3 m c main_v23 : S16x64x1024.Idx → EReal) (ix3 h dh e)
    = Cert.AttnSpec.ctx (aX m c) (aWq m c) (aWk m c) (aWv m c) (aBq m c) (aBk m c) (aBv m c) b h s dh
        * aWo m c e (Cert.AttnSpec.headCol h dh) := by
  have hq : (fun d => (U3 m c main_v14 : S32x2048x64.Idx → EReal) (ix3 (⟨b.val * 16 + h.val, by omega⟩ : Fin 32) s d))
      = fun d => Cert.AttnSpec.proj (aX m c b s) (aWq m c) (aBq m c) (Cert.AttnSpec.headCol h d) :=
    funext fun d => q_entry m c b h s d
  have hk : (fun j d => (U3 m c main_v17 : S32x2048x64.Idx → EReal) (ix3 (⟨b.val * 16 + h.val, by omega⟩ : Fin 32) j d))
      = fun j d => Cert.AttnSpec.proj (aX m c b j) (aWk m c) (aBk m c) (Cert.AttnSpec.headCol h d) :=
    funext fun j => funext fun d => k_entry m c b h j d
  have hv : (fun j d => (U3 m c main_v20 : S32x2048x64.Idx → EReal) (ix3 (⟨b.val * 16 + h.val, by omega⟩ : Fin 32) j d))
      = fun j d => Cert.AttnSpec.proj (aX m c b j) (aWv m c) (aBv m c) (Cert.AttnSpec.headCol h d) :=
    funext fun j => funext fun d => v_entry m c b h j d
  rw [hq, hk, hv, wo_entry m c h dh e]
  rfl

/-- The result array at the last boundary is the specification of the arguments. -/
theorem kernel_value :
    (W5 m c (Proc.devRef .tc main_v26) : S2x2048x1024.Idx → EReal)
      = Cert.AttnSpec.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  funext i
  obtain ⟨b, s, e, rfl⟩ : ∃ (b : Fin 2) (s : Fin 2048) (e : Fin 1024), i = ix3 b s e := ⟨i 0, i 1, i 2, eq_ix3 i⟩
  rw [Cert.AttnSpec.G_apply]
  refine (Cert.KernelIdeal.Glue.g2_out (W4 m c) b s e).trans ?_
  rw [show (W4 m c (Proc.devRef .tc main_v25) : S4096x1024.Idx → EReal) = (dat1 (U3 m) c).arrAt 5 cfg1.N from W4_arr m c 5]
  refine (final1_at (U3 m) c b s e).trans ?_
  rw [bo_entry m c e]
  show _ + aBo m c e = (∑ d : Fin 1024, Cert.AttnSpec.ctx (aX m c) (aWq m c) (aWk m c) (aWv m c) (aBq m c) (aBk m c) (aBv m c)
      b ⟨d.val / 64, by omega⟩ s ⟨d.val % 64, by omega⟩ * aWo m c e d) + aBo m c e
  refine congrArg (· + aBo m c e) ?_
  calc _ = ∑ h : Fin 16, ∑ dh : Fin 64, Cert.AttnSpec.ctx (aX m c) (aWq m c) (aWk m c) (aWv m c) (aBq m c) (aBk m c) (aBv m c) b h s dh
              * aWo m c e (Cert.AttnSpec.headCol h dh) :=
        Finset.sum_congr rfl fun h _ => Finset.sum_congr rfl fun dh _ => head_term m c b s e h dh
    _ = ∑ d : Fin 1024, Cert.AttnSpec.ctx (aX m c) (aWq m c) (aWk m c) (aWv m c) (aBq m c) (aBk m c) (aBv m c)
              b ⟨d.val / 64, by omega⟩ s ⟨d.val % 64, by omega⟩ * aWo m c e (Cert.AttnSpec.headCol ⟨d.val / 64, by omega⟩ ⟨d.val % 64, by omega⟩) :=
        Cert.AttnSpec.heads_sum (fun h dh => Cert.AttnSpec.ctx (aX m c) (aWq m c) (aWk m c) (aWv m c) (aBq m c) (aBk m c) (aBv m c) b h s dh
              * aWo m c e (Cert.AttnSpec.headCol h dh))
    _ = _ := Finset.sum_congr rfl fun d _ => by
        have hd : Cert.AttnSpec.headCol ⟨d.val / 64, by omega⟩ ⟨d.val % 64, by omega⟩ = d :=
          Fin.ext (by show d.val / 64 * 64 + d.val % 64 = d.val; omega)
        rw [hd]

end Cert.KernelIdeal.Hand

end
-- ==== Proof.RefIsSpecHeads.lean ====
/-
  The reference's projected heads and scores, read at an index, on the extended reals.

  Each of the three projections is `x · Wᵀ + bias` over [2, 2048, 1024], reshaped to [2, 2048, 16, 64] and transposed to
  [2, 16, 2048, 64]: entry (b, h, s, dh) is column h·64 + dh of the projection of row (b, s). A score is the product of a
  query row with a key row of the same (b, h), divided by the square root of 1024, which is a product with 2⁻⁵.
-/
import proofs.«107395_j884763263199_2_alg».proof.Proof.Gen.ReferenceIdeal.Read
import proofs.«107395_j884763263199_2_alg».proof.Proof.AttnSpec

noncomputable section

namespace Cert.ReferenceIdeal.RefValue

open Cert.ReferenceIdeal Cert.ReferenceIdeal.Gen Cert.ReferenceIdeal.Read Idealize.ShloMosaic Idealize.ShloMosaic.ValueIdx
  Idealize.ShloMosaic.StableHlo Cert.AttnSpec

/-! ## The projected heads -/

/-- The reshape [2,2048,1024] → [2,2048,16,64] read after the transpose to [2,16,2048,64]: entry (b, h, s, dh) is
    entry (b, s, h·64 + dh) of the projected array. -/
theorem idx_head (b : Fin 2) (h : Fin 16) (s : Fin 2048) (dh : Fin 64) :
    idx_main_v4 (idx_main_v5 (ix4 b h s dh)) = ix3 b s (headCol h dh) :=
  funext fun a => Fin.ext (by
    have hb := b.isLt; have hh := h.isLt; have hs := s.isLt; have hd := dh.isLt
    match a with
    | ⟨0, _⟩ => show (((b.val * 2048 + s.val) * 16 + h.val) * 64 + dh.val) / 2097152 = b.val; omega
    | ⟨1, _⟩ => show (((b.val * 2048 + s.val) * 16 + h.val) * 64 + dh.val) / 1024 % 2048 = s.val; omega
    | ⟨2, _⟩ => show (((b.val * 2048 + s.val) * 16 + h.val) * 64 + dh.val) % 1024 = h.val * 64 + dh.val; omega)

/-- The left operand of a projection's contraction at (b, s, e), term k, is `x` at (b, s, k). -/
theorem lidx_proj (b : Fin 2) (s : Fin 2048) (e k : Fin 1024) : lidx_main_v0 (ix3 b s e) k = ix3 b s k :=
  funext fun a => Fin.ext (by match a with | ⟨0, _⟩ => rfl | ⟨1, _⟩ => rfl | ⟨2, _⟩ => rfl)

/-- The right operand of a projection's contraction at (b, s, e), term k, is the matrix at (e, k). -/
theorem ridx_proj (b : Fin 2) (s : Fin 2048) (e k : Fin 1024) : ridx_main_v0 (ix3 b s e) k = ix2 e k :=
  funext fun a => Fin.ext (by match a with | ⟨0, _⟩ => rfl | ⟨1, _⟩ => rfl)

/-- The broadcast bias at (b, s, e) is the bias at e. -/
theorem idx_bias (b : Fin 2) (s : Fin 2048) (e : Fin 1024) : idx_main_v1 (idx_main_v2 (ix3 b s e)) = ix1 e :=
  funext fun a => Fin.ext (by match a with | ⟨0, _⟩ => rfl)

/-- A projected head entry: entry (b, h, s, dh) of the transposed, reshaped `x · Wᵀ + bias` is column h·64 + dh of the
    projection of row (b, s). -/
theorem head_apply (x0 : (⟨S2x2048x1024, .f32⟩ : BufTy).Contents (Elt Ideal)) (W : (⟨S1024x1024, .f32⟩ : BufTy).Contents (Elt Ideal))
    (bias : (⟨S1024, .f32⟩ : BufTy).Contents (Elt Ideal)) (b : Fin 2) (h : Fin 16) (s : Fin 2048) (dh : Fin 64) :
    val_main_v5 (F := Ideal) x0 W bias (ix4 b h s dh)
      = proj (fun d => x0 (ix3 b s d)) (fun e d => W (ix2 e d)) (fun e => bias (ix1 e)) (headCol h dh) := by
  rw [val_main_v5_apply, val_main_v4_apply, idx_head, val_main_v3_apply, val_main_v0_apply, val_main_v2_apply, val_main_v1_apply,
    idx_bias, Ideal.addf_def]
  simp only [lidx_proj, ridx_proj]
  rfl

/-- The key projection is the same function of its three operands as the query projection … -/
theorem v11_eq_v5 (x0 : (⟨S2x2048x1024, .f32⟩ : BufTy).Contents (Elt Ideal)) (W : (⟨S1024x1024, .f32⟩ : BufTy).Contents (Elt Ideal))
    (bias : (⟨S1024, .f32⟩ : BufTy).Contents (Elt Ideal)) :
    val_main_v11 (F := Ideal) x0 W bias = val_main_v5 (F := Ideal) x0 W bias := rfl

/-- … and so is the value projection. -/
theorem v17_eq_v5 (x0 : (⟨S2x2048x1024, .f32⟩ : BufTy).Contents (Elt Ideal)) (W : (⟨S1024x1024, .f32⟩ : BufTy).Contents (Elt Ideal))
    (bias : (⟨S1024, .f32⟩ : BufTy).Contents (Elt Ideal)) :
    val_main_v17 (F := Ideal) x0 W bias = val_main_v5 (F := Ideal) x0 W bias := rfl

/-! ## The score scale -/

/-- The pattern `0x44800000` denotes 1024. -/
theorem ofBits_1024 : Ideal.ofBits .f32 0x44800000#32 = ((1024 : ℝ) : EReal) := by
  simp [Ideal.ofBits, Ideal.ieee, -EReal.coe_mul]; norm_num

/-- The pattern `0x3D000000` denotes 1/32. -/
theorem ofBits_inv32 : Ideal.ofBits .f32 0x3D000000#32 = ((1 / 32 : ℝ) : EReal) := by
  simp [Ideal.ofBits, Ideal.ieee, -EReal.coe_mul]; norm_num

/-- Dividing by the square root of 1024 is multiplying by 2⁻⁵, for every extended real. -/
theorem div_sqrt_1024 (x : EReal) : Ideal.div x (Ideal.sqrt (Ideal.ofBits .f32 0x44800000#32)) = x * scale := by
  have h32 : Real.sqrt 1024 = 32 := by
    rw [show (1024 : ℝ) = 32 ^ 2 by norm_num]; exact Real.sqrt_sq (by norm_num)
  rw [ofBits_1024, Ideal.sqrt_coe, if_neg (by norm_num), h32, Ideal.div_coe (by norm_num), scale, ofBits_inv32]

/-! ## The scores -/

/-- The left operand of the score's contraction at (b, h, s, j), term k, is the query at (b, h, s, k). -/
theorem lidx_score (b : Fin 2) (h : Fin 16) (s j : Fin 2048) (k : Fin 64) : lidx_main_v18 (ix4 b h s j) k = ix4 b h s k :=
  funext fun a => Fin.ext (by match a with | ⟨0, _⟩ => rfl | ⟨1, _⟩ => rfl | ⟨2, _⟩ => rfl | ⟨3, _⟩ => rfl)

/-- The right operand of the score's contraction at (b, h, s, j), term k, is the key at (b, h, j, k). -/
theorem ridx_score (b : Fin 2) (h : Fin 16) (s j : Fin 2048) (k : Fin 64) : ridx_main_v18 (ix4 b h s j) k = ix4 b h j k :=
  funext fun a => Fin.ext (by match a with | ⟨0, _⟩ => rfl | ⟨1, _⟩ => rfl | ⟨2, _⟩ => rfl | ⟨3, _⟩ => rfl)

/-- The scaled score of query row (b, h, s) against key row j. -/
theorem score_apply (x0 : (⟨S2x2048x1024, .f32⟩ : BufTy).Contents (Elt Ideal)) (x1 : (⟨S1024x1024, .f32⟩ : BufTy).Contents (Elt Ideal))
    (x2 : (⟨S1024, .f32⟩ : BufTy).Contents (Elt Ideal)) (x3 : (⟨S1024x1024, .f32⟩ : BufTy).Contents (Elt Ideal))
    (x4 : (⟨S1024, .f32⟩ : BufTy).Contents (Elt Ideal)) (b : Fin 2) (h : Fin 16) (s j : Fin 2048) :
    val_main_v21 (F := Ideal) x0 x1 x2 x3 x4 (ix4 b h s j)
      = score (fun d => val_main_v5 (F := Ideal) x0 x1 x2 (ix4 b h s d))
          (fun j' d => val_main_v11 (F := Ideal) x0 x3 x4 (ix4 b h j' d)) j := by
  rw [val_main_v21_apply, val_main_v18_apply, val_main_v20_apply, val_main_v19_apply, val_main_cst_apply,
    Ideal.hostDivf_def, Ideal.hostUnary_sqrt_def, Ideal.ofBits_def, div_sqrt_1024]
  simp only [lidx_score, ridx_score]
  rfl

end Cert.ReferenceIdeal.RefValue

end
-- ==== Proof.RefIsSpecSoftmax.lean ====
/-
  The reference's softmax, read at an index, on the extended reals.

  For a query row (b, h, s) the 2048 scores form one row. Its maximum is a reduce from −∞ along the last axis followed
  by a maximum with −∞, which is the fold of `max` from −∞; the weights are the exponentials of the scores less that
  maximum; their sum starts from the value of the zero pattern, which is 0; a normalised weight is a weight over that sum.
-/
import proofs.«107395_j884763263199_2_alg».proof.Proof.RefIsSpecHeads

noncomputable section

namespace Cert.ReferenceIdeal.RefValue

open Cert.ReferenceIdeal Cert.ReferenceIdeal.Gen Cert.ReferenceIdeal.Read Idealize.ShloMosaic Idealize.ShloMosaic.ValueIdx
  Idealize.ShloMosaic.StableHlo Cert.AttnSpec

/-! ## A maximum from −∞ along the last axis of a rank-4 array -/

/-- The reduced index (p, r, t) with the last coordinate k put back is (p, r, t, k). -/
theorem lift_last4 {a n m c : ℕ} (hr : (⟨4, ![a, n, m, c]⟩ : Shape).Reduces [3] ⟨3, ![a, n, m]⟩) (p : Fin a) (r : Fin n)
    (t : Fin m) (k : Fin ((⟨4, ![a, n, m, c]⟩ : Shape).size 3)) :
    hr.lift (ix3 p r t) k = ix4 p r t (⟨k.val, k.isLt⟩ : Fin c) := by
  funext d; apply Fin.ext
  match d with
  | ⟨0, _⟩ => rfl
  | ⟨1, _⟩ => rfl
  | ⟨2, _⟩ => rfl
  | ⟨3, _⟩ => rfl

/-- The host's reduce with a maximum body from −∞ along the last axis of an [a, n, m, c] array, at (p, r, t), is the fold
    of `max` from −∞ over the entries (p, r, t, ·). -/
theorem hostLastMax4_apply {a n m c : ℕ} (z : FVec Ideal ⟨4, ![a, n, m, c]⟩ .f32)
    (hrt : (⟨4, ![a, n, m, c]⟩ : Shape).ReducesTo [3] ⟨3, ![a, n, m]⟩)
    (hr : (⟨4, ![a, n, m, c]⟩ : Shape).Reduces [3] ⟨3, ![a, n, m]⟩)
    (hu : 0 < (⟨0, ![]⟩ : Shape).numel) (p : Fin a) (r : Fin n) (t : Fin m) :
    Host.reduce FloatOps.maximumf z (constant (F := Ideal) ⟨0, ![]⟩ .f32 0xFF800000#32) hrt hu (ix3 p r t)
      = (Finset.univ : Finset (Fin c)).fold max (Ideal.ofBits .f32 0xFF800000#32) (fun k => z (ix4 p r t k)) := by
  rw [Host.reduce_eq_fold_single FloatOps.maximumf z _ hrt hr hu]
  have hf : (z ∘ hr.lift (ix3 p r t)) = fun k : Fin c => z (ix4 p r t k) :=
    funext fun k => congrArg z (lift_last4 hr p r t k)
  exact congrArg (fun f => Finset.fold max (Ideal.ofBits .f32 0xFF800000#32) f (Finset.univ : Finset (Fin c))) hf

/-! ## The softmax of one row of scores -/

section Row
variable (x0 : (⟨S2x2048x1024, .f32⟩ : BufTy).Contents (Elt Ideal)) (x1 : (⟨S1024x1024, .f32⟩ : BufTy).Contents (Elt Ideal))
  (x2 : (⟨S1024, .f32⟩ : BufTy).Contents (Elt Ideal)) (x3 : (⟨S1024x1024, .f32⟩ : BufTy).Contents (Elt Ideal))
  (x4 : (⟨S1024, .f32⟩ : BufTy).Contents (Elt Ideal)) (b : Fin 2) (h : Fin 16) (s : Fin 2048)

/-- The row of scores of query row (b, h, s) against the 2048 key rows. -/
def scoreRow : Fin 2048 → EReal := fun k => val_main_v21 (F := Ideal) x0 x1 x2 x3 x4 (ix4 b h s k)

/-- The row's maximum: the reduce from −∞, then the maximum with −∞ again, is the fold from −∞. -/
theorem rowmax_apply :
    val_main_v24 (F := Ideal) x0 x1 x2 x3 x4 (ix3 b h s) = rowMax (scoreRow x0 x1 x2 x3 x4 b h s) := by
  have hfold : val_main_v22 (F := Ideal) x0 x1 x2 x3 x4 (ix3 b h s) = rowMax (scoreRow x0 x1 x2 x3 x4 b h s) := by
    unfold val_main_v22
    exact hostLastMax4_apply (val_main_v21 (F := Ideal) x0 x1 x2 x3 x4) reducesTo_S2x16x2048x2048_S2x16x2048_d3 (by decide)
      h_S_ b h s
  rw [val_main_v24_apply, val_main_v23_apply, val_main_cst_1_apply, Ideal.maximumf_def, Ideal.ofBits_def, hfold, rowMax,
    negInf]
  exact max_eq_right ((Finset.le_fold_max _).mpr (Or.inl le_rfl))

/-- The row maximum broadcast back along the key axis reads at (b, h, s). -/
theorem idx_keep (j : Fin 2048) : idx_main_v25 (idx_main_v26 (ix4 b h s j)) = ix3 b h s :=
  funext fun a => Fin.ext (by match a with | ⟨0, _⟩ => rfl | ⟨1, _⟩ => rfl | ⟨2, _⟩ => rfl)

/-- So does the row sum. -/
theorem idx_keep' (j : Fin 2048) : idx_main_v30 (idx_main_v31 (ix4 b h s j)) = ix3 b h s :=
  funext fun a => Fin.ext (by match a with | ⟨0, _⟩ => rfl | ⟨1, _⟩ => rfl | ⟨2, _⟩ => rfl)

/-- Term k of the row sum at (b, h, s) is the entry (b, h, s, k). -/
theorem idx_sum (k : Fin 2048) : idx_main_v29 (ix3 b h s) k = ix4 b h s k :=
  funext fun a => Fin.ext (by match a with | ⟨0, _⟩ => rfl | ⟨1, _⟩ => rfl | ⟨2, _⟩ => rfl | ⟨3, _⟩ => rfl)

/-- The unnormalised weight of key row j. -/
theorem weight_apply (j : Fin 2048) :
    val_main_v28 (F := Ideal) x0 x1 x2 x3 x4 (ix4 b h s j) = weight (scoreRow x0 x1 x2 x3 x4 b h s) j := by
  rw [val_main_v28_apply, val_main_v27_apply, val_main_v26_apply, val_main_v25_apply, idx_keep, rowmax_apply,
    Ideal.hostUnary_exp_def, Ideal.subf_def]
  rfl

/-- The sum of the row's weights: the sum from the value of the zero pattern. -/
theorem sum_apply :
    val_main_v29 (F := Ideal) x0 x1 x2 x3 x4 (ix3 b h s) = ∑ k : Fin 2048, weight (scoreRow x0 x1 x2 x3 x4 b h s) k := by
  rw [val_main_v29_apply, val_main_cst_2_apply, Ideal.ofBits_def, Ideal.ofBits_zero_f32, zero_add]
  refine Finset.sum_congr rfl fun k _ => ?_
  rw [idx_sum, weight_apply]

/-- The normalised weight of key row j. -/
theorem prob_apply (j : Fin 2048) :
    val_main_v32 (F := Ideal) x0 x1 x2 x3 x4 (ix4 b h s j) = prob (scoreRow x0 x1 x2 x3 x4 b h s) j := by
  rw [val_main_v32_apply, val_main_v31_apply, val_main_v30_apply, idx_keep', sum_apply, weight_apply, Ideal.hostDivf_def]
  rfl

end Row

end Cert.ReferenceIdeal.RefValue

end
-- ==== Proof.RefIsSpec.lean ====
/-
  The reference program computes the specification's array.

  The context at (b, h, s, dh) is the sum over the 2048 key rows of the normalised weight times the value entry; the
  transpose and reshape back to [2, 2048, 1024] put head d / 64, column d % 64 at position d; the result is the product
  of that row with a row of the output matrix, plus the output bias. Chained with the projected heads, the scores and
  the softmax, every entry of the reference's result is the specification's entry.
-/
import proofs.«107395_j884763263199_2_alg».proof.Proof.RefIsSpecSoftmax

noncomputable section

namespace Cert.ReferenceIdeal.RefValue

open Cert.ReferenceIdeal Cert.ReferenceIdeal.Gen Cert.ReferenceIdeal.Read Idealize.ShloMosaic Idealize.ShloMosaic.ValueIdx
  Idealize.ShloMosaic.StableHlo Cert.AttnSpec

/-! ## The context -/

/-- The left operand of the context's contraction at (b, h, s, dh), term k, is the normalised weight at (b, h, s, k). -/
theorem lidx_ctx (b : Fin 2) (h : Fin 16) (s : Fin 2048) (dh : Fin 64) (k : Fin 2048) :
    lidx_main_v33 (ix4 b h s dh) k = ix4 b h s k :=
  funext fun a => Fin.ext (by match a with | ⟨0, _⟩ => rfl | ⟨1, _⟩ => rfl | ⟨2, _⟩ => rfl | ⟨3, _⟩ => rfl)

/-- The right operand of the context's contraction at (b, h, s, dh), term k, is the value at (b, h, k, dh). -/
theorem ridx_ctx (b : Fin 2) (h : Fin 16) (s : Fin 2048) (dh : Fin 64) (k : Fin 2048) :
    ridx_main_v33 (ix4 b h s dh) k = ix4 b h k dh :=
  funext fun a => Fin.ext (by match a with | ⟨0, _⟩ => rfl | ⟨1, _⟩ => rfl | ⟨2, _⟩ => rfl | ⟨3, _⟩ => rfl)

section Whole
variable (x0 : (⟨S2x2048x1024, .f32⟩ : BufTy).Contents (Elt Ideal)) (x1 : (⟨S1024x1024, .f32⟩ : BufTy).Contents (Elt Ideal))
  (x2 : (⟨S1024, .f32⟩ : BufTy).Contents (Elt Ideal)) (x3 : (⟨S1024x1024, .f32⟩ : BufTy).Contents (Elt Ideal))
  (x4 : (⟨S1024, .f32⟩ : BufTy).Contents (Elt Ideal)) (x5 : (⟨S1024x1024, .f32⟩ : BufTy).Contents (Elt Ideal))
  (x6 : (⟨S1024, .f32⟩ : BufTy).Contents (Elt Ideal)) (x7 : (⟨S1024x1024, .f32⟩ : BufTy).Contents (Elt Ideal))
  (x8 : (⟨S1024, .f32⟩ : BufTy).Contents (Elt Ideal))

/-- The row of scores of query row (b, h, s), from the projections of the arguments. -/
theorem scoreRow_eq (b : Fin 2) (h : Fin 16) (s : Fin 2048) :
    scoreRow x0 x1 x2 x3 x4 b h s
      = score (fun d => proj (fun d' => x0 (ix3 b s d')) (fun e d' => x1 (ix2 e d')) (fun e => x2 (ix1 e)) (headCol h d))
          (fun j d => proj (fun d' => x0 (ix3 b j d')) (fun e d' => x3 (ix2 e d')) (fun e => x4 (ix1 e)) (headCol h d)) := by
  funext j
  rw [scoreRow, score_apply]
  simp only [v11_eq_v5, head_apply]

/-- The context at (b, h, s, dh). -/
theorem ctx_apply (b : Fin 2) (h : Fin 16) (s : Fin 2048) (dh : Fin 64) :
    val_main_v33 (F := Ideal) x0 x1 x2 x3 x4 x5 x6 (ix4 b h s dh)
      = ctx (fun b s d => x0 (ix3 b s d)) (fun e d => x1 (ix2 e d)) (fun e d => x3 (ix2 e d)) (fun e d => x5 (ix2 e d))
          (fun e => x2 (ix1 e)) (fun e => x4 (ix1 e)) (fun e => x6 (ix1 e)) b h s dh := by
  rw [val_main_v33_apply]
  simp only [lidx_ctx, ridx_ctx, prob_apply, scoreRow_eq, v17_eq_v5, head_apply]
  rfl

/-! ## The output projection -/

/-- The heads merged back: entry (b, s, d) of the [2, 2048, 1024] context is entry (b, d / 64, s, d % 64) of the
    [2, 16, 2048, 64] one. -/
theorem idx_merge (b : Fin 2) (s : Fin 2048) (d : Fin 1024) :
    idx_main_v34 (idx_main_v35 (ix3 b s d))
      = ix4 b (⟨d.val / 64, by omega⟩ : Fin 16) s (⟨d.val % 64, by omega⟩ : Fin 64) :=
  funext fun a => Fin.ext (by
    have hb := b.isLt; have hs := s.isLt; have hd := d.isLt
    match a with
    | ⟨0, _⟩ => show ((b.val * 2048 + s.val) * 1024 + d.val) / 2097152 = b.val; omega
    | ⟨1, _⟩ => show ((b.val * 2048 + s.val) * 1024 + d.val) / 64 % 16 = d.val / 64; omega
    | ⟨2, _⟩ => show ((b.val * 2048 + s.val) * 1024 + d.val) / 1024 % 2048 = s.val; omega
    | ⟨3, _⟩ => show ((b.val * 2048 + s.val) * 1024 + d.val) % 64 = d.val % 64; omega)

/-- The left operand of the output contraction at (b, s, e), term k, is the merged context at (b, s, k). -/
theorem lidx_out (b : Fin 2) (s : Fin 2048) (e k : Fin 1024) : lidx_main_v36 (ix3 b s e) k = ix3 b s k :=
  funext fun a => Fin.ext (by match a with | ⟨0, _⟩ => rfl | ⟨1, _⟩ => rfl | ⟨2, _⟩ => rfl)

/-- The right operand of the output contraction at (b, s, e), term k, is the output matrix at (e, k). -/
theorem ridx_out (b : Fin 2) (s : Fin 2048) (e k : Fin 1024) : ridx_main_v36 (ix3 b s e) k = ix2 e k :=
  funext fun a => Fin.ext (by match a with | ⟨0, _⟩ => rfl | ⟨1, _⟩ => rfl)

/-- The broadcast output bias at (b, s, e) is the bias at e. -/
theorem idx_obias (b : Fin 2) (s : Fin 2048) (e : Fin 1024) : idx_main_v37 (idx_main_v38 (ix3 b s e)) = ix1 e :=
  funext fun a => Fin.ext (by match a with | ⟨0, _⟩ => rfl)

/-- The reference's result is the specification's array. -/
theorem ref_eq : val_main_v39 (F := Ideal) x0 x1 x2 x3 x4 x5 x6 x7 x8 = G x0 x1 x2 x3 x4 x5 x6 x7 x8 := by
  funext i
  obtain ⟨b, s, e, rfl⟩ : ∃ (b : Fin 2) (s : Fin 2048) (e : Fin 1024), i = ix3 b s e := ⟨i 0, i 1, i 2, eq_ix3 i⟩
  rw [G_apply, val_main_v39_apply, val_main_v36_apply, val_main_v38_apply, val_main_v37_apply, idx_obias, Ideal.addf_def]
  simp only [lidx_out, ridx_out, val_main_v35_apply, val_main_v34_apply, idx_merge, ctx_apply]
  rfl

end Whole

end Cert.ReferenceIdeal.RefValue

end
-- ==== Proof.lean ====
/-
  The certificate of a multi-head attention kernel against its plain reference.

  The program runs two kernel regions between host operations: a fused projection x · [Wqᵀ | Wkᵀ | Wvᵀ] + [bq | bk | bv],
  blocked over 512-row tiles, and an attention region over (batch, query tile, head) that keeps an accumulator across
  the 16 heads of a tile — zeroed at the first head, increased by the head's context times its 64 rows of Woᵀ, and
  written out with the output bias at the last. Both regions run to the end without fault and write only their own
  result arrays, so the arguments end as launched (the frames, at the word level and at the ideal values alike; the
  reference is host operations only). The idealization rewrote no operation, so it is preserved trivially. At the ideal
  values — floats extended reals, a change of format the identity — the program's result is the specification
  `Cert.AttnSpec.G` of the arguments: every blocked sum is a re-association of the reference's sums, the kernel's scale
  2⁻⁵ is the reference's division by √1024 = 32, and both softmaxes are the same function of the scores; the reference's
  result is that same function, read off its run one operation at a time.
-/
import proofs.«107395_j884763263199_2_alg».proof.Defs
import proofs.«107395_j884763263199_2_alg».proof.Proof.Gen.Kernel
import proofs.«107395_j884763263199_2_alg».proof.Proof.Gen.KernelIdeal
import proofs.«107395_j884763263199_2_alg».proof.Proof.Gen.ReferenceIdeal
import proofs.«107395_j884763263199_2_alg».proof.Proof.Gen.ReferenceIdeal.Read
import proofs.«107395_j884763263199_2_alg».proof.Proof.Gen.Pre_finite_inputs
import proofs.«107395_j884763263199_2_alg».proof.Proof.Bits.Run
import proofs.«107395_j884763263199_2_alg».proof.Proof.Run
import proofs.«107395_j884763263199_2_alg».proof.Proof.KernelIsSpec
import proofs.«107395_j884763263199_2_alg».proof.Proof.RefIsSpec
import Idealize.ShloMosaic.Adequacy
import Idealize.ShloMosaic.Init

noncomputable section

namespace Cert.Proof

open Idealize.ShloMosaic Idealize.ShloMosaic.TcCoe Idealize.SL.Sem

/-- The printed program runs to the end and leaves its arguments as launched. -/
theorem frame_p : Cert.frame_Kernel := fun m ρ _ => Cert.Kernel.Hand.frame (F := Bits) m ρ

/-- So does its idealization. -/
theorem frame_pi : Cert.frame_KernelIdeal := fun m ρ _ => Cert.KernelIdeal.Hand.frame (F := Ideal) m ρ

/-- The reference is host operations only: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- At the ideal values both programs, run from memories agreeing on the arguments, end with the specification of
    the arguments in their result arrays. -/
theorem algebraic : Cert.algebraic_KernelIdeal_ReferenceIdeal := by
  intro m ρ m' ρ' _ hagree
  refine ⟨fun c => Cert.AttnSpec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · refine (θ_run Cert.KernelIdeal.defs _ _).mono (fun r h c => ⟨?_, Cert.KernelIdeal.Hand.args_kept m c r.2.mem (h c)⟩)
      (Cert.KernelIdeal.Hand.run_all (F := Ideal) m ρ)
    exact (h c _ (Cert.KernelIdeal.Hand.mem_uc Cert.KernelIdeal.main_v26 (by decide))).trans (Cert.KernelIdeal.Hand.kernel_value m c)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v39_eq, Cert.ReferenceIdeal.RefValue.ref_eq,
      (hagree c).1, (hagree c).2.1, (hagree c).2.2.1, (hagree c).2.2.2.1, (hagree c).2.2.2.2.1, (hagree c).2.2.2.2.2.1,
      (hagree c).2.2.2.2.2.2.1, (hagree c).2.2.2.2.2.2.2.1, (hagree c).2.2.2.2.2.2.2.2]

theorem claim : Cert.Claim :=
  ⟨Cert.Kernel.Gen.facts, Cert.KernelIdeal.Gen.facts, Cert.ReferenceIdeal.Gen.facts, Cert.Pre_finite_inputs.Gen.facts,
    frame_p, frame_pi, frame_ri, trivial, algebraic⟩

end Cert.Proof

end
